-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x64 : Shape := ⟨2, ![1024, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8192x1024 .f32) (main_arg1 : FVec F S1024x64 .f32) (main_arg2 : FVec F S1024x64 .f32) (main_arg3 : FVec F S1024x64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8192x1024 : Shape := ⟨2, ![8192, 1024]⟩
abbrev S1024x64 : Shape := ⟨2, ![1024, 64]⟩
abbrev S1024x128 : Shape := ⟨2, ![1024, 128]⟩
abbrev S8192x128 : Shape := ⟨2, ![8192, 128]⟩
abbrev S1024x1024 : Shape := ⟨2, ![1024, 1024]⟩
abbrev S8192x64 : Shape := ⟨2, ![8192, 64]⟩
abbrev S1024x1 : Shape := ⟨2, ![1024, 1]⟩
abbrev S64x1024 : Shape := ⟨2, ![64, 1024]⟩
abbrev S1024 : Shape := ⟨1, ![1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x64, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x64, .f32⟩
  | .local _ .vmem, ⟨15, _⟩ => ⟨S1024x64, .f32⟩
  | .local _ .vmem, ⟨16, _⟩ => ⟨S1024x1, .f32⟩
  | .local _ .vmem, ⟨17, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_18 : BitVec 32 := 0#32
  let v40 : BitVec 1 := Scalar.cmpi .ne v39 c0_i32_18
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x64_S1024x64_S1024x128_d1 : Shape.Concatenates [S1024x64, S1024x64] S1024x128 1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x64_S1024x64_0_0 : ∀ a, (![0, 0] : Fin 2 → Nat) a + S1024x64.size a ≤ S1024x64.size a
  h_S1024x64 : 0 < S1024x64.numel
  iota_S1024x64_d1_w32 : S1024x64.Iotas .tc 32 [1]
  inb_S1024x128_S1024x64_0_0 : ∀ a, (![0, 0] : Fin 2 → Nat) a + S1024x64.size a ≤ S1024x128.size a
  inb_S1024x128_S1024x64_0_64 : ∀ a, (![0, 64] : Fin 2 → Nat) a + S1024x64.size a ≤ S1024x128.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  inb_S1024x128_S1024x1_0_64 : ∀ a, (![0, 64] : Fin 2 → Nat) a + S1024x1.size a ≤ S1024x128.size a
  broadcasts_S1024x1_S1024x64 : S1024x1.Broadcasts S1024x64
  dot_S1024x1024_S1024x128_S1024x128_1_0_0_1_n_n_wf : DotDims.WF S1024x1024 S1024x128 S1024x128 [1] [0] [0] [1] [] []
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x64 : Shape := ⟨2, ![1024, 64]⟩
abbrev S8192x64 : Shape := ⟨2, ![8192, 64]⟩
abbrev S_ : Shape := ⟨0, ![]⟩
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x64_S8192x64_1_0_0_1_n_n_wf : DotDims.WF S8192x1024 S1024x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KBRegion0.lean ====
/-
  The projection kernel (the first of the program's two kernels) at a parameter `V`, the buffer contents when its
  region is entered. Grid of 8 points; at point `t` the body reads rows `1024·t … 1024·t + 1023` of `x` (window 0), the
  whole concatenated weight `[w_q | w_k]` (window 1) and the whole `w_v` (window 2), and stores the block's product with
  `[w_q | w_k]` into window 3 and, into window 4, the block's product with `w_v` in columns `0 … 63` beside the
  pattern "1 in column 64, 0 in columns 65 … 127". The body's triple, the proof data and the body obligation.
-/
import proofs.«106157_j5660766896751_2_alg».proof.Proof.Gen.Kernel.Launch
import proofs.«106157_j5660766896751_2_alg».proof.Proof.Gen.Kernel.Skeleton
import proofs.«106157_j5660766896751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles -/

/-- The whole `1024 × 1024` block of `x`. -/
abbrev rX : Rect S1024x1024 := Rect.unit (s := S1024x1024) ![0, 0] S1024x1024.size inb_S1024x1024_S1024x1024_0_0
/-- A whole `1024 × 128` buffer. -/
abbrev rW128 : Rect S1024x128 := Rect.unit (s := S1024x128) ![0, 0] S1024x128.size inb_S1024x128_S1024x128_0_0
/-- The whole `1024 × 64` weight `w_v`. -/
abbrev rW64 : Rect S1024x64 := Rect.unit (s := S1024x64) ![0, 0] S1024x64.size inb_S1024x64_S1024x64_0_0
/-- Columns `0 … 63` of a `1024 × 128` buffer. -/
abbrev rLo : Rect S1024x128 := Rect.unit (s := S1024x128) ![0, 0] S1024x64.size inb_S1024x128_S1024x64_0_0
/-- Columns `64 … 127` of a `1024 × 128` buffer. -/
abbrev rHi : Rect S1024x128 := Rect.unit (s := S1024x128) ![0, 64] S1024x64.size inb_S1024x128_S1024x64_0_64

/-! ## What the body leaves in each output window's buffer -/

/-- Window 3's buffer after the body: the one store of the block's product with `[w_q | w_k]`. -/
def out0_3 (x0 : Vec F S1024x1024 .f32) (x1 : Vec F S1024x128 .f32) : Vec F S1024x128 .f32 :=
  View.canon [⟨rW128, k0_pay2 (View.ld x0 rX) (View.ld x1 rW128)⟩]

/-- Window 4's buffer after the body: the pattern in the upper columns (stored last), the product with `w_v` in the lower. -/
def out0_4 (x0 : Vec F S1024x1024 .f32) (x2 : Vec F S1024x64 .f32) : Vec F S1024x128 .f32 :=
  View.canon [⟨rHi, k0_pay4 (F := F)⟩, ⟨rLo, k0_pay3 (View.ld x0 rX) (View.ld x2 rW64)⟩]

theorem cover0_3 (p0 : Vec F S1024x128 .f32) (y : S1024x128.Idx) :
    ∃ pc ∈ ([⟨rW128, p0⟩] : List (View.Piece (Elt F) S1024x128 .f32)), y ∈ pc.1.set :=
  View.cover_of_tiled [⟨rW128, p0⟩] S1024x128.size (by rfl) y

theorem cover0_4 (p0 p1 : Vec F S1024x64 .f32) (y : S1024x128.Idx) :
    ∃ pc ∈ ([⟨rHi, p0⟩, ⟨rLo, p1⟩] : List (View.Piece (Elt F) S1024x128 .f32)), y ∈ pc.1.set :=
  View.cover_of_tiled [⟨rHi, p0⟩, ⟨rLo, p1⟩] S1024x64.size (by rfl) y

/-! ## The body's triple -/

set_option maxHeartbeats 4000000 in
/-- The body on whole staging memrefs, the inputs' at contents `x0 x1 x2` and the outputs' at anything, runs to the
    continuation holding the inputs' as they were and the outputs' at `out0_3`, `out0_4` of the inputs'. -/
theorem sound_kernel0 (c : Dev nD) (E : Set ℕ) (i : grid0.Coords)
    (arg1 : Memref sig .tc .vmem S1024x1024 .f32) (harg1 : arg1.IsWhole) (arg2 : Memref sig .tc .vmem S1024x128 .f32) (harg2 : arg2.IsWhole)
    (arg3 : Memref sig .tc .vmem S1024x64 .f32) (harg3 : arg3.IsWhole) (arg4 : Memref sig .tc .vmem S1024x128 .f32) (harg4 : arg4.IsWhole)
    (arg5 : Memref sig .tc .vmem S1024x128 .f32) (harg5 : arg5.IsWhole)
    (x0 : Vec F S1024x1024 .f32) (x1 : Vec F S1024x128 .f32) (x2 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _ _)

/-! ## The proof data -/

/-- The proof data of the projection kernel's pipeline on core `c`: the arrays as the region finds them; after the body
    at point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBRuns1.lean ====
/-
  The attention kernel (the second of the program's two kernels): what its three control cases share. Grid of 8 × 8
  points, query block `qi` outermost, key block `ki` innermost; the point `t` has `ki = t mod 8`. The body resets its two
  carried scratch buffers (the running maximum, `1024 × 1`, and the running accumulator, `1024 × 128`) where `ki = 0`,
  updates both at every point, and stores the normalised accumulator into the output window where `ki = 7`; at the
  other points the output window is left untouched and is not written back. The branch conditions in closed form,
  where the output window is idle, the staging and scratch memrefs, the region invariant with the scratch named.
-/
import proofs.«106157_j5660766896751_2_alg».proof.Proof.Gen.Kernel.Launch
import proofs.«106157_j5660766896751_2_alg».proof.Proof.Gen.Kernel.Skeleton
import proofs.«106157_j5660766896751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The reset's condition, `ki = 0`, as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The final store's condition, `ki = 7`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The running maximum's scratch buffer. -/
abbrev scM1_0 : Memref sig .tc .vmem S1024x1 .f32 := Memref.whole cc1_scratch0
/-- The running accumulator's scratch buffer. -/
abbrev scM1_1 : Memref sig .tc .vmem S1024x128 .f32 := Memref.whole cc1_scratch1
/-- One staging buffer of the output window, through which its contents are stated. -/
abbrev VO1_3 : View sig .tc .vmem S1024x64 .f32 := (Memref.whole cc1_stg3_0 : Memref sig .tc .vmem S1024x64 .f32).view
abbrev VS1_0 : View sig .tc .vmem S1024x1 .f32 := scM1_0.view
abbrev VS1_1 : View sig .tc .vmem S1024x128 .f32 := scM1_1.view

/-! ## The region invariant with the scratch buffers split off -/

/-- The scoped buffers this kernel never touches (the other kernel's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant hands the body the untouched buffers, the two scratch buffers at some contents and the generator register. -/
theorem PhiA1_split (c : Dev nD) :
    (Pipeline.ΦA spec1 c : sProp 𝕄)
      ⊢ iprop(rest1 (F := F) c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  iintro ⟨⟨A1, A2, A3, A4, A5, A6, A7, A8, S0, S1⟩, Hg⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [S0]; · iexact S0
  isplitl [S1]; · iexact S1
  iexact Hg

/-- And takes them back. -/
theorem PhiA1_join (c : Dev nD) :
    iprop(rest1 (F := F) c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA rest1; rw [scopedRest1_eq]; simp only [scM1_0, scM1_1, owns_whole]
  iintro ⟨⟨A1, A2, A3, A4, A5, A6, A7, A8⟩, S0, S1, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S0]; · iexact S0
    iexact S1
  iexact Hg

end Cert.Kernel.Hand

end
-- ==== Proof.KBRun1A.lean ====
/-
  The attention kernel's body run whole in the case where the key block is the row's first (the scratch buffers are reset; the output window is left untouched): the pieces each buffer ends with are found by the run.
-/
import proofs.«106157_j5660766896751_2_alg».proof.Proof.KBRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref (`.1`), in the running maximum's scratch (`.2.1`) and in
    the running accumulator's scratch (`.2.2.1`), as pieces, last first, with the proof that on whole memrefs the body
    runs from the inputs' blocks to the continuation holding the inputs' as they were and those pieces written. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 x1 x2 : Vec F S1024x128 .f32) :
    Σ' (L3 : List (View.Piece (Elt F) S1024x64 .f32)), Σ' (LS0 : List (View.Piece (Elt F) S1024x1 .f32)), { LS1 : List (View.Piece (Elt F) S1024x128 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KBRun1B.lean ====
/-
  The attention kernel's body run whole in the case where the key block is neither the first nor the last (the scratch buffers are updated from what the point before left; the output window is left untouched): the pieces each buffer ends with are found by the run.
-/
import proofs.«106157_j5660766896751_2_alg».proof.Proof.KBRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref (`.1`), in the running maximum's scratch (`.2.1`) and in
    the running accumulator's scratch (`.2.2.1`), as pieces, last first, with the proof that on whole memrefs the body
    runs from the inputs' blocks to the continuation holding the inputs' as they were and those pieces written. -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 x1 x2 : Vec F S1024x128 .f32) (xs0 : Vec F S1024x1 .f32) (xs1 : Vec F S1024x128 .f32) :
    Σ' (L3 : List (View.Piece (Elt F) S1024x64 .f32)), Σ' (LS0 : List (View.Piece (Elt F) S1024x1 .f32)), { LS1 : List (View.Piece (Elt F) S1024x128 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KBRun1C.lean ====
/-
  The attention kernel's body run whole in the case where the key block is the row's last (the scratch buffers are updated and the normalised accumulator is stored into the output window): the pieces each buffer ends with are found by the run.
-/
import proofs.«106157_j5660766896751_2_alg».proof.Proof.KBRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref (`.1`), in the running maximum's scratch (`.2.1`) and in
    the running accumulator's scratch (`.2.2.1`), as pieces, last first, with the proof that on whole memrefs the body
    runs from the inputs' blocks to the continuation holding the inputs' as they were and those pieces written. -/
noncomputable def kernelRun1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 x1 x2 : Vec F S1024x128 .f32) (xs0 : Vec F S1024x1 .f32) (xs1 : Vec F S1024x128 .f32) :
    Σ' (L3 : List (View.Piece (Elt F) S1024x64 .f32)), Σ' (LS0 : List (View.Piece (Elt F) S1024x1 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.KBRegion1.lean ====
/-
  The attention kernel's proof data: what the output window's staging buffer and the two carried scratch buffers hold
  after each grid point, by recursion on the point — the case the point's key-block index selects (first, middle,
  last), run on the point's input blocks and, past a row's first key block, on what the point before left in the
  scratch buffers —, the region invariant naming the scratch contents, and the body obligation at every point.
-/
import proofs.«106157_j5660766896751_2_alg».proof.Proof.KBRun1A
import proofs.«106157_j5660766896751_2_alg».proof.Proof.KBRun1B
import proofs.«106157_j5660766896751_2_alg».proof.Proof.KBRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases at a grid point -/

/-- The first-key-block case run at point `t`'s memrefs. -/
abbrev runA (c : Dev nD) (t : Fin cfg1.N) (hc0 : cond1_0 (grid1.coords t)) (hc1 : ¬cond1_1 (grid1.coords t)) (x0 x1 x2 : Vec F S1024x128 .f32) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) hc0 hc1 x0 x1 x2
/-- The middle case. -/
abbrev runB (c : Dev nD) (t : Fin cfg1.N) (hc0 : ¬cond1_0 (grid1.coords t)) (hc1 : ¬cond1_1 (grid1.coords t)) (x0 x1 x2 : Vec F S1024x128 .f32) (xs0 : Vec F S1024x1 .f32) (xs1 : Vec F S1024x128 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) hc0 hc1 x0 x1 x2 xs0 xs1
/-- The last-key-block case. -/
abbrev runC (c : Dev nD) (t : Fin cfg1.N) (hc0 : ¬cond1_0 (grid1.coords t)) (hc1 : cond1_1 (grid1.coords t)) (x0 x1 x2 : Vec F S1024x128 .f32) (xs0 : Vec F S1024x1 .f32) (xs1 : Vec F S1024x128 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) hc0 hc1 x0 x1 x2 xs0 xs1

/-- A list of pieces read back over junk, through the output window's view, -/
abbrev rdO (L : List (View.Piece (Elt F) S1024x64 .f32)) : Vec F S1024x64 .f32 := VO1_3.read (Elt F) (VO1_3.writes (Elt F) VO1_3.junk L)
/-- through the running maximum's scratch, -/
abbrev rdS0 (L : List (View.Piece (Elt F) S1024x1 .f32)) : Vec F S1024x1 .f32 := VS1_0.read (Elt F) (VS1_0.writes (Elt F) VS1_0.junk L)
/-- through the running accumulator's scratch. -/
abbrev rdS1 (L : List (View.Piece (Elt F) S1024x128 .f32)) : Vec F S1024x128 .f32 := VS1_1.read (Elt F) (VS1_1.writes (Elt F) VS1_1.junk L)

/-- What the first-key-block case leaves (the output window's unread value, the maximum, the accumulator). -/
def caseA (c : Dev nD) (t : Fin cfg1.N) (hc0 : cond1_0 (grid1.coords t)) (hc1 : ¬cond1_1 (grid1.coords t)) (x0 x1 x2 : Vec F S1024x128 .f32) :
    Vec F S1024x64 .f32 × Vec F S1024x1 .f32 × Vec F S1024x128 .f32 :=
  (rdO (runA c t hc0 hc1 x0 x1 x2).1, rdS0 (runA c t hc0 hc1 x0 x1 x2).2.1, rdS1 (runA c t hc0 hc1 x0 x1 x2).2.2.1)
def caseB (c : Dev nD) (t : Fin cfg1.N) (hc0 : ¬cond1_0 (grid1.coords t)) (hc1 : ¬cond1_1 (grid1.coords t)) (x0 x1 x2 : Vec F S1024x128 .f32) (xs0 : Vec F S1024x1 .f32) (xs1 : Vec F S1024x128 .f32) :
    Vec F S1024x64 .f32 × Vec F S1024x1 .f32 × Vec F S1024x128 .f32 :=
  (rdO (runB c t hc0 hc1 x0 x1 x2 xs0 xs1).1, rdS0 (runB c t hc0 hc1 x0 x1 x2 xs0 xs1).2.1, rdS1 (runB c t hc0 hc1 x0 x1 x2 xs0 xs1).2.2.1)
def caseC (c : Dev nD) (t : Fin cfg1.N) (hc0 : ¬cond1_0 (grid1.coords t)) (hc1 : cond1_1 (grid1.coords t)) (x0 x1 x2 : Vec F S1024x128 .f32) (xs0 : Vec F S1024x1 .f32) (xs1 : Vec F S1024x128 .f32) :
    Vec F S1024x64 .f32 × Vec F S1024x1 .f32 × Vec F S1024x128 .f32 :=
  (rdO (runC c t hc0 hc1 x0 x1 x2 xs0 xs1).1, rdS0 (runC c t hc0 hc1 x0 x1 x2 xs0 xs1).2.1, rdS1 (runC c t hc0 hc1 x0 x1 x2 xs0 xs1).2.2.1)

/-! ## The pieces cover their buffers -/

theorem scoverA_0 (c : Dev nD) (t : Fin cfg1.N) (hc0) (hc1) (x0 x1 x2 : Vec F S1024x128 .f32) (y : S1024x1.Idx) :
    ∃ pc ∈ (runA c t hc0 hc1 x0 x1 x2).2.1, y ∈ pc.1.set :=
  View.cover_of_tiledL (runA c t hc0 hc1 x0 x1 x2).2.1 S1024x1.size (by sl_kernel_rfl) y
theorem scoverA_1 (c : Dev nD) (t : Fin cfg1.N) (hc0) (hc1) (x0 x1 x2 : Vec F S1024x128 .f32) (y : S1024x128.Idx) :
    ∃ pc ∈ (runA c t hc0 hc1 x0 x1 x2).2.2.1, y ∈ pc.1.set :=
  View.cover_of_tiledL (runA c t hc0 hc1 x0 x1 x2).2.2.1 S1024x128.size (by sl_kernel_rfl) y
theorem scoverB_0 (c : Dev nD) (t : Fin cfg1.N) (hc0) (hc1) (x0 x1 x2 : Vec F S1024x128 .f32) (xs0) (xs1) (y : S1024x1.Idx) :
    ∃ pc ∈ (runB c t hc0 hc1 x0 x1 x2 xs0 xs1).2.1, y ∈ pc.1.set :=
  View.cover_of_tiledL (runB c t hc0 hc1 x0 x1 x2 xs0 xs1).2.1 S1024x1.size (by sl_kernel_rfl) y
theorem scoverB_1 (c : Dev nD) (t : Fin cfg1.N) (hc0) (hc1) (x0 x1 x2 : Vec F S1024x128 .f32) (xs0) (xs1) (y : S1024x128.Idx) :
    ∃ pc ∈ (runB c t hc0 hc1 x0 x1 x2 xs0 xs1).2.2.1, y ∈ pc.1.set :=
  View.cover_of_tiledL (runB c t hc0 hc1 x0 x1 x2 xs0 xs1).2.2.1 S1024x128.size (by sl_kernel_rfl) y
theorem scoverC_0 (c : Dev nD) (t : Fin cfg1.N) (hc0) (hc1) (x0 x1 x2 : Vec F S1024x128 .f32) (xs0) (xs1) (y : S1024x1.Idx) :
    ∃ pc ∈ (runC c t hc0 hc1 x0 x1 x2 xs0 xs1).2.1, y ∈ pc.1.set :=
  View.cover_of_tiledL (runC c t hc0 hc1 x0 x1 x2 xs0 xs1).2.1 S1024x1.size (by sl_kernel_rfl) y
theorem scoverC_1 (c : Dev nD) (t : Fin cfg1.N) (hc0) (hc1) (x0 x1 x2 : Vec F S1024x128 .f32) (xs0) (xs1) (y : S1024x128.Idx) :
    ∃ pc ∈ (runC c t hc0 hc1 x0 x1 x2 xs0 xs1).2.2.1, y ∈ pc.1.set :=
  View.cover_of_tiledL (runC c t hc0 hc1 x0 x1 x2 xs0 xs1).2.2.1 S1024x128.size (by sl_kernel_rfl) y
theorem coverC_3 (c : Dev nD) (t : Fin cfg1.N) (hc0) (hc1) (x0 x1 x2 : Vec F S1024x128 .f32) (xs0) (xs1) (y : S1024x64.Idx) :
    ∃ pc ∈ (runC c t hc0 hc1 x0 x1 x2 xs0 xs1).1, y ∈ pc.1.set :=
  View.cover_of_tiledL (runC c t hc0 hc1 x0 x1 x2 xs0 xs1).1 S1024x64.size (by sl_kernel_rfl) y

section Region1

variable (V : (c : Dev nD) → (b : Ref sig .tc) → Buf (Elt F) ((c : Thread nD τ).loc b))

/-! ## What the buffers hold after each point -/

/-- After the body at position `n`: (the output window's staging buffer, the running maximum, the running accumulator). -/
def outsAt1 (c : Dev nD) : (n : ℕ) → n < cfg1.N → Vec F S1024x64 .f32 × Vec F S1024x1 .f32 × Vec F S1024x128 .f32
  | 0, hn => caseA c ⟨0, hn⟩ ((hcond1_0 ⟨0, hn⟩).mpr (Nat.zero_mod _)) (fun h => (fun h => by (try dsimp only at h); omega) ((hcond1_1 ⟨0, hn⟩).mp h))
      (iblk1 V c 0 ⟨0, hn⟩) (iblk1 V c 1 ⟨0, hn⟩) (iblk1 V c 2 ⟨0, hn⟩)
  | n + 1, hn =>
    if h0 : (n + 1) % 8 = 0 then
      if h1 : (n + 1) % 8 = 7 then
        False.elim (by omega)
      else
        caseA c ⟨n + 1, hn⟩ ((hcond1_0 ⟨n + 1, hn⟩).mpr h0) (fun h => h1 ((hcond1_1 ⟨n + 1, hn⟩).mp h))
          (iblk1 V c 0 ⟨n + 1, hn⟩) (iblk1 V c 1 ⟨n + 1, hn⟩) (iblk1 V c 2 ⟨n + 1, hn⟩)
    else
      if h1 : (n + 1) % 8 = 7 then
        caseC c ⟨n + 1, hn⟩ (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2
      else
        caseB c ⟨n + 1, hn⟩ (fun h => h0 ((hcond1_0 ⟨n + 1, hn⟩).mp h)) (fun h => h1 ((hcond1_1 ⟨n + 1, hn⟩).mp h))
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = caseA c t ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB c t (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC c t (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, the scratch contents named -/

/-- Before position `n`: at the first point the class's invariant (every scratch at anything); afterwards the untouched
    buffers, the two scratch buffers at what the point before left, and the generator register. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2.1)
      ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1_0 fullShare ((outsAt1 V c n hn).2.1)
      ∗ owns (c : Thread nD τ) scM1_1 fullShare ((outsAt1 V c n hn).2.2) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2.1)
      ∗ owns (c : Thread nD τ) scM1_1 fullShare ((outsAt1 V c (n - 1) (by omega)).2.2) ∗ (∃ r, prngReg c r)) := by
  cases n with
  | zero => exact absurd rfl hz
  | succ n => rfl

/-! ## The proof data -/

/-- The shares of the input arrays: the query and key windows read ONE array, half each; the value window's array whole. -/
def q1 : Fin cfg1.W → PosShare TreeShare
  | ⟨0, _⟩ => fullShare.left
  | ⟨1, _⟩ => fullShare.right
  | ⟨2, _⟩ => fullShare
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold caseA; (try dsimp only)
    have hpre : (dat1 V c).Φ t.castSucc ⊢ iprop(rest1 (F := F) c ∗ (∃ d, owns (c : Thread nD τ) scM1_0 fullShare d) ∗ (∃ d, owns (c : Thread nD τ) scM1_1 fullShare d) ∗ (∃ r, prngReg c r)) := by
      rw [PhiS1_castSucc V c t]
      by_cases hz : t.val = 0
      · rw [PhiS1_zero V c _ _ hz]; exact PhiA1_split c
      · rw [PhiS1_pos V c _ _ hz]
        iintro ⟨HR, HS0, HS1, Hg⟩
        isplitl [HR]; · iexact HR
        isplitl [HS0]; · iexists _; iexact HS0
        isplitl [HS1]; · iexists _; iexact HS1
        iexact Hg
    iintro ⟨HΦ, Ho, ⟨%d0, H0⟩, ⟨%d1, H1⟩, ⟨%d2, H2⟩, ⟨%d3, H3⟩⟩
    ihave HΦ' := hpre $$ HΦ
    icases HΦ' with ⟨HR, HS0, HS1, Hg⟩
    iapply ((runA c t ((hcond1_0 t).mpr h0) (fun h => h1 ((hcond1_1 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HR HS0 HS1 Hg]
    · isplitl [HR]; · iexact HR
      isplitl [HS0]
      · unfold owns; iexists _; isplitr
        swap; · iexact HS0
        ipureintro; exact View.read_writes_of_cover _ _ _ _ _ (scoverA_0 c t _ _ _ _ _)
      isplitl [HS1]
      · unfold owns; iexists _; isplitr
        swap; · iexact HS1
        ipureintro; exact View.read_writes_of_cover _ _ _ _ _ (scoverA_1 c t _ _ _ _ _)
      iexact Hg
    isplitl [Ho]; · iexact Ho
    isplitl [H0]; · iexact H0
    isplitl [H1]; · iexact H1
    isplitl [H2]; · iexact H2
    iexists _; iexact H3
  · have hz : t.val ≠ 0 := by intro e; rw [e] at h0; exact h0 (Nat.zero_mod _)
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold caseC; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((runC c t (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scoverC_0 c t _ _ _ _ _ _ _)
        isplitl [HS1]
        · unfold owns; iexists _; isplitr
          swap; · iexact HS1
          ipureintro; exact View.read_writes_of_cover _ _ _ _ _ (scoverC_1 c t _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold caseB; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((runB c t (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scoverB_0 c t _ _ _ _ _ _ _)
        isplitl [HS1]
        · unfold owns; iexists _; isplitr
          swap; · iexact HS1
          ipureintro; exact View.read_writes_of_cover _ _ _ _ _ (scoverB_1 c t _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch contents' names are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine .trans ?_ (PhiA1_join c)
  iintro ⟨HR, HS0, HS1, Hg⟩
  isplitl [HR]; · iexact HR
  isplitl [HS0]; · iexists _; iexact HS0
  isplitl [HS1]; · iexists _; iexact HS1
  iexact Hg

end Region1

end Cert.Kernel.Hand

end
-- ==== Proof.KBRunAll.lean ====
/-
  The whole program's run: the buffer contents at each boundary of @main (the launch memory; after the host's
  concatenation; after the projection kernel's region; after the attention kernel's region), each kernel's region as
  a segment between two of them, and the run itself — every weakly fair execution ends with the result buffer at
  what the attention kernel's write-backs leave and the four argument arrays as launched.

  The attention kernel reads the projection's first result through TWO input windows (queries and keys): the array's
  points-to is split into two half shares on entry and joined on exit.
-/
import proofs.«106157_j5660766896751_2_alg».proof.Proof.KBRegion0
import proofs.«106157_j5660766896751_2_alg».proof.Proof.KBRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host's concatenation of the two weight matrices. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection kernel's region: its arrays at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The attention kernel's result array after its region. -/
abbrev res (c : Dev nD) : Buf (Elt F) ((c : Thread nD τ).loc main_v2) := (dat1 (V2 m) c).arrAt 3 cfg1.N

/-- After the attention kernel's region: the result buffer at `res`, every other buffer as before. -/
def W3 (c : Dev nD) : Valuation τ sig (Elt F) :=
  Function.update (W2 m c) (Proc.devRef .tc main_v2) (res m c)
abbrev V3 : (c : Dev nD) → (b : Ref sig .tc) → Buf (Elt F) ((c : Thread nD τ).loc b) := fun c b => W3 m c b
theorem W3_res (c : Dev nD) : W3 m c (Proc.devRef .tc main_v2) = res m c := by
  unfold W3; exact Function.update_self _ _ _
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) _ _

/-! ## The arguments end as launched -/

theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of_ne m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of_ne m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_ne m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = m ((c : Thread nD τ).loc main_arg3) := W1_of_ne m c main_arg3 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The projection kernel's region as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention kernel's arrays, one by one -/

/-- The three distinct buffers behind the attention kernel's four windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1_0) ↦{fullShare} V main_v1_0) ∗ (((c : Thread nD τ).loc main_v1_1) ↦{fullShare} V main_v1_1) ∗ (((c : Thread nD τ).loc main_v2) ↦{fullShare} V main_v2)) := by
  unfold Pipeline.arrBufs
  exact bigSep_eq_bigSepL_of_eq [main_v1_0, main_v1_1, main_v2] (by decide) (by decide) _

/-- The windows' arrays at contents `G`: the projection's first result at the two half shares, its second and the result
    buffer whole. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v1_0) ↦{fullShare.left} G 0) ∗ (((c : Thread nD τ).loc main_v1_0) ↦{fullShare.right} G 1)
          ∗ (((c : Thread nD τ).loc main_v1_1) ↦{fullShare} G 2) ∗ (((c : Thread nD τ).loc main_v2) ↦{fullShare} G 3)) := by
  unfold Dat.arrays
  rw [bigSep_W1]
  rw [(arr_whole1 0).set_eq_univ, (arr_whole1 2).set_eq_univ, (arr_whole1 3).set_eq_univ]
  rfl

/-- A core's unscoped buffers are the three buffers behind the attention kernel's windows and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) :=
  Pipeline.unscopedBufs_split₀ (Ix := Unit) (Name := ℕ) (U := UR sig nD τ) (Lvl := ℕ) cfgs 1 winFacts₀1.arr_unscoped c V

/-- ENTRY of the attention kernel's region: the unscoped buffers make the windows' arrays at their entry contents — the
    projection's first result split into the two half shares its two windows read at — and the rest. -/
theorem hsplit1 (c : Dev nD) :
    (unscopedBufs (Ix := Unit) (Name := ℕ) (U := UR sig nD τ) (Lvl := ℕ) c (V2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  rw [split1 c (V2 m c), arrBufs1_eq, arrays1_eq]
  iintro ⟨⟨H10, H11, H2⟩, Hrest⟩
  ihave Hs := (pointsTo_share (PosShare.mem_left_op_right fullShare)).1 $$ H10
  icases Hs with ⟨Hl, Hr⟩
  isplitr [Hrest]
  · isplitl [Hl]; · iexact Hl
    isplitl [Hr]; · iexact Hr
    isplitl [H11]; · iexact H11
    iexact H2
  iexact Hrest

/-- EXIT: the two halves joined, the result buffer at what the write-backs leave, every other buffer as entered. -/
theorem hjoin1 (c : Dev nD) :
    iprop((dat1 (V2 m) c).arrays ((dat1 (V2 m) c).arrAt · cfg1.N)
          ∗ Pipeline.unscopedRest (Ix := Unit) (Name := ℕ) (U := UR sig nD τ) (Lvl := ℕ) spec1 c (V2 m c))
      ⊢ (unscopedBufs (Ix := Unit) (Name := ℕ) (U := UR sig nD τ) (Lvl := ℕ) c (V3 m c) : sProp 𝕄) := by
  rw [split1 c (V3 m c), arrBufs1_eq, arrays1_eq, unscopedRest1_eq c (V2 m c), unscopedRest1_eq c (V3 m c)]
  rw [(dat1 (V2 m) c).arrAt_in 0 rfl cfg1.N, (dat1 (V2 m) c).arrAt_in 1 rfl cfg1.N, (dat1 (V2 m) c).arrAt_in 2 rfl cfg1.N,
    A_eq1 (V2 m) c 0, A_eq1 (V2 m) c 1, A_eq1 (V2 m) c 2]
  rw [show V3 m c main_v1_0 = V2 m c main_v1_0 from W3_of_ne m c main_v1_0 (by decide),
    show V3 m c main_v1_1 = V2 m c main_v1_1 from W3_of_ne m c main_v1_1 (by decide),
    show V3 m c main_v2 = res m c from W3_res m c,
    show V3 m c main_arg0 = V2 m c main_arg0 from W3_of_ne m c main_arg0 (by decide),
    show V3 m c main_arg1 = V2 m c main_arg1 from W3_of_ne m c main_arg1 (by decide),
    show V3 m c main_arg2 = V2 m c main_arg2 from W3_of_ne m c main_arg2 (by decide),
    show V3 m c main_arg3 = V2 m c main_arg3 from W3_of_ne m c main_arg3 (by decide),
    show V3 m c main_v0 = V2 m c main_v0 from W3_of_ne m c main_v0 (by decide)]
  iintro ⟨⟨Hl, Hr, H11, H2⟩, Hrest⟩
  isplitr [Hrest]
  · isplitl [Hl Hr]
    · iapply (pointsTo_share (PosShare.mem_left_op_right fullShare)).2
      isplitl [Hl]; · iexact Hl
      iexact Hr
    isplitl [H11]; · iexact H11
    iexact H2
  iexact Hrest

/-! ## The attention kernel's region as a segment -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := hjoin1 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

theorem hostOps0_noFresh : (hostOps0 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_noFresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has the result buffer at what the attention kernel's write-backs leave (`res`) and the four
    argument arrays as launched. -/
theorem run_all : θ_run defs (onTc (τ := τ) (main (F := F))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_res m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.Kernel.Hand

end
-- ==== Proof.KIRegion0.lean ====
/-
  The projection kernel (the first of the program's two kernels) at a parameter `V`, the buffer contents when its
  region is entered. Grid of 8 points; at point `t` the body reads rows `1024·t … 1024·t + 1023` of `x` (window 0), the
  whole concatenated weight `[w_q | w_k]` (window 1) and the whole `w_v` (window 2), and stores the block's product with
  `[w_q | w_k]` into window 3 and, into window 4, the block's product with `w_v` in columns `0 … 63` beside the
  pattern "1 in column 64, 0 in columns 65 … 127". The body's triple, the proof data and the body obligation.
-/
import proofs.«106157_j5660766896751_2_alg».proof.Proof.Gen.KernelIdeal.Launch
import proofs.«106157_j5660766896751_2_alg».proof.Proof.Gen.KernelIdeal.Skeleton
import proofs.«106157_j5660766896751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles -/

/-- The whole `1024 × 1024` block of `x`. -/
abbrev rX : Rect S1024x1024 := Rect.unit (s := S1024x1024) ![0, 0] S1024x1024.size inb_S1024x1024_S1024x1024_0_0
/-- A whole `1024 × 128` buffer. -/
abbrev rW128 : Rect S1024x128 := Rect.unit (s := S1024x128) ![0, 0] S1024x128.size inb_S1024x128_S1024x128_0_0
/-- The whole `1024 × 64` weight `w_v`. -/
abbrev rW64 : Rect S1024x64 := Rect.unit (s := S1024x64) ![0, 0] S1024x64.size inb_S1024x64_S1024x64_0_0
/-- Columns `0 … 63` of a `1024 × 128` buffer. -/
abbrev rLo : Rect S1024x128 := Rect.unit (s := S1024x128) ![0, 0] S1024x64.size inb_S1024x128_S1024x64_0_0
/-- Columns `64 … 127` of a `1024 × 128` buffer. -/
abbrev rHi : Rect S1024x128 := Rect.unit (s := S1024x128) ![0, 64] S1024x64.size inb_S1024x128_S1024x64_0_64

/-! ## What the body leaves in each output window's buffer -/

/-- Window 3's buffer after the body: the one store of the block's product with `[w_q | w_k]`. -/
def out0_3 (x0 : Vec F S1024x1024 .f32) (x1 : Vec F S1024x128 .f32) : Vec F S1024x128 .f32 :=
  View.canon [⟨rW128, k0_pay2 (View.ld x0 rX) (View.ld x1 rW128)⟩]

/-- Window 4's buffer after the body: the pattern in the upper columns (stored last), the product with `w_v` in the lower. -/
def out0_4 (x0 : Vec F S1024x1024 .f32) (x2 : Vec F S1024x64 .f32) : Vec F S1024x128 .f32 :=
  View.canon [⟨rHi, k0_pay4 (F := F)⟩, ⟨rLo, k0_pay3 (View.ld x0 rX) (View.ld x2 rW64)⟩]

theorem cover0_3 (p0 : Vec F S1024x128 .f32) (y : S1024x128.Idx) :
    ∃ pc ∈ ([⟨rW128, p0⟩] : List (View.Piece (Elt F) S1024x128 .f32)), y ∈ pc.1.set :=
  View.cover_of_tiled [⟨rW128, p0⟩] S1024x128.size (by rfl) y

theorem cover0_4 (p0 p1 : Vec F S1024x64 .f32) (y : S1024x128.Idx) :
    ∃ pc ∈ ([⟨rHi, p0⟩, ⟨rLo, p1⟩] : List (View.Piece (Elt F) S1024x128 .f32)), y ∈ pc.1.set :=
  View.cover_of_tiled [⟨rHi, p0⟩, ⟨rLo, p1⟩] S1024x64.size (by rfl) y

/-! ## The body's triple -/

set_option maxHeartbeats 4000000 in
/-- The body on whole staging memrefs, the inputs' at contents `x0 x1 x2` and the outputs' at anything, runs to the
    continuation holding the inputs' as they were and the outputs' at `out0_3`, `out0_4` of the inputs'. -/
theorem sound_kernel0 (c : Dev nD) (E : Set ℕ) (i : grid0.Coords)
    (arg1 : Memref sig .tc .vmem S1024x1024 .f32) (harg1 : arg1.IsWhole) (arg2 : Memref sig .tc .vmem S1024x128 .f32) (harg2 : arg2.IsWhole)
    (arg3 : Memref sig .tc .vmem S1024x64 .f32) (harg3 : arg3.IsWhole) (arg4 : Memref sig .tc .vmem S1024x128 .f32) (harg4 : arg4.IsWhole)
    (arg5 : Memref sig .tc .vmem S1024x128 .f32) (harg5 : arg5.IsWhole)
    (x0 : Vec F S1024x1024 .f32) (x1 : Vec F S1024x128 .f32) (x2 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _ _)

/-! ## The proof data -/

/-- The proof data of the projection kernel's pipeline on core `c`: the arrays as the region finds them; after the body
    at point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRuns1.lean ====
/-
  The attention kernel (the second of the program's two kernels): what its three control cases share. Grid of 8 × 8
  points, query block `qi` outermost, key block `ki` innermost; the point `t` has `ki = t mod 8`. The body resets its two
  carried scratch buffers (the running maximum, `1024 × 1`, and the running accumulator, `1024 × 128`) where `ki = 0`,
  updates both at every point, and stores the normalised accumulator into the output window where `ki = 7`; at the
  other points the output window is left untouched and is not written back. The branch conditions in closed form,
  where the output window is idle, the staging and scratch memrefs, the region invariant with the scratch named.
-/
import proofs.«106157_j5660766896751_2_alg».proof.Proof.Gen.KernelIdeal.Launch
import proofs.«106157_j5660766896751_2_alg».proof.Proof.Gen.KernelIdeal.Skeleton
import proofs.«106157_j5660766896751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The reset's condition, `ki = 0`, as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The final store's condition, `ki = 7`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The running maximum's scratch buffer. -/
abbrev scM1_0 : Memref sig .tc .vmem S1024x1 .f32 := Memref.whole cc1_scratch0
/-- The running accumulator's scratch buffer. -/
abbrev scM1_1 : Memref sig .tc .vmem S1024x128 .f32 := Memref.whole cc1_scratch1
/-- One staging buffer of the output window, through which its contents are stated. -/
abbrev VO1_3 : View sig .tc .vmem S1024x64 .f32 := (Memref.whole cc1_stg3_0 : Memref sig .tc .vmem S1024x64 .f32).view
abbrev VS1_0 : View sig .tc .vmem S1024x1 .f32 := scM1_0.view
abbrev VS1_1 : View sig .tc .vmem S1024x128 .f32 := scM1_1.view

/-! ## The region invariant with the scratch buffers split off -/

/-- The scoped buffers this kernel never touches (the other kernel's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant hands the body the untouched buffers, the two scratch buffers at some contents and the generator register. -/
theorem PhiA1_split (c : Dev nD) :
    (Pipeline.ΦA spec1 c : sProp 𝕄)
      ⊢ iprop(rest1 (F := F) c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  iintro ⟨⟨A1, A2, A3, A4, A5, A6, A7, A8, S0, S1⟩, Hg⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [S0]; · iexact S0
  isplitl [S1]; · iexact S1
  iexact Hg

/-- And takes them back. -/
theorem PhiA1_join (c : Dev nD) :
    iprop(rest1 (F := F) c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA rest1; rw [scopedRest1_eq]; simp only [scM1_0, scM1_1, owns_whole]
  iintro ⟨⟨A1, A2, A3, A4, A5, A6, A7, A8⟩, S0, S1, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S0]; · iexact S0
    iexact S1
  iexact Hg

end Cert.KernelIdeal.Hand

end
-- ==== Proof.KIRun1A.lean ====
/-
  The attention kernel's body run whole in the case where the key block is the row's first (the scratch buffers are reset; the output window is left untouched): the pieces each buffer ends with are found by the run.
-/
import proofs.«106157_j5660766896751_2_alg».proof.Proof.KIRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref (`.1`), in the running maximum's scratch (`.2.1`) and in
    the running accumulator's scratch (`.2.2.1`), as pieces, last first, with the proof that on whole memrefs the body
    runs from the inputs' blocks to the continuation holding the inputs' as they were and those pieces written. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x128 .f32) (harg7 : arg7.IsWhole) (hc0 : cond1_0 i) (hc1 : ¬cond1_1 i)
    (x0 x1 x2 : Vec F S1024x128 .f32) :
    Σ' (L3 : List (View.Piece (Elt F) S1024x64 .f32)), Σ' (LS0 : List (View.Piece (Elt F) S1024x1 .f32)), { LS1 : List (View.Piece (Elt F) S1024x128 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRun1B.lean ====
/-
  The attention kernel's body run whole in the case where the key block is neither the first nor the last (the scratch buffers are updated from what the point before left; the output window is left untouched): the pieces each buffer ends with are found by the run.
-/
import proofs.«106157_j5660766896751_2_alg».proof.Proof.KIRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref (`.1`), in the running maximum's scratch (`.2.1`) and in
    the running accumulator's scratch (`.2.2.1`), as pieces, last first, with the proof that on whole memrefs the body
    runs from the inputs' blocks to the continuation holding the inputs' as they were and those pieces written. -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : ¬cond1_1 i)
    (x0 x1 x2 : Vec F S1024x128 .f32) (xs0 : Vec F S1024x1 .f32) (xs1 : Vec F S1024x128 .f32) :
    Σ' (L3 : List (View.Piece (Elt F) S1024x64 .f32)), Σ' (LS0 : List (View.Piece (Elt F) S1024x1 .f32)), { LS1 : List (View.Piece (Elt F) S1024x128 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRun1C.lean ====
/-
  The attention kernel's body run whole in the case where the key block is the row's last (the scratch buffers are updated and the normalised accumulator is stored into the output window): the pieces each buffer ends with are found by the run.
-/
import proofs.«106157_j5660766896751_2_alg».proof.Proof.KIRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref (`.1`), in the running maximum's scratch (`.2.1`) and in
    the running accumulator's scratch (`.2.2.1`), as pieces, last first, with the proof that on whole memrefs the body
    runs from the inputs' blocks to the continuation holding the inputs' as they were and those pieces written. -/
noncomputable def kernelRun1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x128 .f32) (harg7 : arg7.IsWhole) (hc0 : ¬cond1_0 i) (hc1 : cond1_1 i)
    (x0 x1 x2 : Vec F S1024x128 .f32) (xs0 : Vec F S1024x1 .f32) (xs1 : Vec F S1024x128 .f32) :
    Σ' (L3 : List (View.Piece (Elt F) S1024x64 .f32)), Σ' (LS0 : List (View.Piece (Elt F) S1024x1 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KIRegion1.lean ====
/-
  The attention kernel's proof data: what the output window's staging buffer and the two carried scratch buffers hold
  after each grid point, by recursion on the point — the case the point's key-block index selects (first, middle,
  last), run on the point's input blocks and, past a row's first key block, on what the point before left in the
  scratch buffers —, the region invariant naming the scratch contents, and the body obligation at every point.
-/
import proofs.«106157_j5660766896751_2_alg».proof.Proof.KIRun1A
import proofs.«106157_j5660766896751_2_alg».proof.Proof.KIRun1B
import proofs.«106157_j5660766896751_2_alg».proof.Proof.KIRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases at a grid point -/

/-- The first-key-block case run at point `t`'s memrefs. -/
abbrev runA (c : Dev nD) (t : Fin cfg1.N) (hc0 : cond1_0 (grid1.coords t)) (hc1 : ¬cond1_1 (grid1.coords t)) (x0 x1 x2 : Vec F S1024x128 .f32) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) hc0 hc1 x0 x1 x2
/-- The middle case. -/
abbrev runB (c : Dev nD) (t : Fin cfg1.N) (hc0 : ¬cond1_0 (grid1.coords t)) (hc1 : ¬cond1_1 (grid1.coords t)) (x0 x1 x2 : Vec F S1024x128 .f32) (xs0 : Vec F S1024x1 .f32) (xs1 : Vec F S1024x128 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) hc0 hc1 x0 x1 x2 xs0 xs1
/-- The last-key-block case. -/
abbrev runC (c : Dev nD) (t : Fin cfg1.N) (hc0 : ¬cond1_0 (grid1.coords t)) (hc1 : cond1_1 (grid1.coords t)) (x0 x1 x2 : Vec F S1024x128 .f32) (xs0 : Vec F S1024x1 .f32) (xs1 : Vec F S1024x128 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) hc0 hc1 x0 x1 x2 xs0 xs1

/-- A list of pieces read back over junk, through the output window's view, -/
abbrev rdO (L : List (View.Piece (Elt F) S1024x64 .f32)) : Vec F S1024x64 .f32 := VO1_3.read (Elt F) (VO1_3.writes (Elt F) VO1_3.junk L)
/-- through the running maximum's scratch, -/
abbrev rdS0 (L : List (View.Piece (Elt F) S1024x1 .f32)) : Vec F S1024x1 .f32 := VS1_0.read (Elt F) (VS1_0.writes (Elt F) VS1_0.junk L)
/-- through the running accumulator's scratch. -/
abbrev rdS1 (L : List (View.Piece (Elt F) S1024x128 .f32)) : Vec F S1024x128 .f32 := VS1_1.read (Elt F) (VS1_1.writes (Elt F) VS1_1.junk L)

/-- What the first-key-block case leaves (the output window's unread value, the maximum, the accumulator). -/
def caseA (c : Dev nD) (t : Fin cfg1.N) (hc0 : cond1_0 (grid1.coords t)) (hc1 : ¬cond1_1 (grid1.coords t)) (x0 x1 x2 : Vec F S1024x128 .f32) :
    Vec F S1024x64 .f32 × Vec F S1024x1 .f32 × Vec F S1024x128 .f32 :=
  (rdO (runA c t hc0 hc1 x0 x1 x2).1, rdS0 (runA c t hc0 hc1 x0 x1 x2).2.1, rdS1 (runA c t hc0 hc1 x0 x1 x2).2.2.1)
def caseB (c : Dev nD) (t : Fin cfg1.N) (hc0 : ¬cond1_0 (grid1.coords t)) (hc1 : ¬cond1_1 (grid1.coords t)) (x0 x1 x2 : Vec F S1024x128 .f32) (xs0 : Vec F S1024x1 .f32) (xs1 : Vec F S1024x128 .f32) :
    Vec F S1024x64 .f32 × Vec F S1024x1 .f32 × Vec F S1024x128 .f32 :=
  (rdO (runB c t hc0 hc1 x0 x1 x2 xs0 xs1).1, rdS0 (runB c t hc0 hc1 x0 x1 x2 xs0 xs1).2.1, rdS1 (runB c t hc0 hc1 x0 x1 x2 xs0 xs1).2.2.1)
def caseC (c : Dev nD) (t : Fin cfg1.N) (hc0 : ¬cond1_0 (grid1.coords t)) (hc1 : cond1_1 (grid1.coords t)) (x0 x1 x2 : Vec F S1024x128 .f32) (xs0 : Vec F S1024x1 .f32) (xs1 : Vec F S1024x128 .f32) :
    Vec F S1024x64 .f32 × Vec F S1024x1 .f32 × Vec F S1024x128 .f32 :=
  (rdO (runC c t hc0 hc1 x0 x1 x2 xs0 xs1).1, rdS0 (runC c t hc0 hc1 x0 x1 x2 xs0 xs1).2.1, rdS1 (runC c t hc0 hc1 x0 x1 x2 xs0 xs1).2.2.1)

/-! ## The pieces cover their buffers -/

theorem scoverA_0 (c : Dev nD) (t : Fin cfg1.N) (hc0) (hc1) (x0 x1 x2 : Vec F S1024x128 .f32) (y : S1024x1.Idx) :
    ∃ pc ∈ (runA c t hc0 hc1 x0 x1 x2).2.1, y ∈ pc.1.set :=
  View.cover_of_tiledL (runA c t hc0 hc1 x0 x1 x2).2.1 S1024x1.size (by sl_kernel_rfl) y
theorem scoverA_1 (c : Dev nD) (t : Fin cfg1.N) (hc0) (hc1) (x0 x1 x2 : Vec F S1024x128 .f32) (y : S1024x128.Idx) :
    ∃ pc ∈ (runA c t hc0 hc1 x0 x1 x2).2.2.1, y ∈ pc.1.set :=
  View.cover_of_tiledL (runA c t hc0 hc1 x0 x1 x2).2.2.1 S1024x128.size (by sl_kernel_rfl) y
theorem scoverB_0 (c : Dev nD) (t : Fin cfg1.N) (hc0) (hc1) (x0 x1 x2 : Vec F S1024x128 .f32) (xs0) (xs1) (y : S1024x1.Idx) :
    ∃ pc ∈ (runB c t hc0 hc1 x0 x1 x2 xs0 xs1).2.1, y ∈ pc.1.set :=
  View.cover_of_tiledL (runB c t hc0 hc1 x0 x1 x2 xs0 xs1).2.1 S1024x1.size (by sl_kernel_rfl) y
theorem scoverB_1 (c : Dev nD) (t : Fin cfg1.N) (hc0) (hc1) (x0 x1 x2 : Vec F S1024x128 .f32) (xs0) (xs1) (y : S1024x128.Idx) :
    ∃ pc ∈ (runB c t hc0 hc1 x0 x1 x2 xs0 xs1).2.2.1, y ∈ pc.1.set :=
  View.cover_of_tiledL (runB c t hc0 hc1 x0 x1 x2 xs0 xs1).2.2.1 S1024x128.size (by sl_kernel_rfl) y
theorem scoverC_0 (c : Dev nD) (t : Fin cfg1.N) (hc0) (hc1) (x0 x1 x2 : Vec F S1024x128 .f32) (xs0) (xs1) (y : S1024x1.Idx) :
    ∃ pc ∈ (runC c t hc0 hc1 x0 x1 x2 xs0 xs1).2.1, y ∈ pc.1.set :=
  View.cover_of_tiledL (runC c t hc0 hc1 x0 x1 x2 xs0 xs1).2.1 S1024x1.size (by sl_kernel_rfl) y
theorem scoverC_1 (c : Dev nD) (t : Fin cfg1.N) (hc0) (hc1) (x0 x1 x2 : Vec F S1024x128 .f32) (xs0) (xs1) (y : S1024x128.Idx) :
    ∃ pc ∈ (runC c t hc0 hc1 x0 x1 x2 xs0 xs1).2.2.1, y ∈ pc.1.set :=
  View.cover_of_tiledL (runC c t hc0 hc1 x0 x1 x2 xs0 xs1).2.2.1 S1024x128.size (by sl_kernel_rfl) y
theorem coverC_3 (c : Dev nD) (t : Fin cfg1.N) (hc0) (hc1) (x0 x1 x2 : Vec F S1024x128 .f32) (xs0) (xs1) (y : S1024x64.Idx) :
    ∃ pc ∈ (runC c t hc0 hc1 x0 x1 x2 xs0 xs1).1, y ∈ pc.1.set :=
  View.cover_of_tiledL (runC c t hc0 hc1 x0 x1 x2 xs0 xs1).1 S1024x64.size (by sl_kernel_rfl) y

section Region1

variable (V : (c : Dev nD) → (b : Ref sig .tc) → Buf (Elt F) ((c : Thread nD τ).loc b))

/-! ## What the buffers hold after each point -/

/-- After the body at position `n`: (the output window's staging buffer, the running maximum, the running accumulator). -/
def outsAt1 (c : Dev nD) : (n : ℕ) → n < cfg1.N → Vec F S1024x64 .f32 × Vec F S1024x1 .f32 × Vec F S1024x128 .f32
  | 0, hn => caseA c ⟨0, hn⟩ ((hcond1_0 ⟨0, hn⟩).mpr (Nat.zero_mod _)) (fun h => (fun h => by (try dsimp only at h); omega) ((hcond1_1 ⟨0, hn⟩).mp h))
      (iblk1 V c 0 ⟨0, hn⟩) (iblk1 V c 1 ⟨0, hn⟩) (iblk1 V c 2 ⟨0, hn⟩)
  | n + 1, hn =>
    if h0 : (n + 1) % 8 = 0 then
      if h1 : (n + 1) % 8 = 7 then
        False.elim (by omega)
      else
        caseA c ⟨n + 1, hn⟩ ((hcond1_0 ⟨n + 1, hn⟩).mpr h0) (fun h => h1 ((hcond1_1 ⟨n + 1, hn⟩).mp h))
          (iblk1 V c 0 ⟨n + 1, hn⟩) (iblk1 V c 1 ⟨n + 1, hn⟩) (iblk1 V c 2 ⟨n + 1, hn⟩)
    else
      if h1 : (n + 1) % 8 = 7 then
        caseC c ⟨n + 1, hn⟩ (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2
      else
        caseB c ⟨n + 1, hn⟩ (fun h => h0 ((hcond1_0 ⟨n + 1, hn⟩).mp h)) (fun h => h1 ((hcond1_1 ⟨n + 1, hn⟩).mp h))
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = caseA c t ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB c t (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC c t (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, the scratch contents named -/

/-- Before position `n`: at the first point the class's invariant (every scratch at anything); afterwards the untouched
    buffers, the two scratch buffers at what the point before left, and the generator register. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2.1)
      ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1_0 fullShare ((outsAt1 V c n hn).2.1)
      ∗ owns (c : Thread nD τ) scM1_1 fullShare ((outsAt1 V c n hn).2.2) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2.1)
      ∗ owns (c : Thread nD τ) scM1_1 fullShare ((outsAt1 V c (n - 1) (by omega)).2.2) ∗ (∃ r, prngReg c r)) := by
  cases n with
  | zero => exact absurd rfl hz
  | succ n => rfl

/-! ## The proof data -/

/-- The shares of the input arrays: the query and key windows read ONE array, half each; the value window's array whole. -/
def q1 : Fin cfg1.W → PosShare TreeShare
  | ⟨0, _⟩ => fullShare.left
  | ⟨1, _⟩ => fullShare.right
  | ⟨2, _⟩ => fullShare
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold caseA; (try dsimp only)
    have hpre : (dat1 V c).Φ t.castSucc ⊢ iprop(rest1 (F := F) c ∗ (∃ d, owns (c : Thread nD τ) scM1_0 fullShare d) ∗ (∃ d, owns (c : Thread nD τ) scM1_1 fullShare d) ∗ (∃ r, prngReg c r)) := by
      rw [PhiS1_castSucc V c t]
      by_cases hz : t.val = 0
      · rw [PhiS1_zero V c _ _ hz]; exact PhiA1_split c
      · rw [PhiS1_pos V c _ _ hz]
        iintro ⟨HR, HS0, HS1, Hg⟩
        isplitl [HR]; · iexact HR
        isplitl [HS0]; · iexists _; iexact HS0
        isplitl [HS1]; · iexists _; iexact HS1
        iexact Hg
    iintro ⟨HΦ, Ho, ⟨%d0, H0⟩, ⟨%d1, H1⟩, ⟨%d2, H2⟩, ⟨%d3, H3⟩⟩
    ihave HΦ' := hpre $$ HΦ
    icases HΦ' with ⟨HR, HS0, HS1, Hg⟩
    iapply ((runA c t ((hcond1_0 t).mpr h0) (fun h => h1 ((hcond1_1 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HR HS0 HS1 Hg]
    · isplitl [HR]; · iexact HR
      isplitl [HS0]
      · unfold owns; iexists _; isplitr
        swap; · iexact HS0
        ipureintro; exact View.read_writes_of_cover _ _ _ _ _ (scoverA_0 c t _ _ _ _ _)
      isplitl [HS1]
      · unfold owns; iexists _; isplitr
        swap; · iexact HS1
        ipureintro; exact View.read_writes_of_cover _ _ _ _ _ (scoverA_1 c t _ _ _ _ _)
      iexact Hg
    isplitl [Ho]; · iexact Ho
    isplitl [H0]; · iexact H0
    isplitl [H1]; · iexact H1
    isplitl [H2]; · iexact H2
    iexists _; iexact H3
  · have hz : t.val ≠ 0 := by intro e; rw [e] at h0; exact h0 (Nat.zero_mod _)
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold caseC; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((runC c t (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scoverC_0 c t _ _ _ _ _ _ _)
        isplitl [HS1]
        · unfold owns; iexists _; isplitr
          swap; · iexact HS1
          ipureintro; exact View.read_writes_of_cover _ _ _ _ _ (scoverC_1 c t _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold caseB; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((runB c t (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scoverB_0 c t _ _ _ _ _ _ _)
        isplitl [HS1]
        · unfold owns; iexists _; isplitr
          swap; · iexact HS1
          ipureintro; exact View.read_writes_of_cover _ _ _ _ _ (scoverB_1 c t _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch contents' names are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine .trans ?_ (PhiA1_join c)
  iintro ⟨HR, HS0, HS1, Hg⟩
  isplitl [HR]; · iexact HR
  isplitl [HS0]; · iexists _; iexact HS0
  isplitl [HS1]; · iexists _; iexact HS1
  iexact Hg

end Region1

end Cert.KernelIdeal.Hand

end
-- ==== Proof.KIRunAll.lean ====
/-
  The whole program's run: the buffer contents at each boundary of @main (the launch memory; after the host's
  concatenation; after the projection kernel's region; after the attention kernel's region), each kernel's region as
  a segment between two of them, and the run itself — every weakly fair execution ends with the result buffer at
  what the attention kernel's write-backs leave and the four argument arrays as launched.

  The attention kernel reads the projection's first result through TWO input windows (queries and keys): the array's
  points-to is split into two half shares on entry and joined on exit.
-/
import proofs.«106157_j5660766896751_2_alg».proof.Proof.KIRegion0
import proofs.«106157_j5660766896751_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host's concatenation of the two weight matrices. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection kernel's region: its arrays at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The attention kernel's result array after its region. -/
abbrev res (c : Dev nD) : Buf (Elt F) ((c : Thread nD τ).loc main_v2) := (dat1 (V2 m) c).arrAt 3 cfg1.N

/-- After the attention kernel's region: the result buffer at `res`, every other buffer as before. -/
def W3 (c : Dev nD) : Valuation τ sig (Elt F) :=
  Function.update (W2 m c) (Proc.devRef .tc main_v2) (res m c)
abbrev V3 : (c : Dev nD) → (b : Ref sig .tc) → Buf (Elt F) ((c : Thread nD τ).loc b) := fun c b => W3 m c b
theorem W3_res (c : Dev nD) : W3 m c (Proc.devRef .tc main_v2) = res m c := by
  unfold W3; exact Function.update_self _ _ _
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) _ _

/-! ## The arguments end as launched -/

theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of_ne m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of_ne m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_ne m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = m ((c : Thread nD τ).loc main_arg3) := W1_of_ne m c main_arg3 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The projection kernel's region as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention kernel's arrays, one by one -/

/-- The three distinct buffers behind the attention kernel's four windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1_0) ↦{fullShare} V main_v1_0) ∗ (((c : Thread nD τ).loc main_v1_1) ↦{fullShare} V main_v1_1) ∗ (((c : Thread nD τ).loc main_v2) ↦{fullShare} V main_v2)) := by
  unfold Pipeline.arrBufs
  exact bigSep_eq_bigSepL_of_eq [main_v1_0, main_v1_1, main_v2] (by decide) (by decide) _

/-- The windows' arrays at contents `G`: the projection's first result at the two half shares, its second and the result
    buffer whole. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v1_0) ↦{fullShare.left} G 0) ∗ (((c : Thread nD τ).loc main_v1_0) ↦{fullShare.right} G 1)
          ∗ (((c : Thread nD τ).loc main_v1_1) ↦{fullShare} G 2) ∗ (((c : Thread nD τ).loc main_v2) ↦{fullShare} G 3)) := by
  unfold Dat.arrays
  rw [bigSep_W1]
  rw [(arr_whole1 0).set_eq_univ, (arr_whole1 2).set_eq_univ, (arr_whole1 3).set_eq_univ]
  rfl

/-- A core's unscoped buffers are the three buffers behind the attention kernel's windows and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) :=
  Pipeline.unscopedBufs_split₀ (Ix := Unit) (Name := ℕ) (U := UR sig nD τ) (Lvl := ℕ) cfgs 1 winFacts₀1.arr_unscoped c V

/-- ENTRY of the attention kernel's region: the unscoped buffers make the windows' arrays at their entry contents — the
    projection's first result split into the two half shares its two windows read at — and the rest. -/
theorem hsplit1 (c : Dev nD) :
    (unscopedBufs (Ix := Unit) (Name := ℕ) (U := UR sig nD τ) (Lvl := ℕ) c (V2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  rw [split1 c (V2 m c), arrBufs1_eq, arrays1_eq]
  iintro ⟨⟨H10, H11, H2⟩, Hrest⟩
  ihave Hs := (pointsTo_share (PosShare.mem_left_op_right fullShare)).1 $$ H10
  icases Hs with ⟨Hl, Hr⟩
  isplitr [Hrest]
  · isplitl [Hl]; · iexact Hl
    isplitl [Hr]; · iexact Hr
    isplitl [H11]; · iexact H11
    iexact H2
  iexact Hrest

/-- EXIT: the two halves joined, the result buffer at what the write-backs leave, every other buffer as entered. -/
theorem hjoin1 (c : Dev nD) :
    iprop((dat1 (V2 m) c).arrays ((dat1 (V2 m) c).arrAt · cfg1.N)
          ∗ Pipeline.unscopedRest (Ix := Unit) (Name := ℕ) (U := UR sig nD τ) (Lvl := ℕ) spec1 c (V2 m c))
      ⊢ (unscopedBufs (Ix := Unit) (Name := ℕ) (U := UR sig nD τ) (Lvl := ℕ) c (V3 m c) : sProp 𝕄) := by
  rw [split1 c (V3 m c), arrBufs1_eq, arrays1_eq, unscopedRest1_eq c (V2 m c), unscopedRest1_eq c (V3 m c)]
  rw [(dat1 (V2 m) c).arrAt_in 0 rfl cfg1.N, (dat1 (V2 m) c).arrAt_in 1 rfl cfg1.N, (dat1 (V2 m) c).arrAt_in 2 rfl cfg1.N,
    A_eq1 (V2 m) c 0, A_eq1 (V2 m) c 1, A_eq1 (V2 m) c 2]
  rw [show V3 m c main_v1_0 = V2 m c main_v1_0 from W3_of_ne m c main_v1_0 (by decide),
    show V3 m c main_v1_1 = V2 m c main_v1_1 from W3_of_ne m c main_v1_1 (by decide),
    show V3 m c main_v2 = res m c from W3_res m c,
    show V3 m c main_arg0 = V2 m c main_arg0 from W3_of_ne m c main_arg0 (by decide),
    show V3 m c main_arg1 = V2 m c main_arg1 from W3_of_ne m c main_arg1 (by decide),
    show V3 m c main_arg2 = V2 m c main_arg2 from W3_of_ne m c main_arg2 (by decide),
    show V3 m c main_arg3 = V2 m c main_arg3 from W3_of_ne m c main_arg3 (by decide),
    show V3 m c main_v0 = V2 m c main_v0 from W3_of_ne m c main_v0 (by decide)]
  iintro ⟨⟨Hl, Hr, H11, H2⟩, Hrest⟩
  isplitr [Hrest]
  · isplitl [Hl Hr]
    · iapply (pointsTo_share (PosShare.mem_left_op_right fullShare)).2
      isplitl [Hl]; · iexact Hl
      iexact Hr
    isplitl [H11]; · iexact H11
    iexact H2
  iexact Hrest

/-! ## The attention kernel's region as a segment -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := hjoin1 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

theorem hostOps0_noFresh : (hostOps0 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_noFresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has the result buffer at what the attention kernel's write-backs leave (`res`) and the four
    argument arrays as launched. -/
theorem run_all : θ_run defs (onTc (τ := τ) (main (F := F))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_res m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.KernelIdeal.Hand

end
-- ==== Proof.KIValue0.lean ====
/-
  The value of the projection kernel at the extended reals. After its region the first output array holds the
  product of the rows of `x` with the columns of `[w_q | w_k]`; the second holds the product with `w_v` in columns
  `0 … 63`, one in column `64` and zero in columns `65 … 127`. Each as a whole-array function of the arrays the region
  was entered with: the payloads read at an index, the block a grid point writes back as the block of that function,
  the cover of the rows by the eight points, and the whole-array post.
-/
import proofs.«106157_j5660766896751_2_alg».proof.Proof.KIRegion0
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

/-! ## The whole-array functions -/

/-- the product of the rows of X with the columns of W -/
def v0_QK (X : FVec Ideal S8192x1024 .f32) (W : FVec Ideal S1024x128 .f32) : FVec Ideal S8192x128 .f32 :=
  fun i => ∑ d : Fin 1024, X (ix2 ⟨(i 0).val, (i 0).isLt⟩ d) * W (ix2 d ⟨(i 1).val, (i 1).isLt⟩)
/-- the product with W_v in columns 0…63, then 1 in column 64 and 0 beyond -/
def v0_VP (X : FVec Ideal S8192x1024 .f32) (Wv : FVec Ideal S1024x64 .f32) : FVec Ideal S8192x128 .f32 :=
  fun i => if h : (i 1).val < 64 then ∑ d : Fin 1024, X (ix2 ⟨(i 0).val, (i 0).isLt⟩ d) * Wv (ix2 d ⟨(i 1).val, h⟩) else if (i 1).val = 64 then 1 else 0

/-! ## The payloads at an index

A product into a zero accumulator is the sum, over the one contracted axis, of the operands' products: the
operands' indices at an output index and a contraction index have the coordinates below. The truncations to
the narrower format are the identity at the extended reals. -/

theorem v0_d128_lhs0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem v0_d128_lhs1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
theorem v0_d128_rhs0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
theorem v0_d128_rhs1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

theorem v0_d64_lhs0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem v0_d64_lhs1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem v0_d64_rhs0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem v0_d64_rhs1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The block's product with `[w_q | w_k]`. -/
theorem v0_pay2_apply (x0 : Vec Ideal S1024x1024 .f32) (x1 : Vec Ideal S1024x128 .f32) (p : Fin 1024) (q : Fin 128) :
    k0_pay2 (F := Ideal) x0 x1 (ix2 p q) = ∑ d : Fin 1024, x0 (ix2 p d) * x1 (ix2 d q) := by
  unfold k0_pay2 k0_pay1
  dsimp only
  rw [shapeCast_self]
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact v0_d128_lhs0 _ _
    | ⟨1, _⟩ => exact (v0_d128_lhs1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (v0_d128_rhs0 _ _).trans hk
    | ⟨1, _⟩ => exact v0_d128_rhs1 _ _)
  rw [el, er]
  rfl

/-- The block's product with `w_v`. -/
theorem v0_pay3_apply (x0 : Vec Ideal S1024x1024 .f32) (x1 : Vec Ideal S1024x64 .f32) (p : Fin 1024) (q : Fin 64) :
    k0_pay3 (F := Ideal) x0 x1 (ix2 p q) = ∑ d : Fin 1024, x0 (ix2 p d) * x1 (ix2 d q) := by
  unfold k0_pay3 k0_pay1
  dsimp only
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k := funext fun a => Fin.ext (by
    match a with
    | ⟨0, _⟩ => exact v0_d64_lhs0 _ _
    | ⟨1, _⟩ => exact (v0_d64_lhs1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q := funext fun a => Fin.ext (by
    match a with
    | ⟨0, _⟩ => exact (v0_d64_rhs0 _ _).trans hk
    | ⟨1, _⟩ => exact v0_d64_rhs1 _ _)
  rw [el, er]
  rfl

/-- The pattern: one where the column inside the upper half is zero, zero elsewhere. -/
theorem v0_pay4_apply (p : Fin 1024) (q : Fin 64) :
    k0_pay4 (F := Ideal) (ix2 p q) = if q.val = 0 then 1 else 0 := by
  unfold k0_pay4
  dsimp only
  rw [select_apply, broadcast_apply, broadcast_apply]
  show Scalar.select (IntOp.cmpi .eq (iota .tc S1024x64 32 [1] iota_S1024x64_d1_w32 (ix2 p q)) 0#32) (Ideal.ofBits .f32 0x3F800000#32) (Ideal.ofBits .f32 0x00000000#32) = _
  rw [Ideal.ofBits_one_f32, Ideal.ofBits_zero_f32, iota_single_apply]
  show Scalar.select (IntOp.cmpi .eq (BitVec.ofNat 32 q.val) 0#32) (1 : EReal) 0 = _
  have hq : q.val < 64 := q.isLt
  by_cases h0 : q.val = 0
  · rw [if_pos h0, h0]
    rfl
  · rw [if_neg h0]
    have hne : ¬ IntOp.cmpi .eq (BitVec.ofNat 32 q.val) 0#32 = 1#1 := fun h => h0 (by
      have h' := congrArg BitVec.toNat (IntOp.cmpi_eq.mp h)
      simp only [BitVec.toNat_ofNat] at h'
      omega)
    exact if_neg hne

/-! ## The input blocks as parts of the arrays

At point `t` the block index of `x` and of both output arrays is `(t, 0)`; the two weights' is `(0, 0)`. -/

variable (V : (c : Dev nD) → (b : Ref sig .tc) → Buf (Elt Ideal) ((c : Thread nD τ).loc b))

theorem v0_hz : (![0, 0] : Fin 2 → Nat) = fun _ => 0 := funext fun a => by fin_cases a <;> rfl

/-- The printed index maps, decided over the grid. -/
theorem v0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of `x` at point `t` is its rows `1024·t … 1024·t + 1023`. -/
theorem v0_iblk0_apply (c : Dev nD) (t : Fin cfg0.N) (y : S1024x1024.Idx) (k : S8192x1024.Idx)
    (hk0 : (k 0).val = 1024 * t.val + (y 0).val) (hk1 : (k 1).val = (y 1).val) :
    (iblk0 V c 0 t : Vec Ideal S1024x1024 .f32) y = (V c main_arg0 : S8192x1024.Idx → Elt Ideal .f32) k := by
  obtain ⟨e0, e1, -⟩ := v0_idx_facts t
  unfold iblk0
  rw [View.read_apply]
  show V c main_arg0 (((cfg0.win 0).blk t).view.emb y) = V c main_arg0 k
  have h : ((cfg0.win 0).blk t).view.emb y = k := by
    funext a; apply Fin.ext
    match a with
    | ⟨0, _⟩ => show win0_0.index t (0 : Fin 2) * 1024 + 1 * (y 0).val = (k 0).val; rw [e0, hk0]; omega
    | ⟨1, _⟩ => show win0_0.index t (1 : Fin 2) * 1024 + 1 * (y 1).val = (k 1).val; rw [e1, hk1]; omega
  rw [h]

/-- The block of `[w_q | w_k]` at every point is the whole of it. -/
theorem v0_iblk1_apply (c : Dev nD) (t : Fin cfg0.N) (y : S1024x128.Idx) :
    (iblk0 V c 1 t : Vec Ideal S1024x128 .f32) y = (V c main_v0 : S1024x128.Idx → Elt Ideal .f32) y := by
  obtain ⟨-, -, e0, e1, -⟩ := v0_idx_facts t
  unfold iblk0
  rw [View.read_apply]
  show V c main_v0 (((cfg0.win 1).blk t).view.emb y) = V c main_v0 y
  have h : ((cfg0.win 1).blk t).view.emb y = y := by
    funext a; apply Fin.ext
    match a with
    | ⟨0, _⟩ => show win0_1.index t (0 : Fin 2) * 1024 + 1 * (y 0).val = (y 0).val; rw [e0]; omega
    | ⟨1, _⟩ => show win0_1.index t (1 : Fin 2) * 128 + 1 * (y 1).val = (y 1).val; rw [e1]; omega
  rw [h]

/-- The block of `w_v` at every point is the whole of it. -/
theorem v0_iblk2_apply (c : Dev nD) (t : Fin cfg0.N) (y : S1024x64.Idx) :
    (iblk0 V c 2 t : Vec Ideal S1024x64 .f32) y = (V c main_arg3 : S1024x64.Idx → Elt Ideal .f32) y := by
  obtain ⟨-, -, -, -, e0, e1, -⟩ := v0_idx_facts t
  unfold iblk0
  rw [View.read_apply]
  show V c main_arg3 (((cfg0.win 2).blk t).view.emb y) = V c main_arg3 y
  have h : ((cfg0.win 2).blk t).view.emb y = y := by
    funext a; apply Fin.ext
    match a with
    | ⟨0, _⟩ => show win0_2.index t (0 : Fin 2) * 1024 + 1 * (y 0).val = (y 0).val; rw [e0]; omega
    | ⟨1, _⟩ => show win0_2.index t (1 : Fin 2) * 64 + 1 * (y 1).val = (y 1).val; rw [e1]; omega
  rw [h]

/-! ## A point's block of each output, over variables of the literal types -/

/-- The first output's payload at a block index is the whole-array product at the array index of that element. -/
theorem v0_block3 (x0 : Vec Ideal S1024x1024 .f32) (x1 : Vec Ideal S1024x128 .f32)
    (X : FVec Ideal S8192x1024 .f32) (W : FVec Ideal S1024x128 .f32) (tv : Nat)
    (h0 : ∀ (y : S1024x1024.Idx) (k : S8192x1024.Idx), (k 0).val = 1024 * tv + (y 0).val → (k 1).val = (y 1).val → x0 y = X k)
    (h1 : ∀ y : S1024x128.Idx, x1 y = W y)
    (y : S1024x128.Idx) (i : S8192x128.Idx) (hi0 : (i 0).val = 1024 * tv + (y 0).val) (hi1 : (i 1).val = (y 1).val) :
    k0_pay2 (F := Ideal) x0 x1 y = v0_QK X W i := by
  obtain ⟨p, q, rfl⟩ : ∃ (p : Fin 1024) (q : Fin 128), y = ix2 p q := ⟨y 0, y 1, eq_ix2 y⟩
  rw [v0_pay2_apply]
  unfold v0_QK
  refine Finset.sum_congr rfl fun d _ => ?_
  rw [h0 (ix2 p d) (ix2 ⟨(i 0).val, (i 0).isLt⟩ d) hi0 rfl, h1]
  have hq : (⟨(i 1).val, (i 1).isLt⟩ : Fin 128) = q := Fin.ext hi1
  rw [hq]

/-- The first output's staging buffer after the body is the one product. -/
theorem v0_out3_eq (x0 : Vec Ideal S1024x1024 .f32) (x1 : Vec Ideal S1024x128 .f32) :
    out0_3 (F := Ideal) x0 x1 = k0_pay2 (F := Ideal) x0 x1 := by
  unfold out0_3
  rw [View.canon_unit_zero v0_hz]
  simp only [View.ld_unit_zero (S := S1024x1024) v0_hz, View.ld_unit_zero (S := S1024x128) v0_hz]

/-- The two stores into the second output's staging buffer, as pieces: the pattern in the upper columns (stored
    last), the product with `w_v` in the lower. -/
abbrev v0_pHi : View.Piece (Elt Ideal) S1024x128 .f32 := ⟨rHi, k0_pay4 (F := Ideal)⟩
abbrev v0_pLo (x0 : Vec Ideal S1024x1024 .f32) (x2 : Vec Ideal S1024x64 .f32) : View.Piece (Elt Ideal) S1024x128 .f32 :=
  ⟨rLo, k0_pay3 (F := Ideal) x0 x2⟩

/-- The second output's staging buffer after the body at an index: the product in the lower columns, under the
    store of the lower half; the pattern in the upper columns, under the store of the upper half. -/
theorem v0_out4_apply (x0 : Vec Ideal S1024x1024 .f32) (x2 : Vec Ideal S1024x64 .f32) (p : Fin 1024) (q : Fin 128) :
    out0_4 (F := Ideal) x0 x2 (ix2 p q)
      = if h : q.val < 64 then ∑ d : Fin 1024, x0 (ix2 p d) * x2 (ix2 d ⟨q.val, h⟩) else if q.val = 64 then 1 else 0 := by
  unfold out0_4
  simp only [View.ld_unit_zero (S := S1024x1024) v0_hz, View.ld_unit_zero (S := S1024x64) v0_hz]
  show View.canon [v0_pHi, v0_pLo x0 x2] (ix2 p q) = _
  by_cases h : q.val < 64
  · rw [dif_pos h]
    have hm : ix2 p q ∉ (v0_pHi).1.set := by
      show ix2 p q ∉ (rHi).set
      rw [Rect.mem_set_unit]
      intro hh
      have h1 : 64 ≤ q.val := (hh 1).1
      omega
    have he : ix2 p q = (rLo).emb (ix2 p ⟨q.val, h⟩) := by
      funext a; apply Fin.ext
      match a with
      | ⟨0, _⟩ => show p.val = 0 + 1 * p.val; omega
      | ⟨1, _⟩ => show q.val = 0 + 1 * q.val; omega
    refine (View.canon_cons_of_not_mem v0_pHi [v0_pLo x0 x2] hm).trans ?_
    refine (congrArg (View.canon [v0_pLo x0 x2]) he).trans ?_
    refine (View.canon_cons_emb (Val := Elt Ideal) (e := .f32) rLo (k0_pay3 (F := Ideal) x0 x2) [] (ix2 p ⟨q.val, h⟩)).trans ?_
    exact v0_pay3_apply x0 x2 p ⟨q.val, h⟩
  · rw [dif_neg h]
    have hq : q.val < 128 := q.isLt
    have hq' : q.val - 64 < 64 := by omega
    have he : ix2 p q = (rHi).emb (ix2 p ⟨q.val - 64, hq'⟩) := by
      funext a; apply Fin.ext
      match a with
      | ⟨0, _⟩ => show p.val = 0 + 1 * p.val; omega
      | ⟨1, _⟩ => show q.val = 64 + 1 * (q.val - 64); omega
    refine (congrArg (View.canon [v0_pHi, v0_pLo x0 x2]) he).trans ?_
    refine (View.canon_cons_emb (Val := Elt Ideal) (e := .f32) rHi (k0_pay4 (F := Ideal)) [v0_pLo x0 x2] (ix2 p ⟨q.val - 64, hq'⟩)).trans ?_
    refine (v0_pay4_apply p ⟨q.val - 64, hq'⟩).trans ?_
    show (if q.val - 64 = 0 then (1 : EReal) else 0) = _
    by_cases h64 : q.val = 64
    · rw [if_pos h64, if_pos (by omega)]
    · rw [if_neg h64, if_neg (by omega)]

/-- The second output's staging buffer at a block index is the whole-array function at the array index of that element. -/
theorem v0_block4 (x0 : Vec Ideal S1024x1024 .f32) (x2 : Vec Ideal S1024x64 .f32)
    (X : FVec Ideal S8192x1024 .f32) (Wv : FVec Ideal S1024x64 .f32) (tv : Nat)
    (h0 : ∀ (y : S1024x1024.Idx) (k : S8192x1024.Idx), (k 0).val = 1024 * tv + (y 0).val → (k 1).val = (y 1).val → x0 y = X k)
    (h2 : ∀ y : S1024x64.Idx, x2 y = Wv y)
    (y : S1024x128.Idx) (i : S8192x128.Idx) (hi0 : (i 0).val = 1024 * tv + (y 0).val) (hi1 : (i 1).val = (y 1).val) :
    out0_4 (F := Ideal) x0 x2 y = v0_VP X Wv i := by
  obtain ⟨p, q, rfl⟩ : ∃ (p : Fin 1024) (q : Fin 128), y = ix2 p q := ⟨y 0, y 1, eq_ix2 y⟩
  rw [v0_out4_apply]
  unfold v0_VP
  have hq : (i 1).val = q.val := hi1
  by_cases h : q.val < 64
  · have h' : (i 1).val < 64 := by omega
    rw [dif_pos h, dif_pos h']
    refine Finset.sum_congr rfl fun d _ => ?_
    rw [h0 (ix2 p d) (ix2 ⟨(i 0).val, (i 0).isLt⟩ d) hi0 rfl, h2]
    have e : (⟨(i 1).val, h'⟩ : Fin 64) = ⟨q.val, h⟩ := Fin.ext hq
    rw [e]
  · have h' : ¬ (i 1).val < 64 := by omega
    rw [dif_neg h, dif_neg h', hq]

/-! ## What a point writes back is its block of the whole-array function -/

theorem v0_flushed3_eq (c : Dev nD) (t : Fin cfg0.N) :
    (dat0 (F := Ideal) V c).flushed 3 t
      = ((cfg0.win 3).blk t).view.read (Elt Ideal) (v0_QK (V c main_arg0) (V c main_v0)) := by
  show (cfg0.win 3).cut (grid0.coords t) ((dat0 (F := Ideal) V c).after 3 t) = _
  rw [after0_3, v0_out3_eq]
  obtain ⟨-, -, -, -, -, -, e0, e1, -⟩ := v0_idx_facts t
  funext j
  show k0_pay2 (F := Ideal) (iblk0 V c 0 t) (iblk0 V c 1 t) ((cfg0.win 3).xinj (grid0.coords t) j)
    = v0_QK (V c main_arg0) (V c main_v0) (((cfg0.win 3).blk t).view.emb j)
  refine v0_block3 (iblk0 V c 0 t) (iblk0 V c 1 t) (V c main_arg0) (V c main_v0) t.val
    (fun y k hk0 hk1 => v0_iblk0_apply V c t y k hk0 hk1) (fun y => v0_iblk1_apply V c t y)
    ((cfg0.win 3).xinj (grid0.coords t) j) (((cfg0.win 3).blk t).view.emb j) ?_ ?_
  · show win0_3.index t (0 : Fin 2) * 1024 + 1 * (j 0).val = 1024 * t.val + (j 0).val
    rw [e0]; omega
  · show win0_3.index t (1 : Fin 2) * 128 + 1 * (j 1).val = (j 1).val
    rw [e1]; omega

theorem v0_flushed4_eq (c : Dev nD) (t : Fin cfg0.N) :
    (dat0 (F := Ideal) V c).flushed 4 t
      = ((cfg0.win 4).blk t).view.read (Elt Ideal) (v0_VP (V c main_arg0) (V c main_arg3)) := by
  show (cfg0.win 4).cut (grid0.coords t) ((dat0 (F := Ideal) V c).after 4 t) = _
  rw [after0_4]
  obtain ⟨-, -, -, -, -, -, -, -, e0, e1⟩ := v0_idx_facts t
  funext j
  show out0_4 (F := Ideal) (iblk0 V c 0 t) (iblk0 V c 2 t) ((cfg0.win 4).xinj (grid0.coords t) j)
    = v0_VP (V c main_arg0) (V c main_arg3) (((cfg0.win 4).blk t).view.emb j)
  refine v0_block4 (iblk0 V c 0 t) (iblk0 V c 2 t) (V c main_arg0) (V c main_arg3) t.val
    (fun y k hk0 hk1 => v0_iblk0_apply V c t y k hk0 hk1) (fun y => v0_iblk2_apply V c t y)
    ((cfg0.win 4).xinj (grid0.coords t) j) (((cfg0.win 4).blk t).view.emb j) ?_ ?_
  · show win0_4.index t (0 : Fin 2) * 1024 + 1 * (j 0).val = 1024 * t.val + (j 0).val
    rw [e0]; omega
  · show win0_4.index t (1 : Fin 2) * 128 + 1 * (j 1).val = (j 1).val
    rw [e1]; omega

/-! ## The cover: row `r` is in the block of point `r / 1024` -/

theorem v0_mem_blk3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v1_0).slice (win0_3.rect t)).set ↔ _
  rw [View.set_slice_whole, Rect.mem_set_unit]
  exact Iff.rfl

theorem v0_mem_blk4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v1_1).slice (win0_4.rect t)).set ↔ _
  rw [View.set_slice_whole, Rect.mem_set_unit]
  exact Iff.rfl

theorem v0_point_of_row (i : S8192x128.Idx) : ∃ t : Fin cfg0.N, t.val = (i 0).val / 1024 := by
  have hi0 : (i 0).val < 8192 := (i 0).isLt
  have hN : grid0.N = 8 := N_0
  exact ⟨⟨(i 0).val / 1024, by show (i 0).val / 1024 < grid0.N; rw [hN]; omega⟩, rfl⟩

theorem v0_cover3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := v0_point_of_row i
  obtain ⟨-, -, -, -, -, -, e0, e1, -⟩ := v0_idx_facts t
  refine ⟨t, flush0_3 t, ?_⟩
  rw [v0_mem_blk3]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 128 ≤ (i 1).val ∧ (i 1).val < win0_3.index t (1 : Fin 2) * 128 + 128
    rw [e1]; omega

theorem v0_cover4 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  obtain ⟨t, ht⟩ := v0_point_of_row i
  obtain ⟨-, -, -, -, -, -, -, -, e0, e1⟩ := v0_idx_facts t
  refine ⟨t, flush0_4 t, ?_⟩
  rw [v0_mem_blk4]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 128 ≤ (i 1).val ∧ (i 1).val < win0_4.index t (1 : Fin 2) * 128 + 128
    rw [e1]; omega

/-! ## The arrays after the region -/

/-- The first output array after the region: the rows of `x` times the columns of `[w_q | w_k]`. -/
theorem v0_final3 (c : Dev nD) : (dat0 (F := Ideal) V c).arrAt 3 cfg0.N = v0_QK (V c main_arg0) (V c main_v0) :=
  (dat0 (F := Ideal) V c).arrAt_eq_of_cover 3 (v0_QK (V c main_arg0) (V c main_v0)) (fun t _ => v0_flushed3_eq V c t) v0_cover3

/-- The second output array after the region: the product with `w_v`, then one in column 64 and zero beyond. -/
theorem v0_final4 (c : Dev nD) : (dat0 (F := Ideal) V c).arrAt 4 cfg0.N = v0_VP (V c main_arg0) (V c main_arg3) :=
  (dat0 (F := Ideal) V c).arrAt_eq_of_cover 4 (v0_VP (V c main_arg0) (V c main_arg3)) (fun t _ => v0_flushed4_eq V c t) v0_cover4

end Cert.KernelIdeal.Hand

end
-- ==== Proof.Spec.lean ====
/-
  The specification: scaled dot-product attention with a row softmax, as one function of the four argument arrays.

  For real arrays x[8192,1024], wq, wk, wv[1024,64]:
    proj w n e   = Σ_d x[n,d] · w[d,e]                       (the three projections q, k, v)
    score n n'   = (Σ_e q[n,e] · k[n',e]) · (1/8)            (1/8 = 1/√64)
    rowMax n     = max_{n'} score n n'
    wgt n n'     = exp (score n n' − rowMax n)
    attn n j     = Σ_{n'} (wgt n n' / Σ_{n''} wgt n n'') · v[n',j]
  `G` reads the extended-real argument arrays through `toReal` and returns `attn` as an extended real; on finite
  arguments (every entry a real) it is the value both programs compute.
-/
import Mathlib
import Idealize.ShloMosaic.PureOps.Ideal
import Idealize.ShloMosaic.Lib.ValueIdx

noncomputable section

open scoped BigOperators

namespace Cert.Attn

open Idealize.ShloMosaic Idealize.ShloMosaic.ValueIdx

/-! ## Over the reals -/

section Reals

variable (x : Fin 8192 → Fin 1024 → ℝ) (wq wk wv : Fin 1024 → Fin 64 → ℝ)

/-- A projection of the rows of `x`: row `n` against column `e` of `w`. -/
def proj (w : Fin 1024 → Fin 64 → ℝ) (n : Fin 8192) (e : Fin 64) : ℝ := ∑ d : Fin 1024, x n d * w d e

/-- The scaled score of query row `n` against key row `n'`. -/
def score (n n' : Fin 8192) : ℝ := (∑ e : Fin 64, proj x wq n e * proj x wk n' e) * (1 / 8)

/-- The largest score of query row `n`. -/
def rowMax (n : Fin 8192) : ℝ := Finset.univ.sup' Finset.univ_nonempty (score x wq wk n)

/-- The unnormalised softmax weight. -/
def wgt (n n' : Fin 8192) : ℝ := Real.exp (score x wq wk n n' - rowMax x wq wk n)

/-- The attention output. -/
def attn (n : Fin 8192) (j : Fin 64) : ℝ :=
  ∑ n' : Fin 8192, (wgt x wq wk n n' / ∑ n'' : Fin 8192, wgt x wq wk n n'') * proj x wv n' j

end Reals

/-! ## Over the extended reals -/

/-- A rank-2 array of extended reals read as a real matrix. -/
def toR2 {a b : Nat} (f : (⟨2, ![a, b]⟩ : Shape).Idx → EReal) : Fin a → Fin b → ℝ := fun i j => (f (ix2 i j)).toReal

/-- Every entry is a real number. -/
def Fin2 {a b : Nat} (f : (⟨2, ![a, b]⟩ : Shape).Idx → EReal) : Prop := ∀ i, ∃ r : ℝ, f i = (r : EReal)

theorem Fin2.eq_coe {a b : Nat} {f : (⟨2, ![a, b]⟩ : Shape).Idx → EReal} (h : Fin2 f) (i : Fin a) (j : Fin b) :
    f (ix2 i j) = ((toR2 f i j : ℝ) : EReal) := by
  obtain ⟨r, hr⟩ := h (ix2 i j)
  unfold toR2; rw [hr, EReal.toReal_coe]

/-- The value of both programs: attention of the argument arrays, index by index. -/
def G (x : (⟨2, ![8192, 1024]⟩ : Shape).Idx → EReal) (wq wk wv : (⟨2, ![1024, 64]⟩ : Shape).Idx → EReal) :
    (⟨2, ![8192, 64]⟩ : Shape).Idx → EReal :=
  fun i => ((attn (toR2 x) (toR2 wq) (toR2 wk) (toR2 wv) (i 0) (i 1) : ℝ) : EReal)

end Cert.Attn

end
-- ==== Proof.Online.lean ====
/-
  The blockwise ("online") evaluation of one softmax row, as a recurrence over the key blocks, over the reals.

  A query row's 8192 scores are cut into 8 blocks of 1024: `s b c` is the score against key row `b·1024 + c`. After
  block `k` the recurrence holds the running maximum `runMax s k` (the maximum of the scores of blocks `0 … k`) and,
  for a value column `u`, the running weighted sum `runAcc s u k = Σ_{b ≤ k} Σ_c exp (s b c − runMax s k) · u b c`:
  raising the maximum from `runMax s k` to `runMax s (k+1)` rescales what was accumulated by
  `exp (runMax s k − runMax s (k+1))`.
-/
import proofs.«106157_j5660766896751_2_alg».proof.Proof.Spec

noncomputable section

open scoped BigOperators

namespace Cert.Attn.Online

/-- The largest score of block `k`. -/
def blockMax (s : ℕ → Fin 1024 → ℝ) (k : ℕ) : ℝ := Finset.univ.sup' Finset.univ_nonempty (s k)

/-- The running maximum after block `k`. -/
def runMax (s : ℕ → Fin 1024 → ℝ) : ℕ → ℝ
  | 0 => blockMax s 0
  | k + 1 => max (runMax s k) (blockMax s (k + 1))

/-- The running weighted sum of the value column `u` after block `k`. -/
def runAcc (s u : ℕ → Fin 1024 → ℝ) : ℕ → ℝ
  | 0 => ∑ c : Fin 1024, Real.exp (s 0 c - runMax s 0) * u 0 c
  | k + 1 => Real.exp (runMax s k - runMax s (k + 1)) * runAcc s u k
      + ∑ c : Fin 1024, Real.exp (s (k + 1) c - runMax s (k + 1)) * u (k + 1) c

/-- Key row `b·1024 + c` (for `b < 8`). -/
def keyRow (b : ℕ) (hb : b < 8) (c : Fin 1024) : Fin 8192 := ⟨b * 1024 + c.val, by have := c.isLt; omega⟩

section Rows

variable (x : Fin 8192 → Fin 1024 → ℝ) (wq wk wv : Fin 1024 → Fin 64 → ℝ)

/-- Query row `n`'s scores, block by block (zero past the eighth block, which nothing reads). -/
def rowS (n : Fin 8192) : ℕ → Fin 1024 → ℝ :=
  fun b c => if hb : b < 8 then score x wq wk n (keyRow b hb c) else 0

/-- Column `j` of the value projection, block by block. -/
def colU (j : Fin 64) : ℕ → Fin 1024 → ℝ :=
  fun b c => if hb : b < 8 then proj x wv (keyRow b hb c) j else 0

end Rows

/-- The constant column of ones: its running sum is the softmax denominator. -/
def ones : ℕ → Fin 1024 → ℝ := fun _ _ => 1

end Cert.Attn.Online

end
-- ==== Proof.KIEntry.lean ====
/-
  The two arrays the attention kernel is entered with, entry by entry, over the reals: after the host's concatenation
  `[w_q | w_k]` and the projection kernel's region,
    QK[n, e]      = q[n, e]   = Σ_d x[n,d] · w_q[d,e]        (e < 64)
    QK[n, 64 + e] = k[n, e]   = Σ_d x[n,d] · w_k[d,e]
    VP[n, j]      = v[n, j]   = Σ_d x[n,d] · w_v[d,j]        (j < 64),     VP[n, 64] = 1,   VP[n, j] = 0  (j > 64)
  when every argument entry is a real number.
-/
import proofs.«106157_j5660766896751_2_alg».proof.Proof.KIRunAll
import proofs.«106157_j5660766896751_2_alg».proof.Proof.KIValue0
import proofs.«106157_j5660766896751_2_alg».proof.Proof.Online
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Attn

variable (m : (ℓ : Loc nD τ sig) → Buf (Elt Ideal) ℓ)

/-- A finite sum of real numbers, coerced, is the sum of the coercions. -/
theorem ent_coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The region-entry contents of the projection kernel -/

theorem V1_arg0 (c : Dev nD) : V1 m c main_arg0 = m ((c : Thread nD τ).loc main_arg0) := W1_of_ne m c main_arg0 (by decide)
theorem V1_arg3 (c : Dev nD) : V1 m c main_arg3 = m ((c : Thread nD τ).loc main_arg3) := W1_of_ne m c main_arg3 (by decide)

/-- The concatenated weight `[w_q | w_k]`. -/
abbrev wqk (c : Dev nD) : FVec Ideal S1024x128 .f32 :=
  concatenate S1024x128 1 [⟨S1024x64, m ((c : Thread nD τ).loc main_arg1)⟩, ⟨S1024x64, m ((c : Thread nD τ).loc main_arg2)⟩] concatenates_S1024x64_S1024x64_S1024x128_d1

theorem V1_v0 (c : Dev nD) : (V1 m c main_v0 : FVec Ideal S1024x128 .f32) = wqk m c := by
  show StableHlo.after hostOps0 (W0 m c) (Proc.devRef .tc main_v0) = _
  after_results

/-- The attention kernel's first entry array. -/
theorem QK_eq (c : Dev nD) : (V2 m c main_v1_0 : FVec Ideal S8192x128 .f32) = v0_QK (m ((c : Thread nD τ).loc main_arg0)) (wqk m c) := by
  refine (W2_arr m c 3).trans ((v0_final3 (V1 m) c).trans ?_)
  rw [V1_arg0, V1_v0]

/-- Its second. -/
theorem VP_eq (c : Dev nD) : (V2 m c main_v1_1 : FVec Ideal S8192x128 .f32) = v0_VP (m ((c : Thread nD τ).loc main_arg0)) (m ((c : Thread nD τ).loc main_arg3)) := by
  refine (W2_arr m c 4).trans ((v0_final4 (V1 m) c).trans ?_)
  rw [V1_arg0, V1_arg3]

/-! ## The entries, over the reals -/

section Entries

variable (c : Dev nD)

/-- The argument arrays, and the two arrays the attention kernel is entered with, as arrays of extended reals. -/
abbrev aX : S8192x1024.Idx → EReal := m ((c : Thread nD τ).loc main_arg0)
abbrev aWq : S1024x64.Idx → EReal := m ((c : Thread nD τ).loc main_arg1)
abbrev aWk : S1024x64.Idx → EReal := m ((c : Thread nD τ).loc main_arg2)
abbrev aWv : S1024x64.Idx → EReal := m ((c : Thread nD τ).loc main_arg3)
abbrev aQK : S8192x128.Idx → EReal := V2 m c main_v1_0
abbrev aVP : S8192x128.Idx → EReal := V2 m c main_v1_1
abbrev aWqk : S1024x128.Idx → EReal := wqk m c

/-- The argument arrays read as real matrices. -/
abbrev xR : Fin 8192 → Fin 1024 → ℝ := toR2 (a := 8192) (b := 1024) (aX m c)
abbrev wqR : Fin 1024 → Fin 64 → ℝ := toR2 (a := 1024) (b := 64) (aWq m c)
abbrev wkR : Fin 1024 → Fin 64 → ℝ := toR2 (a := 1024) (b := 64) (aWk m c)
abbrev wvR : Fin 1024 → Fin 64 → ℝ := toR2 (a := 1024) (b := 64) (aWv m c)

/-- Columns `0 … 63` of the concatenated weight are `w_q`'s. -/
theorem wqk_lo (d : Fin 1024) (e : Fin 64) :
    aWqk m c (ix2 d (⟨e.val, by have := e.isLt; omega⟩ : Fin 128)) = aWq m c (ix2 d e) :=
  concatenate_pair_apply_left (t := S1024x128) (s₁ := S1024x64) (s₂ := S1024x64) (1 : Fin 2) (aWq m c) (aWk m c) concatenates_S1024x64_S1024x64_S1024x128_d1
    (ix2 d (⟨e.val, by have := e.isLt; omega⟩ : Fin 128)) rfl (ix2 d e)
    (fun b => by match b with | ⟨0, _⟩ => rfl | ⟨1, _⟩ => rfl)

/-- Columns `64 … 127` are `w_k`'s. -/
theorem wqk_hi (d : Fin 1024) (e : Fin 64) :
    aWqk m c (ix2 d (⟨64 + e.val, by have := e.isLt; omega⟩ : Fin 128)) = aWk m c (ix2 d e) :=
  concatenate_pair_apply_right (t := S1024x128) (s₁ := S1024x64) (s₂ := S1024x64) (1 : Fin 2) (aWq m c) (aWk m c) concatenates_S1024x64_S1024x64_S1024x128_d1
    (ix2 d (⟨64 + e.val, by have := e.isLt; omega⟩ : Fin 128)) rfl rfl (ix2 d e)
    (fun b hb => by match b with | ⟨0, _⟩ => rfl | ⟨1, _⟩ => exact absurd rfl hb)
    (by show e.val + 64 = 64 + e.val; omega)

theorem aQK_eq : aQK m c = v0_QK (aX m c) (aWqk m c) := QK_eq m c
theorem aVP_eq : aVP m c = v0_VP (aX m c) (aWv m c) := VP_eq m c

variable (hx : Fin2 (a := 8192) (b := 1024) (aX m c))
  (hq : Fin2 (a := 1024) (b := 64) (aWq m c))
  (hk : Fin2 (a := 1024) (b := 64) (aWk m c))
  (hv : Fin2 (a := 1024) (b := 64) (aWv m c))

include hx hq in
/-- The queries. -/
theorem QK_lo (n : Fin 8192) (e : Fin 64) :
    aQK m c (ix2 n (⟨e.val, by have := e.isLt; omega⟩ : Fin 128)) = ((proj (xR m c) (wqR m c) n e : ℝ) : EReal) := by
  rw [aQK_eq]
  show (∑ d : Fin 1024, aX m c (ix2 n d) * aWqk m c (ix2 d (⟨e.val, by have := e.isLt; omega⟩ : Fin 128)) : EReal)
    = ((∑ d : Fin 1024, xR m c n d * wqR m c d e : ℝ) : EReal)
  rw [ent_coe_sum]
  refine Finset.sum_congr rfl fun d _ => ?_
  rw [EReal.coe_mul, ← hx.eq_coe, ← hq.eq_coe, wqk_lo m c d e]

include hx hk in
/-- The keys. -/
theorem QK_hi (n : Fin 8192) (e : Fin 64) :
    aQK m c (ix2 n (⟨64 + e.val, by have := e.isLt; omega⟩ : Fin 128)) = ((proj (xR m c) (wkR m c) n e : ℝ) : EReal) := by
  rw [aQK_eq]
  show (∑ d : Fin 1024, aX m c (ix2 n d) * aWqk m c (ix2 d (⟨64 + e.val, by have := e.isLt; omega⟩ : Fin 128)) : EReal)
    = ((∑ d : Fin 1024, xR m c n d * wkR m c d e : ℝ) : EReal)
  rw [ent_coe_sum]
  refine Finset.sum_congr rfl fun d _ => ?_
  rw [EReal.coe_mul, ← hx.eq_coe, ← hk.eq_coe, wqk_hi m c d e]

include hx hv in
/-- The values. -/
theorem VP_lo (n : Fin 8192) (j : Fin 64) :
    aVP m c (ix2 n (⟨j.val, by have := j.isLt; omega⟩ : Fin 128)) = ((proj (xR m c) (wvR m c) n j : ℝ) : EReal) := by
  rw [aVP_eq]; unfold v0_VP
  rw [dif_pos (show ((ix2 n (⟨j.val, by have := j.isLt; omega⟩ : Fin 128) : S8192x128.Idx) 1).val < 64 from j.isLt)]
  show (∑ d : Fin 1024, aX m c (ix2 n d) * aWv m c (ix2 d j) : EReal) = ((∑ d : Fin 1024, xR m c n d * wvR m c d j : ℝ) : EReal)
  rw [ent_coe_sum]
  refine Finset.sum_congr rfl fun d _ => ?_
  rw [EReal.coe_mul, ← hx.eq_coe, ← hv.eq_coe]

/-- The column of ones. -/
theorem VP_64 (n : Fin 8192) : aVP m c (ix2 n (⟨64, by omega⟩ : Fin 128)) = 1 := by
  rw [aVP_eq]; unfold v0_VP
  rw [dif_neg (show ¬ ((ix2 n (⟨64, by omega⟩ : Fin 128) : S8192x128.Idx) 1).val < 64 from Nat.lt_irrefl 64), if_pos rfl]

include hx hq hk in
/-- Every entry of the first entry array is a real number. -/
theorem QK_fin : Fin2 (a := 8192) (b := 128) (aQK m c) := by
  intro i
  obtain ⟨n, j, rfl⟩ : ∃ (n : Fin 8192) (j : Fin 128), i = ix2 n j := ⟨i 0, i 1, eq_ix2 i⟩
  by_cases hj : j.val < 64
  · exact ⟨_, QK_lo m c hx hq n ⟨j.val, hj⟩⟩
  · have h2 : j = (⟨64 + (j.val - 64), by have := j.isLt; omega⟩ : Fin 128) := Fin.ext (by show j.val = 64 + (j.val - 64); omega)
    exact ⟨_, by rw [h2]; exact QK_hi m c hx hk n ⟨j.val - 64, by have := j.isLt; omega⟩⟩

include hx hv in
/-- Every entry of the second is. -/
theorem VP_fin : Fin2 (a := 8192) (b := 128) (aVP m c) := by
  intro i
  obtain ⟨n, j, rfl⟩ : ∃ (n : Fin 8192) (j : Fin 128), i = ix2 n j := ⟨i 0, i 1, eq_ix2 i⟩
  by_cases hj : j.val < 64
  · exact ⟨_, VP_lo m c hx hv n ⟨j.val, hj⟩⟩
  · by_cases h64 : j.val = 64
    · refine ⟨1, ?_⟩
      have h2 : j = (⟨64, by omega⟩ : Fin 128) := Fin.ext h64
      rw [h2, VP_64]; rfl
    · refine ⟨0, ?_⟩
      rw [aVP_eq]; unfold v0_VP
      rw [dif_neg (show ¬ ((ix2 n j : S8192x128.Idx) 1).val < 64 from hj), if_neg (show ¬ ((ix2 n j : S8192x128.Idx) 1).val = 64 from h64)]; rfl

end Entries

end Cert.KernelIdeal.Hand

end
-- ==== Proof.KIPieces.lean ====
/-
  The attention kernel's three control cases, their found pieces read back as the body's payloads of its loads: the
  query block is columns `0 … 63` of the first window's block, the key block columns `64 … 127` of the second's, the
  value block the third's whole; the scratch loads read what the reset stored (a row's first key block) or what the
  point before left; the running maximum's scratch ends at the new maximum, the accumulator's at the new accumulator,
  and at a row's last key block the output window at the quotient of the new accumulator's columns `0 … 63` by its
  column 64. Stated for any float instance.
-/
import proofs.«106157_j5660766896751_2_alg».proof.Proof.KIRegion1
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL.Sem
variable {F : FTy → Type} [FloatOps F]

/-- The origin of a rank-2 rectangle. -/
theorem hz2 : (![0, 0] : Fin 2 → ℕ) = fun _ => 0 := by funext a; match a with | ⟨0, _⟩ => rfl | ⟨1, _⟩ => rfl

/-- Columns `0 … 63`, columns `64 … 127` and column `64` of a `1024 × 128` buffer. -/
abbrev r1Lo : Rect S1024x128 := Rect.unit (s := S1024x128) ![0, 0] S1024x64.size inb_S1024x128_S1024x64_0_0
abbrev r1Hi : Rect S1024x128 := Rect.unit (s := S1024x128) ![0, 64] S1024x64.size inb_S1024x128_S1024x64_0_64
abbrev r1Col : Rect S1024x128 := Rect.unit (s := S1024x128) ![0, 64] S1024x1.size inb_S1024x128_S1024x1_0_64

/-- A whole scratch buffer read back through its own view. -/
theorem rd_s0 (h : (scM1_0 : Memref sig .tc .vmem S1024x1 .f32).IsWhole) (X : Vec F S1024x1 .f32) :
    View.read (Elt F) (View.whole cc1_scratch0) (h.unread X) = X := h.read_unread X
theorem rd_s1 (h : (scM1_1 : Memref sig .tc .vmem S1024x128 .f32).IsWhole) (X : Vec F S1024x128 .f32) :
    View.read (Elt F) (View.whole cc1_scratch1) (h.unread X) = X := h.read_unread X

section Pieces
variable (c : Dev nD) (t : Fin cfg1.N) (x0 x1 x2 : Vec F S1024x128 .f32)

theorem pcA_m (hc0 : cond1_0 (grid1.coords t)) (hc1 : ¬cond1_1 (grid1.coords t)) :
    (caseA (F := F) c t hc0 hc1 x0 x1 x2).2.1 = k1_pay1 (k1_pay6 (View.ld x0 r1Lo) (View.ld x1 r1Hi) (k1_pay3 (F := F))) := by
  unfold caseA; dsimp only
  unfold rdS0
  rw [View.read_writes_eq_canon _ _ _ (scoverA_0 c t hc0 hc1 x0 x1 x2)]
  unfold runA kernelRun1_A
  dsimp only
  sl_unfold_words
  rw [View.canon_cons_unit_zero hz2]
  simp only [View.readAt_eq_ld, Memref.IsWhole.read_unread]
  rw [View.readCov_unit_zero (S := S1024x1) _ hz2]

theorem pcA_a (hc0 : cond1_0 (grid1.coords t)) (hc1 : ¬cond1_1 (grid1.coords t)) :
    (caseA (F := F) c t hc0 hc1 x0 x1 x2).2.2 = k1_pay7 (View.ld x0 r1Lo) (View.ld x1 r1Hi) (k1_pay3 (F := F)) (k1_pay3 (F := F)) x2 (k1_pay4 (F := F)) := by
  unfold caseA; dsimp only
  unfold rdS1
  rw [View.read_writes_eq_canon _ _ _ (scoverA_1 c t hc0 hc1 x0 x1 x2)]
  unfold runA kernelRun1_A
  dsimp only
  sl_unfold_words
  rw [View.canon_cons_unit_zero hz2]
  simp only [View.readAt_eq_ld, Memref.IsWhole.read_unread]
  rw [View.readCov_unit_zero (S := S1024x1) _ hz2, View.readCov_unit_zero (S := S1024x128) _ hz2, View.ld_unit_zero (S := S1024x128) hz2]

variable (xs0 : Vec F S1024x1 .f32) (xs1 : Vec F S1024x128 .f32)

theorem pcB_m (hc0 : ¬cond1_0 (grid1.coords t)) (hc1 : ¬cond1_1 (grid1.coords t)) :
    (caseB (F := F) c t hc0 hc1 x0 x1 x2 xs0 xs1).2.1 = k1_pay1 (k1_pay6 (View.ld x0 r1Lo) (View.ld x1 r1Hi) xs0) := by
  unfold caseB; dsimp only
  unfold rdS0
  rw [View.read_writes_eq_canon _ _ _ (scoverB_0 c t hc0 hc1 x0 x1 x2 xs0 xs1)]
  unfold runB kernelRun1_B
  dsimp only
  sl_unfold_words
  rw [View.canon_unit_zero hz2]
  simp only [View.readAt_eq_ld, Memref.IsWhole.read_unread]
  simp only [View.ld_unit_zero (S := S1024x1) hz2, rd_s0, rd_s1]

theorem pcB_a (hc0 : ¬cond1_0 (grid1.coords t)) (hc1 : ¬cond1_1 (grid1.coords t)) :
    (caseB (F := F) c t hc0 hc1 x0 x1 x2 xs0 xs1).2.2 = k1_pay7 (View.ld x0 r1Lo) (View.ld x1 r1Hi) xs0 xs0 x2 xs1 := by
  unfold caseB; dsimp only
  unfold rdS1
  rw [View.read_writes_eq_canon _ _ _ (scoverB_1 c t hc0 hc1 x0 x1 x2 xs0 xs1)]
  unfold runB kernelRun1_B
  dsimp only
  sl_unfold_words
  rw [View.canon_unit_zero hz2]
  simp only [View.readAt_eq_ld, Memref.IsWhole.read_unread]
  simp only [View.ld_unit_zero (S := S1024x1) hz2, View.ld_unit_zero (S := S1024x128) hz2, rd_s0, rd_s1]

theorem pcC_m (hc0 : ¬cond1_0 (grid1.coords t)) (hc1 : cond1_1 (grid1.coords t)) :
    (caseC (F := F) c t hc0 hc1 x0 x1 x2 xs0 xs1).2.1 = k1_pay1 (k1_pay6 (View.ld x0 r1Lo) (View.ld x1 r1Hi) xs0) := by
  unfold caseC; dsimp only
  unfold rdS0
  rw [View.read_writes_eq_canon _ _ _ (scoverC_0 c t hc0 hc1 x0 x1 x2 xs0 xs1)]
  unfold runC kernelRun1_C
  dsimp only
  sl_unfold_words
  rw [View.canon_unit_zero hz2]
  simp only [View.readAt_eq_ld, Memref.IsWhole.read_unread]
  simp only [View.ld_unit_zero (S := S1024x1) hz2, rd_s0, rd_s1]

theorem pcC_a (hc0 : ¬cond1_0 (grid1.coords t)) (hc1 : cond1_1 (grid1.coords t)) :
    (caseC (F := F) c t hc0 hc1 x0 x1 x2 xs0 xs1).2.2 = k1_pay7 (View.ld x0 r1Lo) (View.ld x1 r1Hi) xs0 xs0 x2 xs1 := by
  unfold caseC; dsimp only
  unfold rdS1
  rw [View.read_writes_eq_canon _ _ _ (scoverC_1 c t hc0 hc1 x0 x1 x2 xs0 xs1)]
  unfold runC kernelRun1_C
  dsimp only
  sl_unfold_words
  rw [View.canon_unit_zero hz2]
  simp only [View.readAt_eq_ld, Memref.IsWhole.read_unread]
  simp only [View.ld_unit_zero (S := S1024x1) hz2, View.ld_unit_zero (S := S1024x128) hz2, rd_s0, rd_s1]

/-- One whole-buffer store covers the buffer. -/
theorem cover128 (p0 : Vec F S1024x128 .f32) (y : S1024x128.Idx) :
    ∃ pc ∈ ([⟨Rect.unit (s := S1024x128) ![0, 0] S1024x128.size inb_S1024x128_S1024x128_0_0, p0⟩] : List (View.Piece (Elt F) S1024x128 .f32)), y ∈ pc.1.set :=
  View.cover_of_tiled [⟨Rect.unit (s := S1024x128) ![0, 0] S1024x128.size inb_S1024x128_S1024x128_0_0, p0⟩] S1024x128.size (by rfl) y

theorem pcC_o (hc0 : ¬cond1_0 (grid1.coords t)) (hc1 : cond1_1 (grid1.coords t)) :
    (caseC (F := F) c t hc0 hc1 x0 x1 x2 xs0 xs1).1
      = k1_pay2 (View.ld (k1_pay7 (View.ld x0 r1Lo) (View.ld x1 r1Hi) xs0 xs0 x2 xs1) r1Lo) (View.ld (k1_pay7 (View.ld x0 r1Lo) (View.ld x1 r1Hi) xs0 xs0 x2 xs1) r1Col) := by
  unfold caseC; dsimp only
  unfold rdO
  rw [View.read_writes_eq_canon _ _ _ (coverC_3 c t hc0 hc1 x0 x1 x2 xs0 xs1)]
  unfold runC kernelRun1_C
  dsimp only
  sl_unfold_words
  rw [View.canon_unit_zero hz2]
  simp only [View.readAt_eq_ld, Memref.IsWhole.read_unread]
  rw [View.readCov_eq_canon_ld _ _ _ (cover128 _), View.readCov_eq_canon_ld _ _ _ (cover128 _), View.canon_unit_zero hz2]
  simp only [View.ld_unit_zero (S := S1024x1) hz2, View.ld_unit_zero (S := S1024x128) hz2, rd_s0, rd_s1]

end Pieces
end Cert.KernelIdeal.Hand
end
-- ==== Proof.KIValue1Point.lean ====
/-
  The attention kernel's body at ONE grid point, at the extended reals, index by index: from the query block `x0`, the
  key block `x1`, the value block `x2` (each `1024 × 128`: queries in columns `0 … 63` of `x0`, keys in columns
  `64 … 127` of `x1`) and what the running maximum `mp` and the running accumulator `ap` held,
    sc r c   = Σ_e (x0[r,e] · 1/8) · x1[c,64+e]                       the score of query row r against key row c
    newM     = max mp (max_c sc r c)                                    the new running maximum
    newA j   = exp (mp − newM) · ap + Σ_c exp (sc r c − newM) · x2[c,j]   the new running accumulator, column j
  and, at a row's last key block, the output is column `j` of the accumulator divided by its column 64.
-/
import proofs.«106157_j5660766896751_2_alg».proof.Proof.KIPieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- The score of query row `r` of the block `x0` against key row `c` of the block `x1`. -/
def v1_sc (x0 x1 : Vec Ideal S1024x128 .f32) (r c : Fin 1024) : EReal :=
  ∑ e : Fin 64, (x0 (ix2 r ⟨e.val, by have := e.isLt; omega⟩) * Ideal.ofBits .f32 0x3E000000#32) * x1 (ix2 c ⟨64 + e.val, by have := e.isLt; omega⟩)

/-- The block's largest score in row `r` (the bottom element if there were none). -/
def v1_bmax (x0 x1 : Vec Ideal S1024x128 .f32) (r : Fin 1024) : EReal := Finset.univ.sup fun c : Fin 1024 => v1_sc x0 x1 r c

/-- The new running maximum of row `r`. -/
def v1_newM (x0 x1 : Vec Ideal S1024x128 .f32) (mp : EReal) (r : Fin 1024) : EReal := max mp (v1_bmax x0 x1 r)

/-- The new running accumulator of row `r`, column `j`. -/
def v1_newA (x0 x1 x2 : Vec Ideal S1024x128 .f32) (mp ap : EReal) (r : Fin 1024) (j : Fin 128) : EReal :=
  Ideal.exp (mp - v1_newM x0 x1 mp r) * ap + ∑ c : Fin 1024, Ideal.exp (v1_sc x0 x1 r c - v1_newM x0 x1 mp r) * x2 (ix2 c j)

section Layout
variable {α : Type}

/-- An `[a]` array cast to the column `[a, 1]` reads, at `(i, u)`, the operand at `i`. -/
theorem v1p_cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's row `p`. -/
theorem v1p_bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The word 0xFF800000 is the bottom element. -/
theorem v1p_bot : Ideal.ofBits .f32 0xFF800000#32 = (⊥ : EReal) := by
  simp [Ideal.ofBits, Ideal.ieee]

/-- A fold of `max` from the bottom element is the supremum. -/
theorem v1p_fold_max {ι : Type} [DecidableEq ι] (s : Finset ι) (f : ι → EReal) : s.fold max ⊥ f = s.sup f := by
  induction s using Finset.induction_on with
  | empty => rw [Finset.fold_empty, Finset.sup_empty]
  | insert a s ha ih => rw [Finset.fold_insert ha, Finset.sup_insert, ih]

/-! ## The scores: queries (scaled) against keys -/

theorem v1p_l5_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem v1p_l5_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem v1p_r5_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem v1p_r5_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The score block at `(r, c)`: the scaled query row `r` against key row `c`, summed over the 64 features. -/
theorem v1p_pay5_apply (q k : Vec Ideal S1024x64 .f32) (r c : Fin 1024) :
    k1_pay5 (F := Ideal) q k (ix2 r c) = ∑ e : Fin 64, (q (ix2 r e) * Ideal.ofBits .f32 0x3E000000#32) * k (ix2 c e) := by
  unfold k1_pay5
  dsimp only
  refine (Ideal.matmul_constant_zero_apply dot_S1024x64_S64x1024_S1024x1024_1_0_0_1_n_n none _ _ (ix2 r c)).trans ?_
  rw [← Equiv.sum_comp (ValueIdx.contrEquiv1 dot_S1024x64_S64x1024_S1024x1024_1_0_0_1_n_n 64 rfl rfl).symm]
  refine Finset.sum_congr rfl fun e _ => ?_
  have hk := ValueIdx.contrEquiv1_symm_val dot_S1024x64_S64x1024_S1024x1024_1_0_0_1_n_n 64 rfl rfl e
  have el : dot_S1024x64_S64x1024_S1024x1024_1_0_0_1_n_n.lhsIdx (ix2 r c) ((ValueIdx.contrEquiv1 dot_S1024x64_S64x1024_S1024x1024_1_0_0_1_n_n 64 rfl rfl).symm e) = ix2 r e :=
    funext fun a => Fin.ext (by
      match a with
      | ⟨0, _⟩ => exact v1p_l5_0 _ _
      | ⟨1, _⟩ => exact (v1p_l5_1 _ _).trans hk)
  have er : dot_S1024x64_S64x1024_S1024x1024_1_0_0_1_n_n.rhsIdx (ix2 r c) ((ValueIdx.contrEquiv1 dot_S1024x64_S64x1024_S1024x1024_1_0_0_1_n_n 64 rfl rfl).symm e) = ix2 e c :=
    funext fun a => Fin.ext (by
      match a with
      | ⟨0, _⟩ => exact (v1p_r5_0 _ _).trans hk
      | ⟨1, _⟩ => exact v1p_r5_1 _ _)
  rw [el, er]
  exact congrArg₂ (· * ·) (congrArg (· * Ideal.ofBits .f32 0x3E000000#32) (congrFun (shapeCast_self q _) (ix2 r e)))
    ((transpose_ix2_apply _ _ e c).trans (congrFun (shapeCast_self k _) (ix2 c e)))

/-- A row maximum from the bottom word, of ANY score block, at row `r`: the supremum over the row. -/
theorem v1p_rowmax_apply (S : FVec Ideal S1024x1024 .f32) (hφ : FKind.Formats .f32)
    (hacc : (0xFF800000#32 : BitVec 32) = FKind.maximumf.neutral .f32 hφ) (r : Fin 1024) :
    multiReduction .maximumf [1] S1024 S 0xFF800000#32 reduces_S1024x1024_S1024 hφ hacc (ix1 r)
      = Finset.univ.sup fun c : Fin 1024 => S (ix2 r c) := by
  refine (Ideal.multiReduction_maximumf_single S 0xFF800000#32 reduces_S1024x1024_S1024 hφ hacc (ix1 r)).trans ?_
  have hl : ∀ c : Fin 1024, reduces_S1024x1024_S1024.lift (ix1 r) c = ix2 r c := fun c =>
    funext fun a => Fin.ext (by match a with | ⟨0, _⟩ => rfl | ⟨1, _⟩ => rfl)
  rw [show (FloatOps.ofBits .f32 0xFF800000#32 : Ideal .f32) = (⊥ : EReal) from v1p_bot]
  refine (v1p_fold_max _ _).trans ?_
  exact Finset.sup_congr rfl fun c _ => congrArg S (hl c)

/-- The new maximum's column form: the old maximum against a row vector cast to a column. -/
theorem v1p_max_col (m : Vec Ideal S1024x1 .f32) (R : FVec Ideal S1024 .f32) (r : Fin 1024) (b : EReal) (hb : R (ix1 r) = b) :
    maximumf m (shapeCast S1024x1 R shapeCasts_S1024_S1024x1) (ix2 r (0 : Fin 1)) = max (m (ix2 r (0 : Fin 1))) b := by
  refine (maximumf_apply _ _ _).trans ?_
  exact congrArg (max (m (ix2 r (0 : Fin 1)))) ((v1p_cast_col R _ r (0 : Fin 1)).trans hb)

/-- Row `r` of the new maximum: the old one against the block's largest score in that row. -/
theorem v1p_pay6_apply (q k : Vec Ideal S1024x64 .f32) (m : Vec Ideal S1024x1 .f32) (r : Fin 1024) :
    k1_pay6 (F := Ideal) q k m (ix2 r (0 : Fin 1))
      = max (m (ix2 r (0 : Fin 1))) (Finset.univ.sup fun c : Fin 1024 => k1_pay5 (F := Ideal) q k (ix2 r c)) := by
  unfold k1_pay6
  dsimp only
  exact v1p_max_col m _ r _ (v1p_rowmax_apply (k1_pay5 (F := Ideal) q k) _ _ r)

/-! ## The accumulator's update -/

theorem v1p_l7_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem v1p_l7_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem v1p_r7_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem v1p_r7_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Weights times values into the zero accumulator, at `(r, j)`: the sum over the block's 1024 key rows. -/
theorem v1p_mm7_apply (P : FVec Ideal S1024x1024 .bf16) (V : FVec Ideal S1024x128 .bf16) (r : Fin 1024) (j : Fin 128) :
    matmul dot_S1024x1024_S1024x128_S1024x128_1_0_0_1_n_n none P V (constant S1024x128 .f32 0x00000000#32) (ix2 r j)
      = ∑ c : Fin 1024, P (ix2 r c) * V (ix2 c j) := by
  refine (Ideal.matmul_constant_zero_apply dot_S1024x1024_S1024x128_S1024x128_1_0_0_1_n_n none P V (ix2 r j)).trans ?_
  rw [← Equiv.sum_comp (ValueIdx.contrEquiv1 dot_S1024x1024_S1024x128_S1024x128_1_0_0_1_n_n 1024 rfl rfl).symm]
  refine Finset.sum_congr rfl fun c _ => ?_
  have hk := ValueIdx.contrEquiv1_symm_val dot_S1024x1024_S1024x128_S1024x128_1_0_0_1_n_n 1024 rfl rfl c
  have el : dot_S1024x1024_S1024x128_S1024x128_1_0_0_1_n_n.lhsIdx (ix2 r j) ((ValueIdx.contrEquiv1 dot_S1024x1024_S1024x128_S1024x128_1_0_0_1_n_n 1024 rfl rfl).symm c) = ix2 r c :=
    funext fun a => Fin.ext (by
      match a with
      | ⟨0, _⟩ => exact v1p_l7_0 _ _
      | ⟨1, _⟩ => exact (v1p_l7_1 _ _).trans hk)
  have er : dot_S1024x1024_S1024x128_S1024x128_1_0_0_1_n_n.rhsIdx (ix2 r j) ((ValueIdx.contrEquiv1 dot_S1024x1024_S1024x128_S1024x128_1_0_0_1_n_n 1024 rfl rfl).symm c) = ix2 c j :=
    funext fun a => Fin.ext (by
      match a with
      | ⟨0, _⟩ => exact (v1p_r7_0 _ _).trans hk
      | ⟨1, _⟩ => exact v1p_r7_1 _ _)
  rw [el, er]

/-- The update over ANY score block `S` and new maximum `M`: the old accumulator rescaled plus the weighted values. -/
theorem v1p_acc_apply (S : FVec Ideal S1024x1024 .f32) (M : FVec Ideal S1024x1 .f32) (m' : Vec Ideal S1024x1 .f32)
    (v acc : Vec Ideal S1024x128 .f32) (r : Fin 1024) (j : Fin 128) :
    shapeCast S1024x128 (addf (mulf (broadcastTo S1024x128 (exp (subf m' M)) broadcasts_S1024x1_S1024x128) acc)
        (matmul dot_S1024x1024_S1024x128_S1024x128_1_0_0_1_n_n none
          (truncf .bf16 (exp (subf S (broadcastTo S1024x1024 M broadcasts_S1024x1_S1024x1024))) bitsLt_bf16_f32)
          (truncf .bf16 (shapeCast S1024x128 v shapeCasts_S1024x128_S1024x128) bitsLt_bf16_f32)
          (constant S1024x128 .f32 0x00000000#32))) shapeCasts_S1024x128_S1024x128 (ix2 r j)
      = Ideal.exp (m' (ix2 r (0 : Fin 1)) - M (ix2 r (0 : Fin 1))) * acc (ix2 r j)
          + ∑ c : Fin 1024, Ideal.exp (S (ix2 r c) - M (ix2 r (0 : Fin 1))) * v (ix2 c j) := by
  refine (congrFun (shapeCast_self _ _) (ix2 r j)).trans ?_
  refine (addf_apply _ _ _).trans ?_
  refine congrArg₂ (· + ·) ?_ ?_
  · refine (mulf_apply _ _ _).trans ?_
    exact congrArg (· * acc (ix2 r j)) (v1p_bcast_col (exp (subf m' M)) _ r j)
  · refine (v1p_mm7_apply _ _ r j).trans ?_
    refine Finset.sum_congr rfl fun c _ => ?_
    exact congrArg₂ (· * ·) (congrArg (fun z => Ideal.exp (S (ix2 r c) - z)) (v1p_bcast_col M _ r c))
      (congrFun (shapeCast_self v _) (ix2 c j))

theorem v1p_pay7_apply (q k : Vec Ideal S1024x64 .f32) (m m' : Vec Ideal S1024x1 .f32) (v acc : Vec Ideal S1024x128 .f32)
    (r : Fin 1024) (j : Fin 128) :
    k1_pay7 (F := Ideal) q k m m' v acc (ix2 r j)
      = Ideal.exp (m' (ix2 r (0 : Fin 1)) - k1_pay6 (F := Ideal) q k m (ix2 r (0 : Fin 1))) * acc (ix2 r j)
          + ∑ c : Fin 1024, Ideal.exp (k1_pay5 (F := Ideal) q k (ix2 r c) - k1_pay6 (F := Ideal) q k m (ix2 r (0 : Fin 1))) * v (ix2 c j) := by
  unfold k1_pay7
  (try dsimp only)
  exact v1p_acc_apply (k1_pay5 (F := Ideal) q k) (k1_pay6 (F := Ideal) q k m) m' v acc r j

/-! ## The normalisation, and the two reset constants -/

theorem v1p_pay2_apply (num : Vec Ideal S1024x64 .f32) (den : Vec Ideal S1024x1 .f32) (r : Fin 1024) (j : Fin 64) :
    k1_pay2 (F := Ideal) num den (ix2 r j) = Ideal.div (num (ix2 r j)) (den (ix2 r (0 : Fin 1))) := by
  unfold k1_pay2
  (try dsimp only)
  refine (divf_apply _ _ _).trans ?_
  exact congrArg (Ideal.div (num (ix2 r j))) (v1p_bcast_col den _ r j)

theorem v1p_pay1_eq (v : FVec Ideal S1024x1 .f32) : k1_pay1 (F := Ideal) v = v := shapeCast_self v _

theorem v1p_pay3_apply (y : S1024x1.Idx) : k1_pay3 (F := Ideal) y = (⊥ : EReal) := by
  unfold k1_pay3
  (try dsimp only)
  refine (congrFun (shapeCast_self _ _) y).trans ?_
  exact v1p_bot

theorem v1p_pay4_apply (y : S1024x128.Idx) : k1_pay4 (F := Ideal) y = (0 : EReal) := by
  unfold k1_pay4
  (try dsimp only)
  refine (congrFun (shapeCast_self _ _) y).trans ?_
  exact Ideal.ofBits_zero_f32

/-! ## The column blocks a load reads -/

/-- Columns `0 … 63` of a `1024 × 128` block, at `(r, e)`. -/
theorem v1p_lo_apply (X : Vec Ideal S1024x128 .f32) (r : Fin 1024) (e : Fin 64) :
    View.ld X r1Lo (ix2 r e) = X (ix2 r ⟨e.val, by have := e.isLt; omega⟩) :=
  congrArg X (funext fun a => Fin.ext (by
    match a with
    | ⟨0, _⟩ => show 0 + 1 * r.val = r.val; omega
    | ⟨1, _⟩ => show 0 + 1 * e.val = e.val; omega))

/-- Columns `64 … 127`, at `(r, e)`. -/
theorem v1p_hi_apply (X : Vec Ideal S1024x128 .f32) (r : Fin 1024) (e : Fin 64) :
    View.ld X r1Hi (ix2 r e) = X (ix2 r ⟨64 + e.val, by have := e.isLt; omega⟩) :=
  congrArg X (funext fun a => Fin.ext (by
    match a with
    | ⟨0, _⟩ => show 0 + 1 * r.val = r.val; omega
    | ⟨1, _⟩ => show 64 + 1 * e.val = 64 + e.val; omega))

/-- Column `64`, at row `r`. -/
theorem v1p_col_apply (X : Vec Ideal S1024x128 .f32) (r : Fin 1024) :
    View.ld X r1Col (ix2 r (0 : Fin 1)) = X (ix2 r ⟨64, by omega⟩) :=
  congrArg X (funext fun a => Fin.ext (by
    match a with
    | ⟨0, _⟩ => show 0 + 1 * r.val = r.val; omega
    | ⟨1, _⟩ => rfl))

/-! ## The payloads on the loaded column blocks are the point's score, maximum and accumulator -/

attribute [local irreducible] k1_pay5 k1_pay6 k1_pay7

theorem v1p_sc_eq (x0 x1 : Vec Ideal S1024x128 .f32) (r c : Fin 1024) :
    k1_pay5 (F := Ideal) (View.ld x0 r1Lo) (View.ld x1 r1Hi) (ix2 r c) = v1_sc x0 x1 r c := by
  refine (v1p_pay5_apply _ _ r c).trans ?_
  refine Finset.sum_congr rfl fun e _ => ?_
  exact congrArg₂ (· * ·) (congrArg (· * Ideal.ofBits .f32 0x3E000000#32) (v1p_lo_apply x0 r e)) (v1p_hi_apply x1 c e)

theorem v1p_newM_eq (x0 x1 : Vec Ideal S1024x128 .f32) (m : Vec Ideal S1024x1 .f32) (r : Fin 1024) :
    k1_pay6 (F := Ideal) (View.ld x0 r1Lo) (View.ld x1 r1Hi) m (ix2 r (0 : Fin 1)) = v1_newM x0 x1 (m (ix2 r (0 : Fin 1))) r := by
  refine (v1p_pay6_apply _ _ m r).trans ?_
  exact congrArg (max (m (ix2 r (0 : Fin 1)))) (Finset.sup_congr rfl fun c _ => v1p_sc_eq x0 x1 r c)

theorem v1p_newA_eq (x0 x1 x2 : Vec Ideal S1024x128 .f32) (m : Vec Ideal S1024x1 .f32) (acc : Vec Ideal S1024x128 .f32)
    (r : Fin 1024) (j : Fin 128) :
    k1_pay7 (F := Ideal) (View.ld x0 r1Lo) (View.ld x1 r1Hi) m m x2 acc (ix2 r j)
      = v1_newA x0 x1 x2 (m (ix2 r (0 : Fin 1))) (acc (ix2 r j)) r j := by
  refine (v1p_pay7_apply _ _ m m x2 acc r j).trans ?_
  rw [v1p_newM_eq x0 x1 m r]
  refine congrArg (Ideal.exp (m (ix2 r (0 : Fin 1)) - v1_newM x0 x1 (m (ix2 r (0 : Fin 1))) r) * acc (ix2 r j) + ·) ?_
  refine Finset.sum_congr rfl fun c _ => ?_
  rw [v1p_sc_eq x0 x1 r c]

/-! ## A row's first key block: the maximum starts from the bottom element, the accumulator from zero -/

theorem v1_caseA_m (c : Dev nD) (t : Fin cfg1.N) (hc0 : cond1_0 (grid1.coords t)) (hc1 : ¬cond1_1 (grid1.coords t)) (x0 x1 x2 : Vec Ideal S1024x128 .f32)
    (r : Fin 1024) : (caseA (F := Ideal) c t hc0 hc1 x0 x1 x2).2.1 (ix2 r (0 : Fin 1)) = v1_newM x0 x1 ⊥ r := by
  refine (congrFun (pcA_m (F := Ideal) c t x0 x1 x2 hc0 hc1) (ix2 r (0 : Fin 1))).trans ?_
  refine (congrFun (v1p_pay1_eq _) (ix2 r (0 : Fin 1))).trans ?_
  refine (v1p_newM_eq x0 x1 (k1_pay3 (F := Ideal)) r).trans ?_
  exact congrArg (fun z => v1_newM x0 x1 z r) (v1p_pay3_apply (ix2 r (0 : Fin 1)))

theorem v1_caseA_a (c : Dev nD) (t : Fin cfg1.N) (hc0 : cond1_0 (grid1.coords t)) (hc1 : ¬cond1_1 (grid1.coords t)) (x0 x1 x2 : Vec Ideal S1024x128 .f32)
    (r : Fin 1024) (j : Fin 128) : (caseA (F := Ideal) c t hc0 hc1 x0 x1 x2).2.2 (ix2 r j) = v1_newA x0 x1 x2 ⊥ 0 r j := by
  refine (congrFun (pcA_a (F := Ideal) c t x0 x1 x2 hc0 hc1) (ix2 r j)).trans ?_
  refine (v1p_newA_eq x0 x1 x2 (k1_pay3 (F := Ideal)) (k1_pay4 (F := Ideal)) r j).trans ?_
  exact congrArg₂ (fun z w => v1_newA x0 x1 x2 z w r j) (v1p_pay3_apply (ix2 r (0 : Fin 1))) (v1p_pay4_apply (ix2 r j))

/-! ## A middle key block -/

theorem v1_caseB_m (c : Dev nD) (t : Fin cfg1.N) (hc0 : ¬cond1_0 (grid1.coords t)) (hc1 : ¬cond1_1 (grid1.coords t)) (x0 x1 x2 : Vec Ideal S1024x128 .f32)
    (xs0 : Vec Ideal S1024x1 .f32) (xs1 : Vec Ideal S1024x128 .f32) (r : Fin 1024) :
    (caseB (F := Ideal) c t hc0 hc1 x0 x1 x2 xs0 xs1).2.1 (ix2 r (0 : Fin 1)) = v1_newM x0 x1 (xs0 (ix2 r (0 : Fin 1))) r := by
  refine (congrFun (pcB_m (F := Ideal) c t x0 x1 x2 xs0 xs1 hc0 hc1) (ix2 r (0 : Fin 1))).trans ?_
  refine (congrFun (v1p_pay1_eq _) (ix2 r (0 : Fin 1))).trans ?_
  exact v1p_newM_eq x0 x1 xs0 r

theorem v1_caseB_a (c : Dev nD) (t : Fin cfg1.N) (hc0 : ¬cond1_0 (grid1.coords t)) (hc1 : ¬cond1_1 (grid1.coords t)) (x0 x1 x2 : Vec Ideal S1024x128 .f32)
    (xs0 : Vec Ideal S1024x1 .f32) (xs1 : Vec Ideal S1024x128 .f32) (r : Fin 1024) (j : Fin 128) :
    (caseB (F := Ideal) c t hc0 hc1 x0 x1 x2 xs0 xs1).2.2 (ix2 r j) = v1_newA x0 x1 x2 (xs0 (ix2 r (0 : Fin 1))) (xs1 (ix2 r j)) r j := by
  refine (congrFun (pcB_a (F := Ideal) c t x0 x1 x2 xs0 xs1 hc0 hc1) (ix2 r j)).trans ?_
  exact v1p_newA_eq x0 x1 x2 xs0 xs1 r j

/-! ## A row's last key block -/

theorem v1_caseC_m (c : Dev nD) (t : Fin cfg1.N) (hc0 : ¬cond1_0 (grid1.coords t)) (hc1 : cond1_1 (grid1.coords t)) (x0 x1 x2 : Vec Ideal S1024x128 .f32)
    (xs0 : Vec Ideal S1024x1 .f32) (xs1 : Vec Ideal S1024x128 .f32) (r : Fin 1024) :
    (caseC (F := Ideal) c t hc0 hc1 x0 x1 x2 xs0 xs1).2.1 (ix2 r (0 : Fin 1)) = v1_newM x0 x1 (xs0 (ix2 r (0 : Fin 1))) r := by
  refine (congrFun (pcC_m (F := Ideal) c t x0 x1 x2 xs0 xs1 hc0 hc1) (ix2 r (0 : Fin 1))).trans ?_
  refine (congrFun (v1p_pay1_eq _) (ix2 r (0 : Fin 1))).trans ?_
  exact v1p_newM_eq x0 x1 xs0 r

theorem v1_caseC_a (c : Dev nD) (t : Fin cfg1.N) (hc0 : ¬cond1_0 (grid1.coords t)) (hc1 : cond1_1 (grid1.coords t)) (x0 x1 x2 : Vec Ideal S1024x128 .f32)
    (xs0 : Vec Ideal S1024x1 .f32) (xs1 : Vec Ideal S1024x128 .f32) (r : Fin 1024) (j : Fin 128) :
    (caseC (F := Ideal) c t hc0 hc1 x0 x1 x2 xs0 xs1).2.2 (ix2 r j) = v1_newA x0 x1 x2 (xs0 (ix2 r (0 : Fin 1))) (xs1 (ix2 r j)) r j := by
  refine (congrFun (pcC_a (F := Ideal) c t x0 x1 x2 xs0 xs1 hc0 hc1) (ix2 r j)).trans ?_
  exact v1p_newA_eq x0 x1 x2 xs0 xs1 r j

/-- The output block: the new accumulator's column `j` over its column 64. -/
theorem v1_caseC_o (c : Dev nD) (t : Fin cfg1.N) (hc0 : ¬cond1_0 (grid1.coords t)) (hc1 : cond1_1 (grid1.coords t)) (x0 x1 x2 : Vec Ideal S1024x128 .f32)
    (xs0 : Vec Ideal S1024x1 .f32) (xs1 : Vec Ideal S1024x128 .f32) (r : Fin 1024) (j : Fin 64) :
    (caseC (F := Ideal) c t hc0 hc1 x0 x1 x2 xs0 xs1).1 (ix2 r j)
      = Ideal.div (v1_newA x0 x1 x2 (xs0 (ix2 r (0 : Fin 1))) (xs1 (ix2 r ⟨j.val, by have := j.isLt; omega⟩)) r ⟨j.val, by have := j.isLt; omega⟩)
          (v1_newA x0 x1 x2 (xs0 (ix2 r (0 : Fin 1))) (xs1 (ix2 r ⟨64, by omega⟩)) r ⟨64, by omega⟩) := by
  refine (congrFun (pcC_o (F := Ideal) c t x0 x1 x2 xs0 xs1 hc0 hc1) (ix2 r j)).trans ?_
  refine (v1p_pay2_apply _ _ r j).trans ?_
  exact congrArg₂ Ideal.div
    ((v1p_lo_apply _ r j).trans (v1p_newA_eq x0 x1 x2 xs0 xs1 r ⟨j.val, by have := j.isLt; omega⟩))
    ((v1p_col_apply _ r).trans (v1p_newA_eq x0 x1 x2 xs0 xs1 r ⟨64, by omega⟩))

end Cert.KernelIdeal.Hand

end
-- ==== Proof.OnlineSoftmax.lean ====
/-
  The blockwise ("online") evaluation of a softmax row agrees with the one-pass evaluation, over the reals.

  With `s b c` the score against key row `b·1024 + c`, the running maximum `runMax s k` dominates every score of
  blocks `0 … k`, and the running weighted sum unrolls to
    runAcc s u k = Σ_{b ≤ k} Σ_c exp (s b c − runMax s k) · u b c
  because exp (a − m) · exp (m − m') = exp (a − m').  After the eighth block the running maximum is the row maximum
  (both are the largest of the same 8192 scores), the pairs (b, c) with b < 8 enumerate the 8192 key rows exactly once,
  and the quotient of the value column's sum by the constant column's sum is the softmax-weighted sum of the
  specification.
-/
import proofs.«106157_j5660766896751_2_alg».proof.Proof.Online

noncomputable section

open scoped BigOperators

namespace Cert.Attn.Online

/-! ## The running maximum -/

/-- Every score of block `k` is at most the block's maximum. -/
theorem blockMax_ge (s : ℕ → Fin 1024 → ℝ) (k : ℕ) (c : Fin 1024) : s k c ≤ blockMax s k := by
  unfold blockMax
  exact Finset.le_sup' (s k) (Finset.mem_univ c)

/-- A block's maximum is at most the running maximum after that block. -/
theorem blockMax_le_runMax (s : ℕ → Fin 1024 → ℝ) (k : ℕ) : blockMax s k ≤ runMax s k := by
  cases k with
  | zero => exact le_of_eq rfl
  | succ k => exact le_max_right _ _

/-- The running maximum does not decrease from one block to the next. -/
theorem runMax_le_succ (s : ℕ → Fin 1024 → ℝ) (k : ℕ) : runMax s k ≤ runMax s (k + 1) :=
  le_max_left _ _

/-- The running maximum is monotone in the block index. -/
theorem runMax_mono (s : ℕ → Fin 1024 → ℝ) {b k : ℕ} (hb : b ≤ k) : runMax s b ≤ runMax s k := by
  induction k, hb using Nat.le_induction with
  | base => exact le_refl _
  | succ k _ ih => exact ih.trans (runMax_le_succ s k)

theorem runMax_ge (s : ℕ → Fin 1024 → ℝ) (k b : ℕ) (hb : b ≤ k) (c : Fin 1024) : s b c ≤ runMax s k :=
  (blockMax_ge s b c).trans ((blockMax_le_runMax s b).trans (runMax_mono s hb))

/-- A bound on every score of blocks `0 … k` bounds the running maximum. -/
theorem runMax_le (s : ℕ → Fin 1024 → ℝ) (k : ℕ) (M : ℝ) (h : ∀ b, b ≤ k → ∀ c, s b c ≤ M) : runMax s k ≤ M := by
  induction k with
  | zero =>
    show blockMax s 0 ≤ M
    unfold blockMax
    exact Finset.sup'_le _ _ (fun c _ => h 0 (le_refl _) c)
  | succ k ih =>
    show max (runMax s k) (blockMax s (k + 1)) ≤ M
    refine max_le (ih (fun b hb c => h b (Nat.le_succ_of_le hb) c)) ?_
    unfold blockMax
    exact Finset.sup'_le _ _ (fun c _ => h (k + 1) (le_refl _) c)

/-! ## The running weighted sum -/

theorem runAcc_eq (s u : ℕ → Fin 1024 → ℝ) (k : ℕ) :
    runAcc s u k = ∑ b ∈ Finset.range (k + 1), ∑ c : Fin 1024, Real.exp (s b c - runMax s k) * u b c := by
  induction k with
  | zero =>
    rw [Finset.sum_range_one]
    rfl
  | succ k ih =>
    show Real.exp (runMax s k - runMax s (k + 1)) * runAcc s u k
        + ∑ c : Fin 1024, Real.exp (s (k + 1) c - runMax s (k + 1)) * u (k + 1) c = _
    rw [ih, Finset.sum_range_succ _ (k + 1), Finset.mul_sum]
    congr 1
    refine Finset.sum_congr rfl (fun b _ => ?_)
    rw [Finset.mul_sum]
    refine Finset.sum_congr rfl (fun c _ => ?_)
    rw [← mul_assoc, ← Real.exp_add]
    congr 2
    ring

theorem runAcc_ones_pos (s : ℕ → Fin 1024 → ℝ) (k : ℕ) : 0 < runAcc s ones k := by
  rw [runAcc_eq]
  refine Finset.sum_pos (fun b _ => Finset.sum_pos (fun c _ => ?_) Finset.univ_nonempty)
    ⟨0, Finset.mem_range.mpr (Nat.succ_pos k)⟩
  exact mul_pos (Real.exp_pos _) one_pos

/-! ## The eight blocks enumerate the key rows -/

/-- The pairs (block, position in the block) correspond one to one to the key rows. -/
def blockEquiv : Fin 8 × Fin 1024 ≃ Fin 8192 where
  toFun p := keyRow p.1.val p.1.isLt p.2
  invFun n := (⟨n.val / 1024, by have := n.isLt; omega⟩, ⟨n.val % 1024, by omega⟩)
  left_inv := by
    rintro ⟨⟨b, hb⟩, ⟨c, hc⟩⟩
    refine Prod.ext (Fin.ext ?_) (Fin.ext ?_)
    · show (b * 1024 + c) / 1024 = b
      omega
    · show (b * 1024 + c) % 1024 = c
      omega
  right_inv := by
    rintro ⟨n, hn⟩
    apply Fin.ext
    show n / 1024 * 1024 + n % 1024 = n
    omega

/-- Key row `n'` is position `n' % 1024` of block `n' / 1024`. -/
theorem keyRow_div_mod (n' : Fin 8192) (h1 : n'.val / 1024 < 8) (h2 : n'.val % 1024 < 1024) :
    keyRow (n'.val / 1024) h1 ⟨n'.val % 1024, h2⟩ = n' := by
  apply Fin.ext
  show n'.val / 1024 * 1024 + n'.val % 1024 = n'.val
  omega

/-- A sum over the eight blocks and the positions in a block is the sum over the key rows. -/
theorem sum_blocks (f : ℕ → Fin 1024 → ℝ) (F : Fin 8192 → ℝ)
    (h : ∀ (b : ℕ) (hb : b < 8) (c : Fin 1024), f b c = F (keyRow b hb c)) :
    ∑ b ∈ Finset.range 8, ∑ c : Fin 1024, f b c = ∑ n' : Fin 8192, F n' := by
  rw [Finset.sum_range, ← Equiv.sum_comp blockEquiv F, Fintype.sum_prod_type]
  refine Finset.sum_congr rfl (fun b _ => Finset.sum_congr rfl (fun c _ => ?_))
  rw [h b.val b.isLt c]
  rfl

/-! ## One row of the attention output -/

section Rows

variable (x : Fin 8192 → Fin 1024 → ℝ) (wq wk wv : Fin 1024 → Fin 64 → ℝ)

theorem rowS_of_lt (n : Fin 8192) (b : ℕ) (hb : b < 8) (c : Fin 1024) :
    rowS x wq wk n b c = score x wq wk n (keyRow b hb c) := by
  unfold rowS
  exact dif_pos hb

theorem colU_of_lt (j : Fin 64) (b : ℕ) (hb : b < 8) (c : Fin 1024) :
    colU x wv j b c = proj x wv (keyRow b hb c) j := by
  unfold colU
  exact dif_pos hb

/-- After the eighth block the running maximum is the row maximum. -/
theorem runMax_rowS (n : Fin 8192) : runMax (rowS x wq wk n) 7 = rowMax x wq wk n := by
  apply le_antisymm
  · refine runMax_le _ 7 _ (fun b hb c => ?_)
    have hb8 : b < 8 := by omega
    rw [rowS_of_lt x wq wk n b hb8 c]
    unfold rowMax
    exact Finset.le_sup' (score x wq wk n) (Finset.mem_univ _)
  · unfold rowMax
    refine Finset.sup'_le _ _ (fun n' _ => ?_)
    have h1 : n'.val / 1024 < 8 := by have := n'.isLt; omega
    have h2 : n'.val % 1024 < 1024 := by omega
    have h := runMax_ge (rowS x wq wk n) 7 (n'.val / 1024) (by omega) ⟨n'.val % 1024, h2⟩
    rw [rowS_of_lt x wq wk n _ h1, keyRow_div_mod n' h1 h2] at h
    exact h

theorem flash_row (x : Fin 8192 → Fin 1024 → ℝ) (wq wk wv : Fin 1024 → Fin 64 → ℝ) (n : Fin 8192) (j : Fin 64) :
    runAcc (rowS x wq wk n) (colU x wv j) 7 / runAcc (rowS x wq wk n) ones 7 = attn x wq wk wv n j := by
  have hnum : runAcc (rowS x wq wk n) (colU x wv j) 7
      = ∑ n' : Fin 8192, wgt x wq wk n n' * proj x wv n' j := by
    rw [runAcc_eq]
    refine sum_blocks _ (fun n' => wgt x wq wk n n' * proj x wv n' j) (fun b hb c => ?_)
    rw [rowS_of_lt x wq wk n b hb c, colU_of_lt x wv j b hb c, runMax_rowS]
    rfl
  have hden : runAcc (rowS x wq wk n) ones 7 = ∑ n' : Fin 8192, wgt x wq wk n n' := by
    rw [runAcc_eq]
    refine sum_blocks _ (fun n' => wgt x wq wk n n') (fun b hb c => ?_)
    rw [rowS_of_lt x wq wk n b hb c, runMax_rowS]
    show Real.exp _ * 1 = _
    rw [mul_one]
    rfl
  rw [hnum, hden, Finset.sum_div]
  unfold attn
  refine Finset.sum_congr rfl (fun n' _ => ?_)
  ring

end Rows

end Cert.Attn.Online

end
-- ==== Proof.KIValue1.lean ====
/-
  The attention kernel over its whole grid: what its result array holds after its region.

  The grid has 8 × 8 points, the query block qi outermost and the key block ki innermost; the point t has
  qi = t / 8 and ki = t mod 8. For the query row n = qi · 1024 + r, with s b c the scaled score of row n against
  key row b · 1024 + c and u b c column j of the value array at that key row, the two carried buffers hold after the
  point (qi, ki), at row r, the running maximum runMax s ki and, in column j, the running weighted sum runAcc s u ki:
  at ki = 0 both start from the bottom element and from zero (max ⊥ x = x, exp ⊥ = 0), and every later point applies
  one step of the recurrence to what the point before left. Every quantity is the coercion of a real number, because
  the entries of the two arrays the kernel reads are real: the coercion commutes with products, differences, finite
  sums, exp, the maximum of two reals and of a nonempty finite family. At ki = 7 the output block is the quotient of
  column j by column 64 of the accumulator; column 64 of the value array is constantly one, so the denominator is
  the running sum of the weights, which is positive, and the quotient of the coercions is the coercion of the quotient.
  The blocks written back at the points with ki = 7 cover the result array: row n lies in the block of the point
  (n / 1024) · 8 + 7.
-/
import proofs.«106157_j5660766896751_2_alg».proof.Proof.KIValue1Point
import proofs.«106157_j5660766896751_2_alg».proof.Proof.OnlineSoftmax

set_option maxRecDepth 16384

noncomputable section

open scoped BigOperators

namespace Cert.KernelIdeal.Hand

open Cert.KernelIdeal Cert.KernelIdeal.Gen Idealize.ShloMosaic Idealize.ShloMosaic.ValueIdx Cert.Attn Cert.Attn.Online
open Idealize.ShloMosaic.TcCoe Idealize.SL.Sem
open Idealize.ShloMosaic.Pipeline (Dat)

/-! ## The coercion of the reals into the extended reals -/

/-- The coercion of a finite sum of reals is the sum of the coercions. -/
theorem v1_coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of two coerced reals is the coercion of their maximum. -/
theorem v1_coe_max (a b : ℝ) : max ((a : ℝ) : EReal) ((b : ℝ) : EReal) = ((max a b : ℝ) : EReal) :=
  (EReal.coe_strictMono.monotone.map_max).symm

/-- The supremum of a nonempty finite family of coerced reals is the coercion of the largest of them. -/
theorem v1_coe_sup {ι : Type*} [Fintype ι] [Nonempty ι] (f : ι → ℝ) :
    (Finset.univ : Finset ι).sup (fun k => ((f k : ℝ) : EReal)) = ((Finset.univ.sup' Finset.univ_nonempty f : ℝ) : EReal) := by
  apply le_antisymm
  · exact Finset.sup_le fun k _ => EReal.coe_le_coe_iff.2 (Finset.le_sup' f (Finset.mem_univ k))
  · obtain ⟨k, _, hk⟩ := Finset.exists_mem_eq_sup' Finset.univ_nonempty f
    rw [hk]
    exact Finset.le_sup (f := fun k => ((f k : ℝ) : EReal)) (Finset.mem_univ k)

/-- The word 0x3E000000 is 1/8 = 2^23 · 2^(124 − 127 − 23). -/
theorem v1_lit8 : Ideal.ofBits .f32 0x3E000000#32 = ((1 / 8 : ℝ) : EReal) := by
  simp [Ideal.ofBits, Ideal.ieee, -EReal.coe_mul] <;> norm_num

/-! ## One step of the recurrence, over the reals

The per-point formulas on blocks whose relevant entries are coerced reals. -/

/-- A score of two real rows is the coerced real score. -/
theorem v1_sc_coe (x0 x1 : Vec Ideal S1024x128 .f32) (r c : Fin 1024) (a b : Fin 64 → ℝ)
    (ha : ∀ e : Fin 64, x0 (ix2 r ⟨e.val, by have := e.isLt; omega⟩) = ((a e : ℝ) : EReal))
    (hb : ∀ e : Fin 64, x1 (ix2 c ⟨64 + e.val, by have := e.isLt; omega⟩) = ((b e : ℝ) : EReal)) :
    v1_sc x0 x1 r c = ((∑ e : Fin 64, (a e * (1 / 8)) * b e : ℝ) : EReal) := by
  unfold v1_sc
  rw [v1_coe_sum]
  refine Finset.sum_congr rfl (fun e _ => ?_)
  rw [ha e, hb e, v1_lit8, ← EReal.coe_mul, ← EReal.coe_mul]

/-- The block's largest score, of real scores. -/
theorem v1_bmax_coe (x0 x1 : Vec Ideal S1024x128 .f32) (r : Fin 1024) (s : Fin 1024 → ℝ)
    (hs : ∀ c : Fin 1024, v1_sc x0 x1 r c = ((s c : ℝ) : EReal)) :
    v1_bmax x0 x1 r = ((Finset.univ.sup' Finset.univ_nonempty s : ℝ) : EReal) := by
  unfold v1_bmax
  rw [show (fun c : Fin 1024 => v1_sc x0 x1 r c) = fun c => ((s c : ℝ) : EReal) from funext hs]
  exact v1_coe_sup s

/-- The new maximum from the bottom element is the block's maximum. -/
theorem v1_newM_bot (x0 x1 : Vec Ideal S1024x128 .f32) (r : Fin 1024) (s : Fin 1024 → ℝ)
    (hs : ∀ c : Fin 1024, v1_sc x0 x1 r c = ((s c : ℝ) : EReal)) :
    v1_newM x0 x1 ⊥ r = ((Finset.univ.sup' Finset.univ_nonempty s : ℝ) : EReal) := by
  unfold v1_newM
  rw [v1_bmax_coe x0 x1 r s hs]
  exact max_eq_right bot_le

/-- The new maximum from a real maximum. -/
theorem v1_newM_coe (x0 x1 : Vec Ideal S1024x128 .f32) (r : Fin 1024) (mp : EReal) (m : ℝ) (s : Fin 1024 → ℝ)
    (hm : mp = ((m : ℝ) : EReal)) (hs : ∀ c : Fin 1024, v1_sc x0 x1 r c = ((s c : ℝ) : EReal)) :
    v1_newM x0 x1 mp r = ((max m (Finset.univ.sup' Finset.univ_nonempty s) : ℝ) : EReal) := by
  unfold v1_newM
  rw [v1_bmax_coe x0 x1 r s hs, hm, v1_coe_max]

/-- The new accumulator from the bottom element and zero: the block's weighted sum. -/
theorem v1_newA_bot (x0 x1 x2 : Vec Ideal S1024x128 .f32) (r : Fin 1024) (j : Fin 128) (s u : Fin 1024 → ℝ)
    (hs : ∀ c : Fin 1024, v1_sc x0 x1 r c = ((s c : ℝ) : EReal))
    (hu : ∀ c : Fin 1024, x2 (ix2 c j) = ((u c : ℝ) : EReal)) :
    v1_newA x0 x1 x2 ⊥ 0 r j
      = ((∑ c : Fin 1024, Real.exp (s c - Finset.univ.sup' Finset.univ_nonempty s) * u c : ℝ) : EReal) := by
  unfold v1_newA
  rw [v1_newM_bot x0 x1 r s hs, EReal.bot_sub, Ideal.exp_bot, zero_mul, zero_add, v1_coe_sum]
  refine Finset.sum_congr rfl (fun c _ => ?_)
  rw [hs c, hu c, ← EReal.coe_sub, Ideal.exp_coe, ← EReal.coe_mul]

/-- The new accumulator from a real maximum and a real accumulator. -/
theorem v1_newA_coe (x0 x1 x2 : Vec Ideal S1024x128 .f32) (r : Fin 1024) (j : Fin 128) (mp ap : EReal) (m a : ℝ)
    (s u : Fin 1024 → ℝ) (hm : mp = ((m : ℝ) : EReal)) (hap : ap = ((a : ℝ) : EReal))
    (hs : ∀ c : Fin 1024, v1_sc x0 x1 r c = ((s c : ℝ) : EReal))
    (hu : ∀ c : Fin 1024, x2 (ix2 c j) = ((u c : ℝ) : EReal)) :
    v1_newA x0 x1 x2 mp ap r j
      = ((Real.exp (m - max m (Finset.univ.sup' Finset.univ_nonempty s)) * a
          + ∑ c : Fin 1024, Real.exp (s c - max m (Finset.univ.sup' Finset.univ_nonempty s)) * u c : ℝ) : EReal) := by
  unfold v1_newA
  rw [v1_newM_coe x0 x1 r mp m s hm hs, hm, hap, EReal.coe_add, EReal.coe_mul, ← Ideal.exp_coe, EReal.coe_sub, v1_coe_sum]
  congr 1
  refine Finset.sum_congr rfl (fun c _ => ?_)
  rw [hs c, hu c, ← EReal.coe_sub, Ideal.exp_coe, ← EReal.coe_mul]

/-! ## The two arrays the kernel reads, block by block over the reals -/

/-- query row n's scores, block by block, over the reals -/
def v1_s (QK : FVec Ideal S8192x128 .f32) (n : Fin 8192) : ℕ → Fin 1024 → ℝ :=
  fun b c => if hb : b < 8 then ∑ e : Fin 64, ((QK (ix2 n ⟨e.val, by have := e.isLt; omega⟩)).toReal * (1 / 8)) * (QK (ix2 (keyRow b hb c) ⟨64 + e.val, by have := e.isLt; omega⟩)).toReal else 0
/-- column j of the value array, block by block, over the reals -/
def v1_u (VP : FVec Ideal S8192x128 .f32) (j : Fin 128) : ℕ → Fin 1024 → ℝ :=
  fun b c => if hb : b < 8 then (VP (ix2 (keyRow b hb c) j)).toReal else 0

theorem v1_s_of_lt (QK : FVec Ideal S8192x128 .f32) (n : Fin 8192) (b : ℕ) (hb : b < 8) (c : Fin 1024) :
    v1_s QK n b c = ∑ e : Fin 64, ((QK (ix2 n ⟨e.val, by have := e.isLt; omega⟩)).toReal * (1 / 8)) * (QK (ix2 (keyRow b hb c) ⟨64 + e.val, by have := e.isLt; omega⟩)).toReal := by
  unfold v1_s
  exact dif_pos hb

theorem v1_u_of_lt (VP : FVec Ideal S8192x128 .f32) (j : Fin 128) (b : ℕ) (hb : b < 8) (c : Fin 1024) :
    v1_u VP j b c = (VP (ix2 (keyRow b hb c) j)).toReal := by
  unfold v1_u
  exact dif_pos hb

/-! ## The recurrence, one step at a time -/

theorem v1_runMax_zero (s : ℕ → Fin 1024 → ℝ) : runMax s 0 = Finset.univ.sup' Finset.univ_nonempty (s 0) := rfl
theorem v1_runMax_succ (s : ℕ → Fin 1024 → ℝ) (k : ℕ) :
    runMax s (k + 1) = max (runMax s k) (Finset.univ.sup' Finset.univ_nonempty (s (k + 1))) := rfl
theorem v1_runAcc_zero (s u : ℕ → Fin 1024 → ℝ) :
    runAcc s u 0 = ∑ c : Fin 1024, Real.exp (s 0 c - Finset.univ.sup' Finset.univ_nonempty (s 0)) * u 0 c := rfl
theorem v1_runAcc_succ (s u : ℕ → Fin 1024 → ℝ) (k : ℕ) :
    runAcc s u (k + 1) = Real.exp (runMax s k - max (runMax s k) (Finset.univ.sup' Finset.univ_nonempty (s (k + 1)))) * runAcc s u k
      + ∑ c : Fin 1024, Real.exp (s (k + 1) c - max (runMax s k) (Finset.univ.sup' Finset.univ_nonempty (s (k + 1)))) * u (k + 1) c := rfl

/-- The running weighted sum after block k reads the value column at the blocks 0 … k only. -/
theorem v1_runAcc_congr (s u u' : ℕ → Fin 1024 → ℝ) (k : ℕ) (h : ∀ b, b ≤ k → ∀ c, u b c = u' b c) :
    runAcc s u k = runAcc s u' k := by
  rw [runAcc_eq, runAcc_eq]
  refine Finset.sum_congr rfl (fun b hb => Finset.sum_congr rfl (fun c _ => ?_))
  rw [h b (by have := Finset.mem_range.mp hb; omega) c]

/-! ## The input blocks at a point are rows of the two arrays -/

section Region1

variable (V : (c : Dev nD) → (b : Ref sig .tc) → Buf (Elt Ideal) ((c : Thread nD τ).loc b))

/-- The printed index maps, decided over the grid: the query and output windows move with t / 8, the key and value
    windows with t mod 8, and none moves along the columns. -/
theorem v1_idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- The query block at point t is rows (t / 8) · 1024 … of the first array. -/
theorem v1_iblk0_apply (c : Dev nD) (t : Fin cfg1.N) (y : S1024x128.Idx) (k : S8192x128.Idx)
    (hk0 : (k 0).val = t.val / 8 * 1024 + (y 0).val) (hk1 : (k 1).val = (y 1).val) :
    (iblk1 V c 0 t : Vec Ideal S1024x128 .f32) y = (V c main_v1_0 : S8192x128.Idx → Elt Ideal .f32) k := by
  obtain ⟨e0, e1, -⟩ := v1_idx_facts t
  unfold iblk1
  rw [View.read_apply]
  show V c main_v1_0 (((cfg1.win 0).blk t).view.emb y) = V c main_v1_0 k
  have h : ((cfg1.win 0).blk t).view.emb y = k := by
    funext a; apply Fin.ext
    match a with
    | ⟨0, _⟩ => show win1_0.index t (0 : Fin 2) * 1024 + 1 * (y 0).val = (k 0).val; rw [e0, hk0]; omega
    | ⟨1, _⟩ => show win1_0.index t (1 : Fin 2) * 128 + 1 * (y 1).val = (k 1).val; rw [e1, hk1]; omega
  rw [h]

/-- The key block at point t is rows (t mod 8) · 1024 … of the same array. -/
theorem v1_iblk1_apply (c : Dev nD) (t : Fin cfg1.N) (y : S1024x128.Idx) (k : S8192x128.Idx)
    (hk0 : (k 0).val = t.val % 8 * 1024 + (y 0).val) (hk1 : (k 1).val = (y 1).val) :
    (iblk1 V c 1 t : Vec Ideal S1024x128 .f32) y = (V c main_v1_0 : S8192x128.Idx → Elt Ideal .f32) k := by
  obtain ⟨-, -, e0, e1, -⟩ := v1_idx_facts t
  unfold iblk1
  rw [View.read_apply]
  show V c main_v1_0 (((cfg1.win 1).blk t).view.emb y) = V c main_v1_0 k
  have h : ((cfg1.win 1).blk t).view.emb y = k := by
    funext a; apply Fin.ext
    match a with
    | ⟨0, _⟩ => show win1_1.index t (0 : Fin 2) * 1024 + 1 * (y 0).val = (k 0).val; rw [e0, hk0]; omega
    | ⟨1, _⟩ => show win1_1.index t (1 : Fin 2) * 128 + 1 * (y 1).val = (k 1).val; rw [e1, hk1]; omega
  rw [h]

/-- The value block at point t is rows (t mod 8) · 1024 … of the second array. -/
theorem v1_iblk2_apply (c : Dev nD) (t : Fin cfg1.N) (y : S1024x128.Idx) (k : S8192x128.Idx)
    (hk0 : (k 0).val = t.val % 8 * 1024 + (y 0).val) (hk1 : (k 1).val = (y 1).val) :
    (iblk1 V c 2 t : Vec Ideal S1024x128 .f32) y = (V c main_v1_1 : S8192x128.Idx → Elt Ideal .f32) k := by
  obtain ⟨-, -, -, -, e0, e1, -⟩ := v1_idx_facts t
  unfold iblk1
  rw [View.read_apply]
  show V c main_v1_1 (((cfg1.win 2).blk t).view.emb y) = V c main_v1_1 k
  have h : ((cfg1.win 2).blk t).view.emb y = k := by
    funext a; apply Fin.ext
    match a with
    | ⟨0, _⟩ => show win1_2.index t (0 : Fin 2) * 1024 + 1 * (y 0).val = (k 0).val; rw [e0, hk0]; omega
    | ⟨1, _⟩ => show win1_2.index t (1 : Fin 2) * 128 + 1 * (y 1).val = (k 1).val; rw [e1, hk1]; omega
  rw [h]

/-! ## The blocks at a point, over the reals -/

/-- The scores of row r of the query block at the point (qi, ki) against the key block: those of query row
    qi · 1024 + r against key block ki. -/
theorem v1_sc_at (c : Dev nD) (hQK : Cert.Attn.Fin2 (a := 8192) (b := 128) (V c main_v1_0)) (t : Fin cfg1.N)
    (qi ki : ℕ) (hq : qi < 8) (hk : ki < 8) (htq : t.val / 8 = qi) (htk : t.val % 8 = ki) (r cc : Fin 1024) :
    v1_sc (iblk1 V c 0 t) (iblk1 V c 1 t) r cc
      = ((v1_s (V c main_v1_0) ⟨qi * 1024 + r.val, by have := r.isLt; omega⟩ ki cc : ℝ) : EReal) := by
  rw [v1_s_of_lt _ _ ki hk cc]
  refine v1_sc_coe (iblk1 V c 0 t) (iblk1 V c 1 t) r cc
    (fun e => ((V c main_v1_0 : FVec Ideal S8192x128 .f32) (ix2 (⟨qi * 1024 + r.val, by have := r.isLt; omega⟩ : Fin 8192) (⟨e.val, by have := e.isLt; omega⟩ : Fin 128))).toReal)
    (fun e => ((V c main_v1_0 : FVec Ideal S8192x128 .f32) (ix2 (keyRow ki hk cc) (⟨64 + e.val, by have := e.isLt; omega⟩ : Fin 128))).toReal)
    (fun e => ?_) (fun e => ?_)
  · exact (v1_iblk0_apply V c t (ix2 r ⟨e.val, by have := e.isLt; omega⟩)
      (ix2 (⟨qi * 1024 + r.val, by have := r.isLt; omega⟩ : Fin 8192) (⟨e.val, by have := e.isLt; omega⟩ : Fin 128))
      (by show qi * 1024 + r.val = t.val / 8 * 1024 + r.val; rw [htq]) rfl).trans (hQK.eq_coe _ _)
  · exact (v1_iblk1_apply V c t (ix2 cc ⟨64 + e.val, by have := e.isLt; omega⟩)
      (ix2 (keyRow ki hk cc) (⟨64 + e.val, by have := e.isLt; omega⟩ : Fin 128))
      (by show ki * 1024 + cc.val = t.val % 8 * 1024 + cc.val; rw [htk]) rfl).trans (hQK.eq_coe _ _)

/-- Column j of the value block at the point (qi, ki): that of the value array at key block ki. -/
theorem v1_u_at (c : Dev nD) (hVP : Cert.Attn.Fin2 (a := 8192) (b := 128) (V c main_v1_1)) (t : Fin cfg1.N)
    (ki : ℕ) (hk : ki < 8) (htk : t.val % 8 = ki) (cc : Fin 1024) (j : Fin 128) :
    (iblk1 V c 2 t : Vec Ideal S1024x128 .f32) (ix2 cc j) = ((v1_u (V c main_v1_1) j ki cc : ℝ) : EReal) := by
  rw [v1_u_of_lt _ _ ki hk cc]
  exact (v1_iblk2_apply V c t (ix2 cc j) (ix2 (keyRow ki hk cc) j)
    (by show ki * 1024 + cc.val = t.val % 8 * 1024 + cc.val; rw [htk]) rfl).trans (hVP.eq_coe _ _)

/-! ## The carried buffers after each point -/

theorem v1_outs_congr (c : Dev nD) (a b : ℕ) (h : a = b) (ha : a < cfg1.N) (hb : b < cfg1.N) :
    outsAt1 V c a ha = outsAt1 V c b hb := by
  subst h; rfl

/-- After the point (qi, ki) the maximum buffer holds, at row r, the running maximum of query row qi · 1024 + r after
    key block ki, and the accumulator holds in column j the running weighted sum of column j of the value array. -/
theorem v1_inv (c : Dev nD) (hQK : Cert.Attn.Fin2 (a := 8192) (b := 128) (V c main_v1_0))
    (hVP : Cert.Attn.Fin2 (a := 8192) (b := 128) (V c main_v1_1)) (qi : ℕ) (hq : qi < 8) (r : Fin 1024) :
    ∀ (ki : ℕ) (hk : ki < 8) (t : Fin cfg1.N) (ht : t.val = qi * 8 + ki),
      (outsAt1 V c t.val t.isLt).2.1 (ix2 r (0 : Fin 1))
          = ((runMax (v1_s (V c main_v1_0) ⟨qi * 1024 + r.val, by have := r.isLt; omega⟩) ki : ℝ) : EReal)
      ∧ ∀ j : Fin 128, (outsAt1 V c t.val t.isLt).2.2 (ix2 r j)
          = ((runAcc (v1_s (V c main_v1_0) ⟨qi * 1024 + r.val, by have := r.isLt; omega⟩) (v1_u (V c main_v1_1) j) ki : ℝ) : EReal) := by
  intro ki
  induction ki with
  | zero =>
    intro hk t ht
    have h0 : t.val % 8 = 0 := by omega
    have h1 : ¬t.val % 8 = 7 := by omega
    have hs := fun cc => v1_sc_at V c hQK t qi 0 hq hk (by omega) (by omega) r cc
    have hu := fun j cc => v1_u_at V c hVP t 0 hk (by omega) cc j
    rw [outsAt1_A V c t h0 h1]
    constructor
    · refine (v1_caseA_m c t _ _ (iblk1 V c 0 t) (iblk1 V c 1 t) (iblk1 V c 2 t) r).trans ?_
      rw [v1_runMax_zero]
      exact v1_newM_bot _ _ r _ hs
    · intro j
      refine (v1_caseA_a c t _ _ (iblk1 V c 0 t) (iblk1 V c 1 t) (iblk1 V c 2 t) r j).trans ?_
      rw [v1_runAcc_zero]
      exact v1_newA_bot _ _ _ r j _ _ hs (hu j)
  | succ ki ih =>
    intro hk t ht
    have hN : cfg1.N = 64 := N_1
    have h0 : ¬t.val % 8 = 0 := by omega
    have hlt : qi * 8 + ki < cfg1.N := by omega
    obtain ⟨ihm, iha⟩ := ih (by omega) ⟨qi * 8 + ki, hlt⟩ rfl
    have eprev : ∀ hp, outsAt1 V c (t.val - 1) hp = outsAt1 V c (qi * 8 + ki) hlt :=
      fun hp => v1_outs_congr V c _ _ (by omega) hp hlt
    have hs := fun cc => v1_sc_at V c hQK t qi (ki + 1) hq hk (by omega) (by omega) r cc
    have hu := fun j cc => v1_u_at V c hVP t (ki + 1) hk (by omega) cc j
    by_cases h1 : t.val % 8 = 7
    · rw [outsAt1_C V c t h0 h1]
      constructor
      · refine (v1_caseC_m c t _ _ (iblk1 V c 0 t) (iblk1 V c 1 t) (iblk1 V c 2 t) _ _ r).trans ?_
        rw [v1_runMax_succ]
        exact v1_newM_coe _ _ r _ _ _ (by rw [eprev]; exact ihm) hs
      · intro j
        refine (v1_caseC_a c t _ _ (iblk1 V c 0 t) (iblk1 V c 1 t) (iblk1 V c 2 t) _ _ r j).trans ?_
        rw [v1_runAcc_succ]
        exact v1_newA_coe _ _ _ r j _ _ _ _ _ _ (by rw [eprev]; exact ihm) (by rw [eprev]; exact iha j) hs (hu j)
    · rw [outsAt1_B V c t h0 h1]
      constructor
      · refine (v1_caseB_m c t _ _ (iblk1 V c 0 t) (iblk1 V c 1 t) (iblk1 V c 2 t) _ _ r).trans ?_
        rw [v1_runMax_succ]
        exact v1_newM_coe _ _ r _ _ _ (by rw [eprev]; exact ihm) hs
      · intro j
        refine (v1_caseB_a c t _ _ (iblk1 V c 0 t) (iblk1 V c 1 t) (iblk1 V c 2 t) _ _ r j).trans ?_
        rw [v1_runAcc_succ]
        exact v1_newA_coe _ _ _ r j _ _ _ _ _ _ (by rw [eprev]; exact ihm) (by rw [eprev]; exact iha j) hs (hu j)

/-! ## The output block at a row's last key block -/

/-- Column 64 of the value array is constantly one, so its running weighted sum is the running sum of the weights. -/
theorem v1_den_pos (VP : FVec Ideal S8192x128 .f32) (h64 : ∀ n' : Fin 8192, VP (ix2 n' ⟨64, by omega⟩) = 1)
    (s : ℕ → Fin 1024 → ℝ) : 0 < runAcc s (v1_u VP ⟨64, by omega⟩) 7 := by
  rw [v1_runAcc_congr s (v1_u VP ⟨64, by omega⟩) ones 7 (fun b hb cc => by
    rw [v1_u_of_lt VP _ b (by omega) cc, h64]
    exact EReal.toReal_one)]
  exact runAcc_ones_pos s 7

/-- The quotient of two coerced reals by a nonzero denominator is the coerced quotient. -/
theorem v1_div_coe (a b : ℝ) (hb : b ≠ 0) : Ideal.div ((a : ℝ) : EReal) ((b : ℝ) : EReal) = ((a / b : ℝ) : EReal) := by
  rw [Ideal.div_coe hb, ← EReal.coe_mul, mul_one_div]

/-- At the point (qi, 7) the output block holds, at row r and column j, the quotient of the two running sums. -/
theorem v1_out_at (c : Dev nD) (hQK : Cert.Attn.Fin2 (a := 8192) (b := 128) (V c main_v1_0))
    (hVP : Cert.Attn.Fin2 (a := 8192) (b := 128) (V c main_v1_1))
    (h64 : ∀ n' : Fin 8192, (V c main_v1_1 : FVec Ideal S8192x128 .f32) (ix2 n' ⟨64, by omega⟩) = (1 : EReal))
    (t : Fin cfg1.N) (qi : ℕ) (hq : qi < 8) (ht : t.val = qi * 8 + 7) (r : Fin 1024) (j : Fin 64) :
    (outsAt1 V c t.val t.isLt).1 (ix2 r j)
      = ((runAcc (v1_s (V c main_v1_0) ⟨qi * 1024 + r.val, by have := r.isLt; omega⟩) (v1_u (V c main_v1_1) ⟨j.val, by have := j.isLt; omega⟩) 7
          / runAcc (v1_s (V c main_v1_0) ⟨qi * 1024 + r.val, by have := r.isLt; omega⟩) (v1_u (V c main_v1_1) ⟨64, by omega⟩) 7 : ℝ) : EReal) := by
  have h0 : ¬t.val % 8 = 0 := by omega
  have h1 : t.val % 8 = 7 := by omega
  obtain ⟨-, iha⟩ := v1_inv V c hQK hVP qi hq r 7 (by omega) t ht
  have eo : (outsAt1 V c t.val t.isLt).1 (ix2 r j)
      = Ideal.div ((outsAt1 V c t.val t.isLt).2.2 (ix2 r ⟨j.val, by have := j.isLt; omega⟩))
          ((outsAt1 V c t.val t.isLt).2.2 (ix2 r ⟨64, by omega⟩)) := by
    rw [outsAt1_C V c t h0 h1]
    refine (v1_caseC_o c t _ _ (iblk1 V c 0 t) (iblk1 V c 1 t) (iblk1 V c 2 t) _ _ r j).trans ?_
    rw [v1_caseC_a c t _ _ (iblk1 V c 0 t) (iblk1 V c 1 t) (iblk1 V c 2 t) _ _ r ⟨j.val, by have := j.isLt; omega⟩,
      v1_caseC_a c t _ _ (iblk1 V c 0 t) (iblk1 V c 1 t) (iblk1 V c 2 t) _ _ r ⟨64, by omega⟩]
  rw [eo, iha, iha]
  exact v1_div_coe _ _ (ne_of_gt (v1_den_pos _ h64 _))

/-! ## From the blocks to the array -/

/-- The result array: at row n and column j the quotient of the two running sums after the eighth key block. -/
def v1_G (QK VP : FVec Ideal S8192x128 .f32) : FVec Ideal S8192x64 .f32 :=
  fun i => ((runAcc (v1_s QK ⟨(i 0).val, idx2_lt0 i⟩) (v1_u VP ⟨(i 1).val, by have := idx2_lt1 i; omega⟩) 7
      / runAcc (v1_s QK ⟨(i 0).val, idx2_lt0 i⟩) (v1_u VP ⟨64, by omega⟩) 7 : ℝ) : EReal)

/-- What the point (qi, 7) leaves in the output window is its block of that array, coordinate by coordinate. -/
theorem v1_block3 (c : Dev nD) (hQK : Cert.Attn.Fin2 (a := 8192) (b := 128) (V c main_v1_0))
    (hVP : Cert.Attn.Fin2 (a := 8192) (b := 128) (V c main_v1_1))
    (h64 : ∀ n' : Fin 8192, (V c main_v1_1 : FVec Ideal S8192x128 .f32) (ix2 n' ⟨64, by omega⟩) = (1 : EReal))
    (t : Fin cfg1.N) (h7 : t.val % 8 = 7) (y : S1024x64.Idx) (k : S8192x64.Idx)
    (hk0 : (k 0).val = t.val / 8 * 1024 + (y 0).val) (hk1 : (k 1).val = (y 1).val) :
    (outsAt1 V c t.val t.isLt).1 y = v1_G (V c main_v1_0) (V c main_v1_1) k := by
  have hN : cfg1.N = 64 := N_1
  have htl := t.isLt
  obtain ⟨r, j, rfl⟩ : ∃ (r : Fin 1024) (j : Fin 64), y = ix2 r j := ⟨y 0, y 1, eq_ix2 y⟩
  have hk0' : (k 0).val = t.val / 8 * 1024 + r.val := hk0
  have hk1' : (k 1).val = j.val := hk1
  rw [v1_out_at V c hQK hVP h64 t (t.val / 8) (by omega) (by omega) r j]
  unfold v1_G
  have en : (⟨(k 0).val, idx2_lt0 k⟩ : Fin 8192) = ⟨t.val / 8 * 1024 + r.val, by have := r.isLt; omega⟩ := Fin.ext hk0'
  have ej : (⟨(k 1).val, by have := idx2_lt1 k; omega⟩ : Fin 128) = ⟨j.val, by have := j.isLt; omega⟩ := Fin.ext hk1'
  rw [en, ej]

/-- What a point with ki = 7 writes back is its block of the result array. -/
theorem v1_flushed3_eq (c : Dev nD) (hQK : Cert.Attn.Fin2 (a := 8192) (b := 128) (V c main_v1_0))
    (hVP : Cert.Attn.Fin2 (a := 8192) (b := 128) (V c main_v1_1))
    (h64 : ∀ n' : Fin 8192, (V c main_v1_1 : FVec Ideal S8192x128 .f32) (ix2 n' ⟨64, by omega⟩) = (1 : EReal))
    (t : Fin cfg1.N) (hf : (cfg1.win 3).flush t = true) :
    (dat1 (F := Ideal) V c).flushed 3 t
      = ((cfg1.win 3).blk t).view.read (Elt Ideal) (v1_G (V c main_v1_0) (V c main_v1_1)) := by
  have h7 : t.val % 8 = 7 := (flush1_3 t).mp hf
  show (cfg1.win 3).cut (grid1.coords t) ((dat1 (F := Ideal) V c).after 3 t) = _
  rw [after1_3]
  obtain ⟨-, -, -, -, -, -, e0, e1⟩ := v1_idx_facts t
  funext y
  show (outsAt1 V c t.val t.isLt).1 ((cfg1.win 3).xinj (grid1.coords t) y)
    = v1_G (V c main_v1_0) (V c main_v1_1) (((cfg1.win 3).blk t).view.emb y)
  refine v1_block3 V c hQK hVP h64 t h7 ((cfg1.win 3).xinj (grid1.coords t) y) (((cfg1.win 3).blk t).view.emb y) ?_ ?_
  · show win1_3.index t (0 : Fin 2) * 1024 + 1 * (y 0).val = t.val / 8 * 1024 + (y 0).val
    rw [e0]; omega
  · show win1_3.index t (1 : Fin 2) * 64 + 1 * (y 1).val = (y 1).val
    rw [e1]; omega

/-- An index of the result array is in point t's block iff each coordinate is in the block's range on its axis. -/
theorem v1_mem_blk3 (t : Fin cfg1.N) (i : S8192x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v2).slice (win1_3.rect t)).set ↔ _
  rw [View.set_slice_whole, Rect.mem_set_unit]
  exact Iff.rfl

/-- Row n of the result array lies in the block written back at the point (n / 1024) · 8 + 7. -/
theorem v1_cover3 (i : S8192x64.Idx) :
    ∃ t : Fin cfg1.N, (cfg1.win 3).flush t = true ∧ i ∈ ((cfg1.win 3).blk t).view.set := by
  have hi0 : (i 0).val < 8192 := idx2_lt0 i
  have hi1 : (i 1).val < 64 := idx2_lt1 i
  have hN : grid1.N = 64 := N_1
  have hlt : (i 0).val / 1024 * 8 + 7 < cfg1.N := by show (i 0).val / 1024 * 8 + 7 < grid1.N; rw [hN]; omega
  obtain ⟨t, ht⟩ : ∃ t : Fin cfg1.N, t.val = (i 0).val / 1024 * 8 + 7 := ⟨⟨(i 0).val / 1024 * 8 + 7, hlt⟩, rfl⟩
  obtain ⟨-, -, -, -, -, -, e0, e1⟩ := v1_idx_facts t
  refine ⟨t, (flush1_3 t).mpr (by omega), ?_⟩
  rw [v1_mem_blk3]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 64 ≤ (i 1).val ∧ (i 1).val < win1_3.index t (1 : Fin 2) * 64 + 64
    rw [e1]; omega

/-- The result array after the region. -/
theorem v1_final_arr (c : Dev nD) (hQK : Cert.Attn.Fin2 (a := 8192) (b := 128) (V c main_v1_0))
    (hVP : Cert.Attn.Fin2 (a := 8192) (b := 128) (V c main_v1_1))
    (h64 : ∀ n' : Fin 8192, (V c main_v1_1 : FVec Ideal S8192x128 .f32) (ix2 n' ⟨64, by omega⟩) = (1 : EReal)) :
    (dat1 (F := Ideal) V c).arrAt 3 cfg1.N = v1_G (V c main_v1_0) (V c main_v1_1) :=
  (dat1 (F := Ideal) V c).arrAt_eq_of_cover 3 (v1_G (V c main_v1_0) (V c main_v1_1))
    (fun t hf => v1_flushed3_eq V c hQK hVP h64 t hf) v1_cover3

/-- The result array after the region, entry by entry: row n, column j holds the quotient of the running weighted sum
    of column j of the value array by the running sum of the weights, after the eighth key block. -/
theorem v1_final (c : Dev nD) (hQK : Cert.Attn.Fin2 (a := 8192) (b := 128) (V c main_v1_0)) (hVP : Cert.Attn.Fin2 (a := 8192) (b := 128) (V c main_v1_1))
    (h64 : ∀ n' : Fin 8192, (V c main_v1_1 : FVec Ideal S8192x128 .f32) (ix2 n' ⟨64, by omega⟩) = (1 : EReal)) (n : Fin 8192) (j : Fin 64) :
    ((dat1 (F := Ideal) V c).arrAt 3 cfg1.N : FVec Ideal S8192x64 .f32) (ix2 n j)
      = ((runAcc (v1_s (V c main_v1_0) n) (v1_u (V c main_v1_1) ⟨j.val, by have := j.isLt; omega⟩) 7
          / runAcc (v1_s (V c main_v1_0) n) (v1_u (V c main_v1_1) ⟨64, by omega⟩) 7 : ℝ) : EReal) := by
  rw [v1_final_arr V c hQK hVP h64]
  rfl

end Region1

end Cert.KernelIdeal.Hand

end
-- ==== Proof.KIFinal.lean ====
/-
  The kernel's result is the specification: the attention kernel's result array, entered with the projections
  `QK = [q | k]` and `VP = [v | 1 | 0]`, is at row `n`, column `j` the blockwise softmax recurrence's quotient, whose
  scores are the specification's (`(q·0.125)·k` summed is `(q·k)` summed times `1/8`) and whose value columns are the
  specification's — so, by the recurrence's closed form, it is `attn` of the argument arrays.
-/
import proofs.«106157_j5660766896751_2_alg».proof.Proof.KIEntry
import proofs.«106157_j5660766896751_2_alg».proof.Proof.KIValue1
import proofs.«106157_j5660766896751_2_alg».proof.Proof.OnlineSoftmax

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Attn.Online

variable (m : (ℓ : Loc nD τ sig) → Buf (Elt Ideal) ℓ) (c : Dev nD)
  (hx : Fin2 (a := 8192) (b := 1024) (aX m c))
  (hq : Fin2 (a := 1024) (b := 64) (aWq m c))
  (hk : Fin2 (a := 1024) (b := 64) (aWk m c))
  (hv : Fin2 (a := 1024) (b := 64) (aWv m c))

include hx hq hk in
/-- The kernel's scores are the specification's. -/
theorem fin_scores (n : Fin 8192) : v1_s (aQK m c) n = rowS (xR m c) (wqR m c) (wkR m c) n := by
  funext b cc
  unfold v1_s rowS
  by_cases hb : b < 8
  · rw [dif_pos hb, dif_pos hb]
    unfold score
    rw [Finset.sum_mul]
    refine Finset.sum_congr rfl fun e _ => ?_
    rw [QK_lo m c hx hq n e, QK_hi m c hx hk (keyRow b hb cc) e, EReal.toReal_coe, EReal.toReal_coe]
    ring
  · rw [dif_neg hb, dif_neg hb]

include hx hv in
/-- The kernel's value columns are the specification's. -/
theorem fin_cols (j : Fin 64) : v1_u (aVP m c) (⟨j.val, by have := j.isLt; omega⟩ : Fin 128) = colU (xR m c) (wvR m c) j := by
  funext b cc
  unfold v1_u colU
  by_cases hb : b < 8
  · rw [dif_pos hb, dif_pos hb, VP_lo m c hx hv (keyRow b hb cc) j, EReal.toReal_coe]
  · rw [dif_neg hb, dif_neg hb]

/-- The denominator's column is the column of ones on the eight blocks the recurrence reads. -/
theorem fin_den (s : ℕ → Fin 1024 → ℝ) : runAcc s (v1_u (aVP m c) (⟨64, by omega⟩ : Fin 128)) 7 = runAcc s ones 7 := by
  rw [runAcc_eq, runAcc_eq]
  refine Finset.sum_congr rfl fun b hb => Finset.sum_congr rfl fun cc _ => ?_
  have hb8 : b < 8 := by have := Finset.mem_range.mp hb; omega
  unfold v1_u ones
  rw [dif_pos hb8, VP_64 m c (keyRow b hb8 cc)]
  simp

include hx hq hk hv in
/-- THE KERNEL'S VALUE: the result array is the specification of the argument arrays. -/
theorem res_eq_G : (res m c : S8192x64.Idx → EReal) = G (aX m c) (aWq m c) (aWk m c) (aWv m c) := by
  funext i
  obtain ⟨n, j, rfl⟩ : ∃ (n : Fin 8192) (j : Fin 64), i = ix2 n j := ⟨i 0, i 1, eq_ix2 i⟩
  refine (v1_final (V2 m) c (QK_fin m c hx hq hk) (VP_fin m c hx hv) (fun n' => VP_64 m c n') n j).trans ?_
  show _ = ((attn (xR m c) (wqR m c) (wkR m c) (wvR m c) n j : ℝ) : EReal)
  rw [← flash_row (xR m c) (wqR m c) (wkR m c) (wvR m c) n j]
  rw [show (V2 m c main_v1_0 : S8192x128.Idx → EReal) = aQK m c from rfl, show (V2 m c main_v1_1 : S8192x128.Idx → EReal) = aVP m c from rfl,
    fin_scores m c hx hq hk n, fin_cols m c hx hv j, fin_den m c]

end Cert.KernelIdeal.Hand

end
-- ==== Proof.RefValue.lean ====
/-
  The reference program computes the specification.

  Read at the extended reals, with every entry of the four argument arrays a real number, each stage of the
  reference is the coercion of a real quantity of Spec.lean:

    q, k, v            entry (n, e) is  proj w n e            (a finite sum of products of reals)
    scale              1 / sqrt 64 = 1 / 8                    (sqrt 64 = 8 exactly)
    (q · kᵀ) · scale   entry (n, n') is score n n'
    row maximum        a fold of max from −∞ over a row of reals is the largest of them, rowMax n;
                       the further maximum with a row of −∞ changes nothing
    exp (s − m)        entry (n, n') is wgt n n' = exp (score n n' − rowMax n), a positive real
    row sum            from 0, the sum of the row's weights: positive, so nonzero
    w = e / d          a real divided by a nonzero real is the real quotient
    w · v              entry (n, j) is attn n j

  Nothing here needs more than: the coercion ℝ → EReal commutes with products, finite sums, differences, exp,
  the maximum of a nonempty finite family, and division by a nonzero real.
-/
import proofs.«106157_j5660766896751_2_alg».proof.Proof.Gen.ReferenceIdeal.Read
import proofs.«106157_j5660766896751_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-! ## The coercion and finite families -/

/-- The coercion of a finite sum of reals is the sum of the coercions. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Folding max from −∞ over a nonempty finite family of reals gives the largest of them: the fold is below it
    because every member is, and above it because the largest is one of the members. -/
theorem fold_max_coe {ι : Type*} [Fintype ι] [Nonempty ι] (f : ι → ℝ) :
    (Finset.univ : Finset ι).fold max (⊥ : EReal) (fun k => ((f k : ℝ) : EReal))
      = ((Finset.univ.sup' Finset.univ_nonempty f : ℝ) : EReal) := by
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' Finset.univ_nonempty f
    rw [Finset.le_fold_max]
    exact Or.inr ⟨k, Finset.mem_univ k, by rw [hk]⟩

/-! ## The literals -/

/-- The word 0x3F800000 is 1. -/
theorem lit_one : Ideal.ofBits .f32 0x3F800000#32 = ((1 : ℝ) : EReal) := by
  simp [Ideal.ofBits, Ideal.ieee, -EReal.coe_mul] <;> norm_num

/-- The word 0x42800000 is 64 = 2^23 · 2^(133 − 127 − 23). -/
theorem lit_64 : Ideal.ofBits .f32 0x42800000#32 = ((64 : ℝ) : EReal) := by
  simp [Ideal.ofBits, Ideal.ieee, -EReal.coe_mul] <;> norm_num

/-- The word 0xFF800000 is −∞. -/
theorem lit_bot : Ideal.ofBits .f32 0xFF800000#32 = (⊥ : EReal) := by
  simp [Ideal.ofBits, Ideal.ieee]

theorem sqrt_64 : Real.sqrt 64 = 8 := by
  rw [show (64 : ℝ) = 8 ^ 2 by norm_num]
  exact Real.sqrt_sq (by norm_num)

/-! ## The row reduction's index -/

theorem hRed : S8192x8192.Reduces [1] S8192 := by decide

/-- Row `n` with column `k` put back is (n, k). -/
theorem lift_row (h : S8192x8192.Reduces [1] S8192) (n : Fin 8192) (k : Fin (S8192x8192.size 1)) :
    h.lift (ix1 n) k = ix2 n (⟨k.val, k.isLt⟩ : Fin 8192) := by
  funext c; apply Fin.ext
  fin_cases c <;> rfl

/-! ## The stages -/

variable {x : (⟨S8192x1024, .f32⟩ : BufTy).Contents (Elt Ideal)} {w wq wk wv : (⟨S1024x64, .f32⟩ : BufTy).Contents (Elt Ideal)}

/-- A projection's entry (n, e) is the real sum Σ_d x[n,d] · w[d,e]. -/
theorem proj_entry (hx : Fin2 x) (hw : Fin2 w) (n : Fin 8192) (e : Fin 64) :
    val_main_v0 (F := Ideal) x w (ix2 n e) = ((proj (toR2 x) (toR2 w) n e : ℝ) : EReal) := by
  rw [val_main_v0_apply]
  unfold proj
  rw [coe_finsum]
  refine Finset.sum_congr rfl fun d _ => ?_
  have el : lidx_main_v0 (ix2 n e) d = ix2 n d :=
    funext fun a => Fin.ext (by match a with | ⟨0, _⟩ => rfl | ⟨1, _⟩ => rfl)
  have er : ridx_main_v0 (ix2 n e) d = ix2 d e :=
    funext fun a => Fin.ext (by match a with | ⟨0, _⟩ => rfl | ⟨1, _⟩ => rfl)
  rw [el, er, hx.eq_coe, hw.eq_coe, EReal.coe_mul]

/-- The three projections are the same operation applied to different weights. -/
theorem proj_entry1 (hx : Fin2 x) (hw : Fin2 w) (n : Fin 8192) (e : Fin 64) :
    val_main_v1 (F := Ideal) x w (ix2 n e) = ((proj (toR2 x) (toR2 w) n e : ℝ) : EReal) := proj_entry hx hw n e
theorem proj_entry2 (hx : Fin2 x) (hw : Fin2 w) (n : Fin 8192) (e : Fin 64) :
    val_main_v2 (F := Ideal) x w (ix2 n e) = ((proj (toR2 x) (toR2 w) n e : ℝ) : EReal) := proj_entry hx hw n e

/-- The scale is 1 / sqrt 64 = 1 / 8. -/
theorem scale_entry (i : S_.Idx) : val_main_v4 (F := Ideal) i = ((1 / 8 : ℝ) : EReal) := by
  rw [val_main_v4_apply, val_main_v3_apply, val_main_cst_apply, val_main_cst_0_apply]
  simp only [Ideal.ofBits_def, Ideal.hostUnary_sqrt_def, Ideal.hostDivf_def]
  rw [lit_one, lit_64, Ideal.sqrt_coe, if_neg (by norm_num), sqrt_64, Ideal.div_coe (by norm_num), ← EReal.coe_mul, one_mul]

/-- Entry (n, n') of q · kᵀ is the real inner product of row n of q with row n' of k. -/
theorem qk_entry (hx : Fin2 x) (hq : Fin2 wq) (hk : Fin2 wk) (n n' : Fin 8192) :
    val_main_v6 (F := Ideal) x wq wk (ix2 n n')
      = ((∑ e : Fin 64, proj (toR2 x) (toR2 wq) n e * proj (toR2 x) (toR2 wk) n' e : ℝ) : EReal) := by
  rw [val_main_v6_apply, coe_finsum]
  refine Finset.sum_congr rfl fun e _ => ?_
  have el : lidx_main_v6 (ix2 n n') e = ix2 n e :=
    funext fun a => Fin.ext (by match a with | ⟨0, _⟩ => rfl | ⟨1, _⟩ => rfl)
  have er : ridx_main_v6 (ix2 n n') e = ix2 e n' :=
    funext fun a => Fin.ext (by match a with | ⟨0, _⟩ => rfl | ⟨1, _⟩ => rfl)
  have et : idx_main_v5 (ix2 e n') = ix2 n' e :=
    funext fun a => Fin.ext (by match a with | ⟨0, _⟩ => rfl | ⟨1, _⟩ => rfl)
  rw [el, er, val_main_v5_apply, et, proj_entry hx hq, proj_entry1 hx hk, EReal.coe_mul]

/-- Entry (n, n') of the scaled scores. -/
theorem score_entry (hx : Fin2 x) (hq : Fin2 wq) (hk : Fin2 wk) (n n' : Fin 8192) :
    val_main_v8 (F := Ideal) x wq wk (ix2 n n') = ((score (toR2 x) (toR2 wq) (toR2 wk) n n' : ℝ) : EReal) := by
  rw [val_main_v8_apply, val_main_v7_apply, scale_entry, qk_entry hx hq hk, Ideal.mulf_def]
  unfold score
  rw [EReal.coe_mul]

/-- The row reduction with max from −∞: entry n is the largest score of row n. -/
theorem rowmax_entry (hx : Fin2 x) (hq : Fin2 wq) (hk : Fin2 wk) (n : Fin 8192) :
    val_main_v9 (F := Ideal) x wq wk (ix1 n) = ((rowMax (toR2 x) (toR2 wq) (toR2 wk) n : ℝ) : EReal) := by
  unfold val_main_v9
  rw [Host.reduce_eq_fold_single FloatOps.maximumf _ _ reducesTo_S8192x8192_S8192_d1 hRed h_S_]
  have hf : (val_main_v8 (F := Ideal) x wq wk ∘ hRed.lift (ix1 n))
      = fun k : Fin 8192 => ((score (toR2 x) (toR2 wq) (toR2 wk) n k : ℝ) : EReal) :=
    funext fun k => (congrArg (val_main_v8 (F := Ideal) x wq wk) (lift_row hRed n k)).trans (score_entry hx hq hk n _)
  have hi : val_main_cst_1 (F := Ideal) (Shape.Idx.first h_S_) = (⊥ : EReal) := lit_bot
  unfold rowMax
  refine Eq.trans ?_ (fold_max_coe (fun k : Fin 8192 => score (toR2 x) (toR2 wq) (toR2 wk) n k))
  exact congrArg₂ (fun b f => Finset.fold max b f (Finset.univ : Finset (Fin 8192))) hi hf

/-- The further maximum with −∞ is the identity. -/
theorem max_entry (hx : Fin2 x) (hq : Fin2 wq) (hk : Fin2 wk) (n : Fin 8192) :
    val_main_v11 (F := Ideal) x wq wk (ix1 n) = ((rowMax (toR2 x) (toR2 wq) (toR2 wk) n : ℝ) : EReal) := by
  rw [val_main_v11_apply, val_main_v10_apply, val_main_cst_2_apply, rowmax_entry hx hq hk, Ideal.ofBits_def,
    Ideal.maximumf_def, lit_bot]
  exact max_eq_right bot_le

/-- The row maxima spread over the columns. -/
theorem maxb_entry (hx : Fin2 x) (hq : Fin2 wq) (hk : Fin2 wk) (n n' : Fin 8192) :
    val_main_v13 (F := Ideal) x wq wk (ix2 n n') = ((rowMax (toR2 x) (toR2 wq) (toR2 wk) n : ℝ) : EReal) := by
  have e : idx_main_v12 (idx_main_v13 (ix2 n n')) = ix1 n :=
    funext fun a => Fin.ext (by match a with | ⟨0, _⟩ => rfl)
  rw [val_main_v13_apply, val_main_v12_apply, e, max_entry hx hq hk]

/-- The unnormalised weight exp (s − m), a real. -/
theorem wgt_entry (hx : Fin2 x) (hq : Fin2 wq) (hk : Fin2 wk) (n n' : Fin 8192) :
    val_main_v15 (F := Ideal) x wq wk (ix2 n n') = ((wgt (toR2 x) (toR2 wq) (toR2 wk) n n' : ℝ) : EReal) := by
  rw [val_main_v15_apply, val_main_v14_apply, score_entry hx hq hk, maxb_entry hx hq hk, Ideal.subf_def,
    Ideal.hostUnary_exp_def, ← EReal.coe_sub, Ideal.exp_coe]
  rfl

/-- The row sum of the weights, from 0. -/
theorem den_entry (hx : Fin2 x) (hq : Fin2 wq) (hk : Fin2 wk) (n : Fin 8192) :
    val_main_v16 (F := Ideal) x wq wk (ix1 n)
      = ((∑ k : Fin 8192, wgt (toR2 x) (toR2 wq) (toR2 wk) n k : ℝ) : EReal) := by
  rw [val_main_v16_apply, val_main_cst_3_apply, Ideal.ofBits_def, Ideal.ofBits_zero_f32, zero_add, coe_finsum]
  refine Finset.sum_congr rfl fun k _ => ?_
  have e : idx_main_v16 (ix1 n) k = ix2 n k :=
    funext fun a => Fin.ext (by match a with | ⟨0, _⟩ => rfl | ⟨1, _⟩ => rfl)
  rw [e, wgt_entry hx hq hk]

/-- The row sums spread over the columns. -/
theorem denb_entry (hx : Fin2 x) (hq : Fin2 wq) (hk : Fin2 wk) (n n' : Fin 8192) :
    val_main_v18 (F := Ideal) x wq wk (ix2 n n')
      = ((∑ k : Fin 8192, wgt (toR2 x) (toR2 wq) (toR2 wk) n k : ℝ) : EReal) := by
  have e : idx_main_v17 (idx_main_v18 (ix2 n n')) = ix1 n :=
    funext fun a => Fin.ext (by match a with | ⟨0, _⟩ => rfl)
  rw [val_main_v18_apply, val_main_v17_apply, e, den_entry hx hq hk]

/-- The softmax weight: a real over a positive real, a sum of exponentials. -/
theorem soft_entry (hx : Fin2 x) (hq : Fin2 wq) (hk : Fin2 wk) (n n' : Fin 8192) :
    val_main_v19 (F := Ideal) x wq wk (ix2 n n')
      = ((wgt (toR2 x) (toR2 wq) (toR2 wk) n n' / ∑ k : Fin 8192, wgt (toR2 x) (toR2 wq) (toR2 wk) n k : ℝ) : EReal) := by
  have hpos : (0 : ℝ) < ∑ k : Fin 8192, wgt (toR2 x) (toR2 wq) (toR2 wk) n k :=
    Finset.sum_pos (fun k _ => Real.exp_pos _) Finset.univ_nonempty
  rw [val_main_v19_apply, wgt_entry hx hq hk, denb_entry hx hq hk, Ideal.hostDivf_def, Ideal.div_coe hpos.ne',
    ← EReal.coe_mul, mul_one_div]

/-! ## The result -/

/-- On real arguments the reference's result is the attention of the specification, entry by entry. -/
theorem ref_eq_G (x : (⟨S8192x1024, .f32⟩ : BufTy).Contents (Elt Ideal)) (wq wk wv : (⟨S1024x64, .f32⟩ : BufTy).Contents (Elt Ideal))
    (hx : Cert.Attn.Fin2 x) (hq : Cert.Attn.Fin2 wq) (hk : Cert.Attn.Fin2 wk) (hv : Cert.Attn.Fin2 wv) :
    Cert.ReferenceIdeal.Read.val_main_v20 (F := Ideal) x wq wk wv = Cert.Attn.G x wq wk wv := by
  funext i
  obtain ⟨n, j, rfl⟩ : ∃ (n : Fin 8192) (j : Fin 64), i = ix2 n j := ⟨i 0, i 1, eq_ix2 i⟩
  show _ = ((attn (toR2 x) (toR2 wq) (toR2 wk) (toR2 wv) n j : ℝ) : EReal)
  rw [val_main_v20_apply]
  unfold attn
  rw [coe_finsum]
  refine Finset.sum_congr rfl fun k _ => ?_
  have el : lidx_main_v20 (ix2 n j) k = ix2 n k :=
    funext fun a => Fin.ext (by match a with | ⟨0, _⟩ => rfl | ⟨1, _⟩ => rfl)
  have er : ridx_main_v20 (ix2 n j) k = ix2 k j :=
    funext fun a => Fin.ext (by match a with | ⟨0, _⟩ => rfl | ⟨1, _⟩ => rfl)
  rw [el, er, soft_entry hx hq hk, proj_entry2 hx hv, EReal.coe_mul]

end Cert.ReferenceIdeal.RefValue

end
-- ==== Proof.PreFinite.lean ====
/-
  The precondition decoded. The printed predicate takes the four argument arrays, compares |x| < +∞ elementwise
  (|x| is max x (−x); +∞ is the pattern 0x7F800000 read as an extended real), reduces each comparison by "and" over
  every axis, and conjoins the four results as ((all a0 ∧ all a1) ∧ all a2) ∧ all a3. When that word is 1, each
  of the four reductions is 1, so each comparison is 1 at every index, so |x| < ⊤ at every entry; an extended real
  whose absolute value is below ⊤ is neither ⊤ nor ⊥, hence a real number.
-/
import proofs.«106157_j5660766896751_2_alg».proof.Pre_finite_inputs
import proofs.«106157_j5660766896751_2_alg».proof.Proof.Spec
import Idealize.ShloMosaic.PureOps.Ideal
import Idealize.ShloMosaic.Lib.ReduceAll
import Idealize.ShloMosaic.Lib.ValueIdx

noncomputable section

namespace Cert.PreFinite

open Idealize.ShloMosaic Cert.Pre_finite_inputs

/-- The rank-0 shape has exactly one index. -/
instance : Subsingleton S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- An extended real whose absolute value max x (−x) is below +∞ is a real number: at ⊤ the maximum is ⊤, at ⊥ it
    is −⊥ = ⊤, and neither is below ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact: the comparison |x| < +∞ came out 1, so x is a real number. -/
theorem real_of_cmp (x : EReal)
    (h : Ideal.cmp .olt (max x (-x)) (Ideal.ofBits .f32 0x7F800000#32) = 1#1) : ∃ r : ℝ, x = (r : EReal) := by
  rw [inf_bits] at h
  refine real_of_abs_lt_top x ?_
  by_contra hn
  simp [Ideal.cmp, hn] at h

/-- One array: the reduction by "and" over every axis of the comparison |a| < +∞ is 1, so every entry of a is real. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  exact real_of_cmp (a i) hi

/-- THE PRECONDITION DECODED: the printed predicate is 1, so every entry of each of the four arrays is a real number. -/
theorem fin_of_pre [Cert.Pre_finite_inputs.Facts] (a0 : FVec Ideal Cert.Pre_finite_inputs.S8192x1024 .f32)
    (a1 a2 a3 : FVec Ideal Cert.Pre_finite_inputs.S1024x64 .f32)
    (h : Cert.Pre_finite_inputs.fn (F := Ideal) a0 a1 a2 a3 = fun _ => 1#1) :
    Cert.Attn.Fin2 a0 ∧ Cert.Attn.Fin2 a1 ∧ Cert.Attn.Fin2 a2 ∧ Cert.Attn.Fin2 a3 := by
  have e := congrFun h ValueIdx.ix0
  dsimp only [fn, fn_part1, andi] at e
  rw [IntOp.andi_eq_one, IntOp.andi_eq_one, IntOp.andi_eq_one] at e
  obtain ⟨⟨⟨e0, e1⟩, e2⟩, e3⟩ := e
  exact ⟨real_of_all _ _ _ a0 e0, real_of_all _ _ _ a1 e1, real_of_all _ _ _ a2 e2, real_of_all _ _ _ a3 e3⟩

end Cert.PreFinite

end
-- ==== Proof.lean ====
/-
  The certificate of a two-kernel attention program against its reference, over the extended reals.

  THE PROGRAM. A host concatenation `[w_q | w_k]`; a projection kernel computing `QK = x · [w_q | w_k]` and
  `VP = [x · w_v | 1 | 0 … 0]` block of rows by block of rows; an attention kernel that, for each block of 1024 query rows,
  walks the 8 blocks of 1024 key rows keeping a running row maximum and a running accumulator (the "online softmax"),
  and at the last key block stores the accumulator's columns `0 … 63` divided by its column 64 — the column of ones of
  `VP` makes column 64 the softmax denominator. THE REFERENCE: `softmax((x w_q)(x w_k)ᵀ / √64) (x w_v)`.

  THE FRAMES (both instances of the kernel program): each kernel's body is run symbolically at a generic grid point (the
  attention kernel's in its three control cases: first, middle, last key block), the scratch buffers' contents carried
  from point to point in the region invariant, the regions chained through the buffer contents at @main's boundaries;
  the attention kernel reads one array through two windows, at half shares. The reference's frame is its run.

  THE VALUE at the extended reals: with every argument entry a real number (the precondition), every intermediate is a
  real number except the running maximum's start `−∞`, where `exp (−∞) = 0` and `0 · 0 = 0`; the blockwise recurrence
  `acc' = exp (m − m') · acc + Σ exp (s − m') · v` has the closed form `Σ_blocks Σ exp (s − m) · v`, so the kernel's
  quotient is the reference's softmax-weighted sum; `1/√64 = 1/8 = 0.125` exactly, and scaling the queries scales the
  scores. `preserves` is trivial: the idealization rewrote nothing.
-/
import proofs.«106157_j5660766896751_2_alg».proof.Defs
import proofs.«106157_j5660766896751_2_alg».proof.Proof.Gen.Kernel
import proofs.«106157_j5660766896751_2_alg».proof.Proof.Gen.KernelIdeal
import proofs.«106157_j5660766896751_2_alg».proof.Proof.Gen.ReferenceIdeal
import proofs.«106157_j5660766896751_2_alg».proof.Proof.Gen.Pre_finite_inputs
import proofs.«106157_j5660766896751_2_alg».proof.Proof.Gen.ReferenceIdeal.Read
import proofs.«106157_j5660766896751_2_alg».proof.Proof.KBRunAll
import proofs.«106157_j5660766896751_2_alg».proof.Proof.KIFinal
import proofs.«106157_j5660766896751_2_alg».proof.Proof.RefValue
import proofs.«106157_j5660766896751_2_alg».proof.Proof.PreFinite
import Idealize.ShloMosaic.Adequacy
import Idealize.ShloMosaic.Init

noncomputable section

namespace Cert.Proof

open Idealize.ShloMosaic Idealize.ShloMosaic.TcCoe Idealize.SL.Sem

/-- The kernel program as printed runs and leaves its arguments unchanged: its run, the result's contents dropped. -/
theorem frame_k : Cert.frame_Kernel := fun m ρ _ =>
  (θ_run (Cert.Kernel.defs (F := Bits)) _ _).mono (fun _ h c => (h c).2) (Cert.Kernel.Hand.run_all (F := Bits) m ρ)

/-- The same of its idealization. -/
theorem frame_ki : Cert.frame_KernelIdeal := fun m ρ _ =>
  (θ_run (Cert.KernelIdeal.defs (F := Ideal)) _ _).mono (fun _ h c => (h c).2) (Cert.KernelIdeal.Hand.run_all (F := Ideal) m ρ)

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- Both idealized programs end with the specification `G` of the (finite) argument arrays in their result buffers. -/
theorem algebraic : Cert.algebraic_KernelIdeal_ReferenceIdeal := by
  intro m ρ m' ρ' hpre hagree
  have hfin := fun c : Dev Cert.KernelIdeal.nD => Cert.PreFinite.fin_of_pre _ _ _ _ (hpre c)
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun _ h c => ⟨(h c).1.trans ?_, (h c).2⟩)
      (Cert.KernelIdeal.Hand.run_all (F := Ideal) m ρ)
    exact Cert.KernelIdeal.Hand.res_eq_G m c (hfin c).1 (hfin c).2.1 (hfin c).2.2.1 (hfin c).2.2.2
  · refine (θ_run (Cert.ReferenceIdeal.defs (F := Ideal)) _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v20_eq _ _ _ _).trans
      (Cert.ReferenceIdeal.RefValue.ref_eq_G _ _ _ _ (hfin c).1 (hfin c).2.1 (hfin c).2.2.1 (hfin c).2.2.2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
